-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S800000 : Shape := ⟨1, ![800000]⟩
abbrev S300x128 : Shape := ⟨2, ![300, 128]⟩
abbrev S128 : Shape := ⟨1, ![128]⟩
abbrev S128x128 : Shape := ⟨2, ![128, 128]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x300 .f32) (main_arg1 : IVec S800000 32) (main_arg2 : IVec S800000 32) (main_arg3 : FVec F S300x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S300x128 .f32 := Host.absf main_arg3
  let main_cst_0 : FVec F S_ .f32 := constant S_ .f32 0x7F800000#32
  let main_v5 : FVec F S300x128 .f32 := broadcastInDim S300x128 ![] bcast_S_S300x128 main_cst_0
  let main_v6 : IVec S300x128 1 := cmpf .olt main_v4 main_v5
  let main_c_1 : IVec S_ 1 := constantI S_ 1 1#1
  let main_v7 : IVec S_ 1 := (fun x v => Host.reduce IntOp.andi x v reducesTo_S300x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x300 : Shape := ⟨2, ![50000, 300]⟩
abbrev S800000 : Shape := ⟨1, ![800000]⟩
abbrev S300x128 : Shape := ⟨2, ![300, 128]⟩
abbrev S128 : Shape := ⟨1, ![128]⟩
abbrev S128x128 : Shape := ⟨2, ![128, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S1000x300 : Shape := ⟨2, ![1000, 300]⟩
abbrev S1000x128 : Shape := ⟨2, ![1000, 128]⟩
abbrev S800000x128 : Shape := ⟨2, ![800000, 128]⟩
abbrev S1x128 : Shape := ⟨2, ![1, 128]⟩
abbrev S1000x1 : Shape := ⟨2, ![1000, 1]⟩
abbrev S1000 : Shape := ⟨1, ![1000]⟩

abbrev nBuf : Space → Nat
  | .hbm => 75
  | .vmem => 40
  | .smem => 0
  | _ => 0

abbrev bufTy : (tb : Table) → Fin (tcTables nBuf tb) → BufTy
  | .hbm, ⟨0, _⟩ => ⟨S50000x300, .f32⟩
  | .hbm, ⟨1, _⟩ => ⟨S800000, .i32⟩
  | .hbm, ⟨2, _⟩ => ⟨S800000, .i32⟩
  | .hbm, ⟨3, _⟩ => ⟨S300x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .local _ .vmem, ⟨0, _⟩ => ⟨S1000x300, .f32⟩
  | .local _ .vmem, ⟨1, _⟩ => ⟨S1000x300, .f32⟩
  | .local _ .vmem, ⟨2, _⟩ => ⟨S300x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x1, .f32⟩
  | .local _ .vmem, ⟨8, _⟩ => ⟨S1000x1, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S128x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x1, .f32⟩
  | .local _ .vmem, ⟨20, _⟩ => ⟨S1000x1, .f32⟩
  | .local _ .vmem, ⟨21, _⟩ => ⟨S1x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S128x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x1, .f32⟩
  | .local _ .vmem, ⟨32, _⟩ => ⟨S1000x1, .f32⟩
  | .local _ .vmem, ⟨33, _⟩ => ⟨S1x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S1000x128, .f32⟩
  | .local _ .vmem, ⟨39, _⟩ => ⟨S1000x128, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S1000x300_S1000x300_0_0 : ∀ a, (![0, 0] : Fin 2 → Nat) a + S1000x300.size a ≤ S1000x300.size a
  h_S1000x300 : 0 < S1000x300.numel
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  inb_S1000x128_S1000x128_0_0 : ∀ a, (![0, 0] : Fin 2 → Nat) a + S1000x128.size a ≤ S1000x128.size a
  h_S1000x128 : 0 < S1000x128.numel
  bcast_S_S50000x128 : S_.BroadcastsInDim S50000x128 (![] : Fin 0 → Fin S50000x128.rank)
  shapeCasts_S128_S1x128 : S128.ShapeCasts S1x128
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1000x1_S1000x128 : S1000x1.Broadcasts S1000x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  reduces_S1000x128_S1000 : S1000x128.Reduces [1] S1000
  shapeCasts_S1000_S1000x1 : S1000.ShapeCasts S1000x1
  scatter_S50000_S800000x1_S800000_n_0_0_1_wf : ScatterDims.WF S50000 S800000x1 S800000 [] [0] [0] 1
  dot_S1000x300_S300x128_S1000x128_1_0_0_1_n_n_wf : DotDims.WF S1000x300 S300x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x300.size a ≤ S50000x300.size a
  hwx0_0 : ∀ i : grid0.Coords, EltTy.bits .f32 = 32 ∨ (Rect.block (s := S50000x300) S1000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x128.size a ≤ S300x128.size a
  hwx0_1 : ∀ i : grid0.Coords, EltTy.bits .f32 = 32 ∨ (Rect.block (s := S300x128) S300x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S50000x128.size a
  hwx1_3 : ∀ i : grid1.Coords, EltTy.bits .f32 = 32 ∨ (Rect.block (s := S50000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .f32 = 32 ∨ (Rect.block (s := S50000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S50000x1.size a
  hwx3_1 : ∀ i : grid3.Coords, EltTy.bits .f32 = 32 ∨ (Rect.block (s := S50000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S50000x128.size a
  hwx3_3 : ∀ i : grid3.Coords, EltTy.bits .f32 = 32 ∨ (Rect.block (s := S50000x128) S1000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S50000x128.size a
  hwx4_2 : ∀ i : grid4.Coords, EltTy.bits .f32 = 32 ∨ (Rect.block (s := S50000x128) S1000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x1.size a ≤ S50000x1.size a
  hwx5_1 : ∀ i : grid5.Coords, EltTy.bits .f32 = 32 ∨ (Rect.block (s := S50000x1) S1000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x128.size a ≤ S50000x128.size a
  hwx5_3 : ∀ i : grid5.Coords, EltTy.bits .f32 = 32 ∨ (Rect.block (s := S50000x128) S1000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S50000x128.size a
  hwx6_0 : ∀ i : grid6.Coords, EltTy.bits .f32 = 32 ∨ (Rect.block (s := S50000x128) S1000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x128.size a ≤ S50000x128.size a
  hwx6_1 : ∀ i : grid6.Coords, EltTy.bits .f32 = 32 ∨ (Rect.block (s := S50000x128) S1000x128.size (cc6_transform_1 i) (hinb6_1 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x300_S300x128_S1000x128_1_0_0_1_n_n : DotDims S1000x300 S300x128 S1000x128 where
  lhsContracting := [1]
  rhsContracting := [0]
  lhsNonContracting := [0]
  rhsNonContracting := [1]
  lhsBatch := []
  rhsBatch := []
  wf := dot_S1000x300_S300x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S300x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v35) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v46) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S1000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v48) S1000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v48) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v49) S1000x128.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S50000x300 : Shape := ⟨2, ![50000, 300]⟩
abbrev S800000 : Shape := ⟨1, ![800000]⟩
abbrev S300x128 : Shape := ⟨2, ![300, 128]⟩
abbrev S128 : Shape := ⟨1, ![128]⟩
abbrev S128x128 : Shape := ⟨2, ![128, 128]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S50000x300, .f32⟩
  | .hbm, ⟨1, _⟩ => ⟨S800000, .i32⟩
  | .hbm, ⟨2, _⟩ => ⟨S800000, .i32⟩
  | .hbm, ⟨3, _⟩ => ⟨S300x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S_, .f32⟩
  | .hbm, ⟨47, _⟩ => ⟨S50000x128, .f32⟩
  | .hbm, ⟨48, _⟩ => ⟨S50000x128, .i1⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S_, .f32⟩
  | .hbm, ⟨75, _⟩ => ⟨S50000x128, .f32⟩
  | .hbm, ⟨76, _⟩ => ⟨S50000x128, .i1⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000, .f32⟩
  | .hbm, ⟨104, _⟩ => ⟨S50000x1, .f32⟩
  | .hbm, ⟨105, _⟩ => ⟨S50000x1, .f32⟩
  | .hbm, ⟨106, _⟩ => ⟨S_, .f32⟩
  | .hbm, ⟨107, _⟩ => ⟨S50000x1, .f32⟩
  | .hbm, ⟨108, _⟩ => ⟨S50000x1, .f32⟩
  | .hbm, ⟨109, _⟩ => ⟨S50000x128, .f32⟩
  | .hbm, ⟨110, _⟩ => ⟨S50000x128, .f32⟩
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v26 : Ref sig .tc := ⟨.hbm, 52, rfl⟩
abbrev main_v27 : Ref sig .tc := ⟨.hbm, 53, rfl⟩
abbrev main_c_7 : Ref sig .tc := ⟨.hbm, 54, rfl⟩
abbrev main_v28 : Ref sig .tc := ⟨.hbm, 55, rfl⟩
abbrev main_v29 : Ref sig .tc := ⟨.hbm, 56, rfl⟩
abbrev main_c_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_9 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_10 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v44 : Ref sig .tc := ⟨.hbm, 80, rfl⟩
abbrev main_v45 : Ref sig .tc := ⟨.hbm, 81, rfl⟩
abbrev main_c_11 : Ref sig .tc := ⟨.hbm, 82, rfl⟩
abbrev main_v46 : Ref sig .tc := ⟨.hbm, 83, rfl⟩
abbrev main_v47 : Ref sig .tc := ⟨.hbm, 84, rfl⟩
abbrev main_c_12 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_13 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_14 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_15 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  scatter_S50000_S800000x1_S800000_n_0_0_1_wf : ScatterDims.WF S50000 S800000x1 S800000 [] [0] [0] 1
  dot_S50000x300_S300x128_S50000x128_1_0_0_1_n_n_wf : DotDims.WF S50000x300 S300x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x300_S300x128_S50000x128_1_0_0_1_n_n : DotDims S50000x300 S300x128 S50000x128 where
  lhsContracting := [1]
  rhsContracting := [0]
  lhsNonContracting := [0]
  rhsNonContracting := [1]
  lhsBatch := []
  rhsBatch := []
  wf := dot_S50000x300_S300x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  A three-layer graph convolution with mean aggregation over incoming edges, followed by a row-wise L2
  normalisation, written as a composition of whole-array functions.

  For node features `h` (one row per node), an edge list `(rows e, cols e)` and a dense layer `(w, b)`:
    * `degree cols` counts, for each node `c`, the edges with `cols e = c`; `invDegree` is `1 / degree` where the
      degree is positive and `0` elsewhere;
    * `aggregate t rows cols` sums, for each node `c`, the rows `t (rows e)` over the edges with `cols e = c`
      (a negative row number counts from the end, as in array indexing);
    * `affine agg inv b` scales row `c` of `agg` by `inv c` and adds the bias row `b`;
    * `leaky x` is `x` where `x ≥ 0` and `0.2 · x` elsewhere;
    * `rowNormalize h` divides each row by `max (‖row‖₂, 1e-12)`.
  `network` is `rowNormalize ∘ layer₃ ∘ leaky ∘ layer₂ ∘ leaky ∘ layer₁` with `layer h = affine (aggregate (h · w)) inv b`.
  Every function is stated for any float instance; the operations are the host's.
-/
import proofs.«109127_j52484500357541_1_alg».proof.ReferenceIdeal

noncomputable section

namespace Cert.Gcn

open Idealize.ShloMosaic Cert.ReferenceIdeal Cert.ReferenceIdeal.Facts₀

variable {F : FTy → Type} [FloatOps F] [Cert.ReferenceIdeal.Facts]

/-- The number of edges that point at each node, as a float: ones scatter-added into zeros at the edges' targets. -/
def degree (cols : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 cols)
    (broadcastInDim S800000 ![] bcast_S_S800000 (constant S_ .f32 0x3F800000#32))

/-- `1 / degree` where the degree is positive, `0` elsewhere. -/
def invDegree (cols : IVec S800000 32) : FVec F S50000 .f32 :=
  select (cmpf .ogt (degree (F := F) cols) (broadcastInDim S50000 ![] bcast_S_S50000 (constant S_ .f32 0x00000000#32)))
    (Host.divf (broadcastInDim S50000 ![] bcast_S_S50000 (constant S_ .f32 0x3F800000#32)) (degree cols))
    (broadcastInDim S50000 ![] bcast_S_S50000 (constant S_ .f32 0x00000000#32))

/-- The edges' source rows as a column of start indices, a negative row number shifted by the number of nodes. -/
def sourceRows (rows : IVec S800000 32) : IVec S800000x1 32 :=
  broadcastInDim S800000x1 ![0] bcast_S800000_S800000x1_0
    (select (cmpi .slt rows (broadcastInDim S800000 ![] bcast_S_S800000 (constantI S_ 32 0#32)))
      (addi rows (broadcastInDim S800000 ![] bcast_S_S800000 (constantI S_ 32 50000#32))) rows)

/-- For each node the sum of the rows of `t` at the sources of its incoming edges. -/
def aggregate (t : FVec F S50000x128 .f32) (rows cols : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 cols)
    (Host.gather gather_S50000x128_S800000x1_S800000x128_1_0_n_n_0_1_1128 t (sourceRows rows))

/-- Row `c` of `agg` times `inv c`, plus the bias row. -/
def affine (agg : FVec F S50000x128 .f32) (inv : FVec F S50000 .f32) (b : FVec F S128 .f32) : FVec F S50000x128 .f32 :=
  addf (mulf agg (broadcastInDim S50000x128 ![0, 1] bcast_S50000x1_S50000x128_0_1
      (broadcastInDim S50000x1 ![0] bcast_S50000_S50000x1_0 inv)))
    (broadcastInDim S50000x128 ![0, 1] bcast_S1x128_S50000x128_0_1 (broadcastInDim S1x128 ![1] bcast_S128_S1x128_1 b))

/-- `x` where `x ≥ 0`, `0.2 · x` elsewhere. -/
def leaky (x : FVec F S50000x128 .f32) : FVec F S50000x128 .f32 :=
  select (cmpf .oge x (broadcastInDim S50000x128 ![] bcast_S_S50000x128 (constant S_ .f32 0x00000000#32)))
    x (mulf (broadcastInDim S50000x128 ![] bcast_S_S50000x128 (constant S_ .f32 0x3E4CCCCD#32)) x)

/-- Each row divided by the larger of its Euclidean norm and `1e-12`. -/
def rowNormalize (h : FVec F S50000x128 .f32) : FVec F S50000x128 .f32 :=
  Host.divf h (broadcastInDim S50000x128 ![0, 1] bcast_S50000x1_S50000x128_0_1
    (maximumf (Host.sqrt (broadcastInDim S50000x1 ![0] bcast_S50000_S50000x1_0
        (Host.reduceAdd (mulf h h) (constant S_ .f32 0x00000000#32) reducesTo_S50000x128_S50000_d1 h_S_)))
      (broadcastInDim S50000x1 ![] bcast_S_S50000x1 (constant S_ .f32 0x2B8CBCCC#32))))

/-- The first dense product, over the 300 input features. -/
def project300 (h : FVec F S50000x300 .f32) (w : FVec F S300x128 .f32) : FVec F S50000x128 .f32 :=
  Host.dotGeneral dot_S50000x300_S300x128_S50000x128_1_0_0_1_n_n none h w

/-- A dense product over 128 hidden features. -/
def project128 (h : FVec F S50000x128 .f32) (w : FVec F S128x128 .f32) : FVec F S50000x128 .f32 :=
  Host.dotGeneral dot_S50000x128_S128x128_S50000x128_1_0_0_1_n_n none h w

/-- One layer on already projected features: aggregate over incoming edges, scale by the inverse degree, add the bias. -/
def convolve (t : FVec F S50000x128 .f32) (rows cols : IVec S800000 32) (b : FVec F S128 .f32) : FVec F S50000x128 .f32 :=
  affine (aggregate t rows cols) (invDegree cols) b

/-- The whole network. -/
def network (x : FVec F S50000x300 .f32) (rows cols : IVec S800000 32) (w1 : FVec F S300x128 .f32) (b1 : FVec F S128 .f32)
    (w2 : FVec F S128x128 .f32) (b2 : FVec F S128 .f32) (w3 : FVec F S128x128 .f32) (b3 : FVec F S128 .f32) :
    FVec F S50000x128 .f32 :=
  rowNormalize (convolve (project128 (leaky (convolve (project128 (leaky (convolve (project300 x w1) rows cols b1)) w2)
    rows cols b2)) w3) rows cols b3)

end Cert.Gcn

end
-- ==== Proof.KernelRun.lean ====
/-
  The kernel program's run with its result named.

  The generated frame certificate shows that every weakly fair execution of the kernel program ends, without a fault,
  with the nine argument arrays as launched. Its proof goes through a stronger fact about the final state: every
  unscoped buffer of a core holds what the last boundary of the program's thirteen segments assigns to it
  (`Gen.W13`, a fold from the launch memory through the host stretches and the seven regions). Here the same launch
  theorem is applied to the same segments, and the final-state fact is read at one more buffer, the result array
  `main_v49`: the run ends with `main_v49` at `Gen.W13 … main_v49`, beside the arguments as launched.
-/
import proofs.«109127_j52484500357541_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the launch theorem's implicit arguments are found by unifying its conclusion with this one, which takes unfolding
-- plain definitions in a metavariable's type
set_option backward.isDefEq.respectTransparency.types false in
/-- From any memory with zero counters, every weakly fair execution of the kernel program on the TensorCores ends,
    nothing faulting, in a state whose result array `main_v49` holds the last boundary's contents `Gen.W13` and whose
    argument arrays are as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v49) = Gen.W13 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v49 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.RunValue

end
-- ==== Proof.LibStretchRead.lean ====
/-
  Reading one buffer after a long straight line of host operations, through the one stretch that writes it.

  `StableHlo.after ops V` folds every operation of `ops` over the buffer contents `V`. When the line is long, a buffer
  written early is read back through all the later operations one by one. If `Wr` lists, operation by operation, the
  one reference each operation may write (`WritesOnly ops Wr`), then:

  * a reference not in `Wr` is never written: `after ops V` still holds `V` there (`after_of_not_mem_writesOnly`);
  * a reference that none of the operations after position `a + n` writes is read off the stretch of `n` operations
    from position `a`, run from the contents the first `a` operations leave (`after_read_stretch`);
  * the first `a` operations leave every reference they do not write as it was (`after_take_of_not_mem`), and already
    leave in a reference no later operation writes what the whole line leaves (`after_take_eq`).

  Membership in `Wr` (a list of references) is decided in one pass, so each buffer of a program of hundreds of operations
  costs one short stretch instead of the whole fold.
-/
import Idealize.ShloMosaic.Lib.StableHlo.Run
import Mathlib.Data.List.Forall2

noncomputable section

namespace Idealize.ShloMosaic.StableHlo

variable {τ : Topo} {sig : RefSig} {Val : EltTy → Type}

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `Wr` names, operation by operation, the one reference each operation of `ops` may write. -/
def WritesOnly (ops : List (HloOp τ sig Val)) (Wr : List (Ref sig .tc)) : Prop :=
  List.Forall₂ (fun op r => op.writes ⊆ ({Proc.devRef (τ := τ) .tc r} : Finset (DevRef τ sig))) ops Wr

/-- A reference none of the operations may write keeps its contents. -/
theorem after_of_not_mem_writesOnly {ops : List (HloOp τ sig Val)} {Wr : List (Ref sig .tc)} (h : WritesOnly ops Wr)
    (V : Valuation τ sig Val) (r : Ref sig .tc) (hr : r ∉ Wr) :
    after ops V (Proc.devRef .tc r) = V (Proc.devRef .tc r) := by
  refine after_of_forall_not_mem ops V ?_
  unfold WritesOnly at h
  induction h with
  | nil => intro op hop; exact absurd hop List.not_mem_nil
  | @cons op r₀ l W hop _ ih =>
    intro op' hop'
    rcases List.mem_cons.mp hop' with rfl | hmem
    · intro hb
      have := Finset.mem_singleton.mp (hop hb)
      exact hr (by rw [Proc.devRef_injective _ this]; exact List.mem_cons_self)
    · exact ih (fun hm => hr (List.mem_cons_of_mem _ hm)) op' hmem

/-- The first `a` operations leave a reference they may not write as it was. -/
theorem after_take_of_not_mem {ops : List (HloOp τ sig Val)} {Wr : List (Ref sig .tc)} (h : WritesOnly ops Wr) (a : Nat)
    (V : Valuation τ sig Val) (r : Ref sig .tc) (hr : r ∉ Wr.take a) :
    after (ops.take a) V (Proc.devRef .tc r) = V (Proc.devRef .tc r) :=
  after_of_not_mem_writesOnly (List.forall₂_take a h) V r hr

/-- A reference that no operation after position `a + n` may write is read, after the whole line, off the stretch of
    `n` operations from position `a`, run from what the first `a` operations leave. -/
theorem after_read_stretch {ops : List (HloOp τ sig Val)} {Wr : List (Ref sig .tc)} (h : WritesOnly ops Wr) (a n : Nat)
    (V : Valuation τ sig Val) (r : Ref sig .tc) (hr : r ∉ (Wr.drop a).drop n) :
    after ops V (Proc.devRef .tc r) = after ((ops.drop a).take n) (after (ops.take a) V) (Proc.devRef .tc r) := by
  have e : ops = ops.take a ++ ((ops.drop a).take n ++ (ops.drop a).drop n) := by
    rw [List.take_append_drop, List.take_append_drop]
  conv_lhs => rw [e]
  rw [after_append, after_append]
  exact after_of_not_mem_writesOnly (List.forall₂_drop n (List.forall₂_drop a h)) _ r hr

/-- The first `p` operations already leave, in a reference no later operation may write, what the whole line leaves. -/
theorem after_take_eq {ops : List (HloOp τ sig Val)} {Wr : List (Ref sig .tc)} (h : WritesOnly ops Wr) (p : Nat)
    (V : Valuation τ sig Val) (r : Ref sig .tc) (hr : r ∉ Wr.drop p) :
    after (ops.take p) V (Proc.devRef .tc r) = after ops V (Proc.devRef .tc r) := by
  conv_rhs => rw [← List.take_append_drop p ops]
  rw [after_append]
  exact (after_of_not_mem_writesOnly (List.forall₂_drop p h) _ r hr).symm

end Idealize.ShloMosaic.StableHlo

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.LibTypedTransport.lean ====
/-
  A typed reference's transport of contents, there and back.

  A function called from a program names its arrays by typed references: a buffer together with the equation "this
  buffer's type is the value's type". Contents are moved into the buffer's own type along that equation when an operation
  writes them, and back along the same equation when a later operation reads them. The two moves cancel, whatever the
  equation's proof: so, reading a line of such operations, every value handed from one operation to the next arrives
  unchanged, and only the first reads and the last write keep a transport. (With this rule added to the one-pass reading
  of a line of operations, what is left to compare is the operations' own term.)
-/
import Idealize.ShloMosaic.Lib.StableHlo.Run

noncomputable section

namespace Idealize.ShloMosaic.StableHlo.TRef

variable {sig : RefSig} {Val : EltTy → Type} {T : BufTy}

/-- Contents moved to a buffer's own type and back along the same equation are themselves. -/
theorem ofBuf_toBuf (x : TRef sig T) (v : T.Contents Val) : x.ofBuf (x.toBuf v) = v := by
  unfold ofBuf toBuf
  simp

/-- Contents of the buffer's own type moved to the value's type and back are themselves. -/
theorem toBuf_ofBuf (x : TRef sig T) (v : x.ref.ty.Contents Val) : x.toBuf (x.ofBuf v) = v := by
  unfold ofBuf toBuf
  simp

end Idealize.ShloMosaic.StableHlo.TRef

end
-- ==== Proof.LibColumnOfVector.lean ====
/-
  A vector laid out as one column.

  An array of shape `[a]` reshaped to `[a, 1]` keeps its entries in order: the entry at `(p, z)` (the unit coordinate
  `z` is `0`) is the vector's entry at `p`.
-/
import Idealize.ShloMosaic.Lib.Pipeline.Value
import Idealize.ShloMosaic.Lib.ValueIdx
import Idealize.ShloMosaic.Lib.ValueLayout

noncomputable section

namespace Idealize.ShloMosaic.ColumnOfVector

open Idealize.ShloMosaic Idealize.ShloMosaic.ValueIdx

/-- An `[a]` array cast to `[a, 1]` reads, at `(p, z)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Idealize.ShloMosaic.ColumnOfVector

end
-- ==== Proof.KernelChain.lean ====
/-
  The kernel program's result, read back through its thirteen segment boundaries.

  The kernel program computes a three-layer graph convolution followed by a row normalisation. Its run is a fold of
  buffer contents through six stretches of host operations and seven tiled regions (`Gen.W0` … `Gen.W13`). Here each
  buffer that matters is read at each boundary:

  * an array no operation of a stretch writes, and no region has as its output, keeps its contents across that segment
    (the nine arguments, and the column of inverse degrees once it is formed);
  * the host stretches write exactly the reference's whole-array functions of what they read: the inverse degree of
    every node and its layout as a column before the first region; before each combining region the aggregate over the
    incoming edges of the projected features, and the bias laid out as a row;
  * each region's output array holds the function of its input arrays that the region's own fact (a hypothesis here)
    states: a dense product, an affine combination (followed by the leaky rectifier in the first two layers), or the row
    normalisation.

  Chained, the last boundary's contents of the result array are the network function of the nine launch arguments.
-/
import proofs.«109127_j52484500357541_1_alg».proof.Proof.Gen.KernelIdeal.Frame
import proofs.«109127_j52484500357541_1_alg».proof.Proof.Spec
import Idealize.ShloMosaic.Lib.StableHlo.Run
import Idealize.ShloMosaic.Lib.ValueIdx
import Idealize.ShloMosaic.Lib.ValueLayout
import proofs.«109127_j52484500357541_1_alg».proof.Proof.LibStretchRead
import proofs.«109127_j52484500357541_1_alg».proof.Proof.LibJoinedPair
import proofs.«109127_j52484500357541_1_alg».proof.Proof.LibTypedTransport
import proofs.«109127_j52484500357541_1_alg».proof.Proof.LibColumnOfVector

set_option maxRecDepth 16384

noncomputable section

namespace Cert.KernelIdeal.ChainValue

open Idealize.ShloMosaic Idealize.ShloMosaic.TcCoe
open Idealize.ShloMosaic.ValueIdx
open Idealize.ShloMosaic.StableHlo (WritesOnly)
open Cert.KernelIdeal Cert.KernelIdeal.Gen

variable [Cert.ReferenceIdeal.Facts]

/-- The TensorCores' buffer contents, as a region's facts take them. -/
abbrev VT : Type := (c : Dev nD) → (b : Ref sig .tc) → Buf (Elt Ideal) ((c : Thread nD τ).loc b)

/-! ## What each host stretch may write: one reference per operation, in order -/

theorem writes0 : WritesOnly (hostOps0 : List (HloOp τ sig (Elt Ideal))) [main_cst, main_v0, main_cst_0, main_v1, main_v2, main_v3, main_cst_1, main_v4, main_v5, main_cst_2, main_v6, main_v7, main_cst_3] :=
  List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.nil)))))))))))))

theorem writes1 : WritesOnly (hostOps1 : List (HloOp τ sig (Elt Ideal))) [main_c, main_v11, main_v12, main_c_4, main_v13, main_v14, main_v15, main_v16, main_v17, main_cst_5, main_v18, main_v19, main_v20, main_v21] :=
  List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.nil))))))))))))))

theorem writes3 : WritesOnly (hostOps3 : List (HloOp τ sig (Elt Ideal))) [main_c_6, main_v24, main_v25, main_c_7, main_v26, main_v27, main_v28, main_v29, main_v30, main_cst_8, main_v31, main_v32, main_v33, main_v34] :=
  List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.nil))))))))))))))

theorem writes5 : WritesOnly (hostOps5 : List (HloOp τ sig (Elt Ideal))) [main_c_9, main_v37, main_v38, main_c_10, main_v39, main_v40, main_v41, main_v42, main_v43, main_cst_11, main_v44, main_v45, main_v46, main_v47] :=
  List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.nil))))))))))))))

theorem writes0_1 : WritesOnly (hostOps0_1 : List (HloOp τ sig (Elt Ideal))) [main_call0_v0, main_call0_v1, main_v8] :=
  List.Forall₂.cons (Finset.Subset.refl _) (List.Forall₂.cons (Finset.Subset.refl _) (List.Forall₂.cons (Finset.Subset.refl _) (List.Forall₂.nil)))

theorem writes0_2 : WritesOnly (hostOps0_2 : List (HloOp τ sig (Elt Ideal))) [main_v9] :=
  List.Forall₂.cons (Finset.Subset.refl _) (List.Forall₂.nil)

variable (m : (ℓ : Loc nD τ sig) → Buf (Elt Ideal) ℓ) (ρ : Dev nD → PrngReg) (c : Dev nD)

/-! ## The arguments, carried from the launch to the boundary where each is last read

No operation of a stretch writes an argument, and a region reads it through an input window or not at all. -/

theorem W0_arg0 : Gen.W0 m ρ c (Proc.devRef .tc main_arg0) = m ((c : Thread nD τ).loc main_arg0) := rfl
theorem W1_arg0 : Gen.W1 m ρ c (Proc.devRef .tc main_arg0) = m ((c : Thread nD τ).loc main_arg0) :=
  (StableHlo.after_of_not_mem_writesOnly writes0 _ main_arg0 (by decide)).trans (W0_arg0 m ρ c)
theorem W2_arg0 : Gen.W2 m ρ c (Proc.devRef .tc main_arg0) = m ((c : Thread nD τ).loc main_arg0) :=
  (StableHlo.after_of_not_mem_writesOnly writes0_1 _ main_arg0 (by decide)).trans (W1_arg0 m ρ c)
theorem W3_arg0 : Gen.W3 m ρ c (Proc.devRef .tc main_arg0) = m ((c : Thread nD τ).loc main_arg0) :=
  (StableHlo.after_of_not_mem_writesOnly writes0_2 _ main_arg0 (by decide)).trans (W2_arg0 m ρ c)

theorem W0_arg1 : Gen.W0 m ρ c (Proc.devRef .tc main_arg1) = m ((c : Thread nD τ).loc main_arg1) := rfl
theorem W1_arg1 : Gen.W1 m ρ c (Proc.devRef .tc main_arg1) = m ((c : Thread nD τ).loc main_arg1) :=
  (StableHlo.after_of_not_mem_writesOnly writes0 _ main_arg1 (by decide)).trans (W0_arg1 m ρ c)
theorem W2_arg1 : Gen.W2 m ρ c (Proc.devRef .tc main_arg1) = m ((c : Thread nD τ).loc main_arg1) :=
  (StableHlo.after_of_not_mem_writesOnly writes0_1 _ main_arg1 (by decide)).trans (W1_arg1 m ρ c)
theorem W3_arg1 : Gen.W3 m ρ c (Proc.devRef .tc main_arg1) = m ((c : Thread nD τ).loc main_arg1) :=
  (StableHlo.after_of_not_mem_writesOnly writes0_2 _ main_arg1 (by decide)).trans (W2_arg1 m ρ c)
theorem W4_arg1 : Gen.W4 m ρ c (Proc.devRef .tc main_arg1) = m ((c : Thread nD τ).loc main_arg1) :=
  (Gen.W4_of_ne m ρ c main_arg1 (by decide)).trans (W3_arg1 m ρ c)
theorem W5_arg1 : Gen.W5 m ρ c (Proc.devRef .tc main_arg1) = m ((c : Thread nD τ).loc main_arg1) :=
  (StableHlo.after_of_not_mem_writesOnly writes1 _ main_arg1 (by decide)).trans (W4_arg1 m ρ c)
theorem W6_arg1 : Gen.W6 m ρ c (Proc.devRef .tc main_arg1) = m ((c : Thread nD τ).loc main_arg1) :=
  (Gen.W6_of_ne m ρ c main_arg1 (by decide)).trans (W5_arg1 m ρ c)
theorem W7_arg1 : Gen.W7 m ρ c (Proc.devRef .tc main_arg1) = m ((c : Thread nD τ).loc main_arg1) :=
  (Gen.W7_of_ne m ρ c main_arg1 (by decide)).trans (W6_arg1 m ρ c)
theorem W8_arg1 : Gen.W8 m ρ c (Proc.devRef .tc main_arg1) = m ((c : Thread nD τ).loc main_arg1) :=
  (StableHlo.after_of_not_mem_writesOnly writes3 _ main_arg1 (by decide)).trans (W7_arg1 m ρ c)
theorem W9_arg1 : Gen.W9 m ρ c (Proc.devRef .tc main_arg1) = m ((c : Thread nD τ).loc main_arg1) :=
  (Gen.W9_of_ne m ρ c main_arg1 (by decide)).trans (W8_arg1 m ρ c)
theorem W10_arg1 : Gen.W10 m ρ c (Proc.devRef .tc main_arg1) = m ((c : Thread nD τ).loc main_arg1) :=
  (Gen.W10_of_ne m ρ c main_arg1 (by decide)).trans (W9_arg1 m ρ c)

theorem W0_arg2 : Gen.W0 m ρ c (Proc.devRef .tc main_arg2) = m ((c : Thread nD τ).loc main_arg2) := rfl
theorem W1_arg2 : Gen.W1 m ρ c (Proc.devRef .tc main_arg2) = m ((c : Thread nD τ).loc main_arg2) :=
  (StableHlo.after_of_not_mem_writesOnly writes0 _ main_arg2 (by decide)).trans (W0_arg2 m ρ c)
theorem W2_arg2 : Gen.W2 m ρ c (Proc.devRef .tc main_arg2) = m ((c : Thread nD τ).loc main_arg2) :=
  (StableHlo.after_of_not_mem_writesOnly writes0_1 _ main_arg2 (by decide)).trans (W1_arg2 m ρ c)
theorem W3_arg2 : Gen.W3 m ρ c (Proc.devRef .tc main_arg2) = m ((c : Thread nD τ).loc main_arg2) :=
  (StableHlo.after_of_not_mem_writesOnly writes0_2 _ main_arg2 (by decide)).trans (W2_arg2 m ρ c)
theorem W4_arg2 : Gen.W4 m ρ c (Proc.devRef .tc main_arg2) = m ((c : Thread nD τ).loc main_arg2) :=
  (Gen.W4_of_ne m ρ c main_arg2 (by decide)).trans (W3_arg2 m ρ c)
theorem W5_arg2 : Gen.W5 m ρ c (Proc.devRef .tc main_arg2) = m ((c : Thread nD τ).loc main_arg2) :=
  (StableHlo.after_of_not_mem_writesOnly writes1 _ main_arg2 (by decide)).trans (W4_arg2 m ρ c)
theorem W6_arg2 : Gen.W6 m ρ c (Proc.devRef .tc main_arg2) = m ((c : Thread nD τ).loc main_arg2) :=
  (Gen.W6_of_ne m ρ c main_arg2 (by decide)).trans (W5_arg2 m ρ c)
theorem W7_arg2 : Gen.W7 m ρ c (Proc.devRef .tc main_arg2) = m ((c : Thread nD τ).loc main_arg2) :=
  (Gen.W7_of_ne m ρ c main_arg2 (by decide)).trans (W6_arg2 m ρ c)
theorem W8_arg2 : Gen.W8 m ρ c (Proc.devRef .tc main_arg2) = m ((c : Thread nD τ).loc main_arg2) :=
  (StableHlo.after_of_not_mem_writesOnly writes3 _ main_arg2 (by decide)).trans (W7_arg2 m ρ c)
theorem W9_arg2 : Gen.W9 m ρ c (Proc.devRef .tc main_arg2) = m ((c : Thread nD τ).loc main_arg2) :=
  (Gen.W9_of_ne m ρ c main_arg2 (by decide)).trans (W8_arg2 m ρ c)
theorem W10_arg2 : Gen.W10 m ρ c (Proc.devRef .tc main_arg2) = m ((c : Thread nD τ).loc main_arg2) :=
  (Gen.W10_of_ne m ρ c main_arg2 (by decide)).trans (W9_arg2 m ρ c)

theorem W0_arg3 : Gen.W0 m ρ c (Proc.devRef .tc main_arg3) = m ((c : Thread nD τ).loc main_arg3) := rfl
theorem W1_arg3 : Gen.W1 m ρ c (Proc.devRef .tc main_arg3) = m ((c : Thread nD τ).loc main_arg3) :=
  (StableHlo.after_of_not_mem_writesOnly writes0 _ main_arg3 (by decide)).trans (W0_arg3 m ρ c)
theorem W2_arg3 : Gen.W2 m ρ c (Proc.devRef .tc main_arg3) = m ((c : Thread nD τ).loc main_arg3) :=
  (StableHlo.after_of_not_mem_writesOnly writes0_1 _ main_arg3 (by decide)).trans (W1_arg3 m ρ c)
theorem W3_arg3 : Gen.W3 m ρ c (Proc.devRef .tc main_arg3) = m ((c : Thread nD τ).loc main_arg3) :=
  (StableHlo.after_of_not_mem_writesOnly writes0_2 _ main_arg3 (by decide)).trans (W2_arg3 m ρ c)

theorem W0_arg4 : Gen.W0 m ρ c (Proc.devRef .tc main_arg4) = m ((c : Thread nD τ).loc main_arg4) := rfl
theorem W1_arg4 : Gen.W1 m ρ c (Proc.devRef .tc main_arg4) = m ((c : Thread nD τ).loc main_arg4) :=
  (StableHlo.after_of_not_mem_writesOnly writes0 _ main_arg4 (by decide)).trans (W0_arg4 m ρ c)
theorem W2_arg4 : Gen.W2 m ρ c (Proc.devRef .tc main_arg4) = m ((c : Thread nD τ).loc main_arg4) :=
  (StableHlo.after_of_not_mem_writesOnly writes0_1 _ main_arg4 (by decide)).trans (W1_arg4 m ρ c)
theorem W3_arg4 : Gen.W3 m ρ c (Proc.devRef .tc main_arg4) = m ((c : Thread nD τ).loc main_arg4) :=
  (StableHlo.after_of_not_mem_writesOnly writes0_2 _ main_arg4 (by decide)).trans (W2_arg4 m ρ c)
theorem W4_arg4 : Gen.W4 m ρ c (Proc.devRef .tc main_arg4) = m ((c : Thread nD τ).loc main_arg4) :=
  (Gen.W4_of_ne m ρ c main_arg4 (by decide)).trans (W3_arg4 m ρ c)

theorem W0_arg5 : Gen.W0 m ρ c (Proc.devRef .tc main_arg5) = m ((c : Thread nD τ).loc main_arg5) := rfl
theorem W1_arg5 : Gen.W1 m ρ c (Proc.devRef .tc main_arg5) = m ((c : Thread nD τ).loc main_arg5) :=
  (StableHlo.after_of_not_mem_writesOnly writes0 _ main_arg5 (by decide)).trans (W0_arg5 m ρ c)
theorem W2_arg5 : Gen.W2 m ρ c (Proc.devRef .tc main_arg5) = m ((c : Thread nD τ).loc main_arg5) :=
  (StableHlo.after_of_not_mem_writesOnly writes0_1 _ main_arg5 (by decide)).trans (W1_arg5 m ρ c)
theorem W3_arg5 : Gen.W3 m ρ c (Proc.devRef .tc main_arg5) = m ((c : Thread nD τ).loc main_arg5) :=
  (StableHlo.after_of_not_mem_writesOnly writes0_2 _ main_arg5 (by decide)).trans (W2_arg5 m ρ c)
theorem W4_arg5 : Gen.W4 m ρ c (Proc.devRef .tc main_arg5) = m ((c : Thread nD τ).loc main_arg5) :=
  (Gen.W4_of_ne m ρ c main_arg5 (by decide)).trans (W3_arg5 m ρ c)
theorem W5_arg5 : Gen.W5 m ρ c (Proc.devRef .tc main_arg5) = m ((c : Thread nD τ).loc main_arg5) :=
  (StableHlo.after_of_not_mem_writesOnly writes1 _ main_arg5 (by decide)).trans (W4_arg5 m ρ c)
theorem W6_arg5 : Gen.W6 m ρ c (Proc.devRef .tc main_arg5) = m ((c : Thread nD τ).loc main_arg5) :=
  (Gen.W6_of_ne m ρ c main_arg5 (by decide)).trans (W5_arg5 m ρ c)

theorem W0_arg6 : Gen.W0 m ρ c (Proc.devRef .tc main_arg6) = m ((c : Thread nD τ).loc main_arg6) := rfl
theorem W1_arg6 : Gen.W1 m ρ c (Proc.devRef .tc main_arg6) = m ((c : Thread nD τ).loc main_arg6) :=
  (StableHlo.after_of_not_mem_writesOnly writes0 _ main_arg6 (by decide)).trans (W0_arg6 m ρ c)
theorem W2_arg6 : Gen.W2 m ρ c (Proc.devRef .tc main_arg6) = m ((c : Thread nD τ).loc main_arg6) :=
  (StableHlo.after_of_not_mem_writesOnly writes0_1 _ main_arg6 (by decide)).trans (W1_arg6 m ρ c)
theorem W3_arg6 : Gen.W3 m ρ c (Proc.devRef .tc main_arg6) = m ((c : Thread nD τ).loc main_arg6) :=
  (StableHlo.after_of_not_mem_writesOnly writes0_2 _ main_arg6 (by decide)).trans (W2_arg6 m ρ c)
theorem W4_arg6 : Gen.W4 m ρ c (Proc.devRef .tc main_arg6) = m ((c : Thread nD τ).loc main_arg6) :=
  (Gen.W4_of_ne m ρ c main_arg6 (by decide)).trans (W3_arg6 m ρ c)
theorem W5_arg6 : Gen.W5 m ρ c (Proc.devRef .tc main_arg6) = m ((c : Thread nD τ).loc main_arg6) :=
  (StableHlo.after_of_not_mem_writesOnly writes1 _ main_arg6 (by decide)).trans (W4_arg6 m ρ c)
theorem W6_arg6 : Gen.W6 m ρ c (Proc.devRef .tc main_arg6) = m ((c : Thread nD τ).loc main_arg6) :=
  (Gen.W6_of_ne m ρ c main_arg6 (by decide)).trans (W5_arg6 m ρ c)
theorem W7_arg6 : Gen.W7 m ρ c (Proc.devRef .tc main_arg6) = m ((c : Thread nD τ).loc main_arg6) :=
  (Gen.W7_of_ne m ρ c main_arg6 (by decide)).trans (W6_arg6 m ρ c)

theorem W0_arg7 : Gen.W0 m ρ c (Proc.devRef .tc main_arg7) = m ((c : Thread nD τ).loc main_arg7) := rfl
theorem W1_arg7 : Gen.W1 m ρ c (Proc.devRef .tc main_arg7) = m ((c : Thread nD τ).loc main_arg7) :=
  (StableHlo.after_of_not_mem_writesOnly writes0 _ main_arg7 (by decide)).trans (W0_arg7 m ρ c)
theorem W2_arg7 : Gen.W2 m ρ c (Proc.devRef .tc main_arg7) = m ((c : Thread nD τ).loc main_arg7) :=
  (StableHlo.after_of_not_mem_writesOnly writes0_1 _ main_arg7 (by decide)).trans (W1_arg7 m ρ c)
theorem W3_arg7 : Gen.W3 m ρ c (Proc.devRef .tc main_arg7) = m ((c : Thread nD τ).loc main_arg7) :=
  (StableHlo.after_of_not_mem_writesOnly writes0_2 _ main_arg7 (by decide)).trans (W2_arg7 m ρ c)
theorem W4_arg7 : Gen.W4 m ρ c (Proc.devRef .tc main_arg7) = m ((c : Thread nD τ).loc main_arg7) :=
  (Gen.W4_of_ne m ρ c main_arg7 (by decide)).trans (W3_arg7 m ρ c)
theorem W5_arg7 : Gen.W5 m ρ c (Proc.devRef .tc main_arg7) = m ((c : Thread nD τ).loc main_arg7) :=
  (StableHlo.after_of_not_mem_writesOnly writes1 _ main_arg7 (by decide)).trans (W4_arg7 m ρ c)
theorem W6_arg7 : Gen.W6 m ρ c (Proc.devRef .tc main_arg7) = m ((c : Thread nD τ).loc main_arg7) :=
  (Gen.W6_of_ne m ρ c main_arg7 (by decide)).trans (W5_arg7 m ρ c)
theorem W7_arg7 : Gen.W7 m ρ c (Proc.devRef .tc main_arg7) = m ((c : Thread nD τ).loc main_arg7) :=
  (Gen.W7_of_ne m ρ c main_arg7 (by decide)).trans (W6_arg7 m ρ c)
theorem W8_arg7 : Gen.W8 m ρ c (Proc.devRef .tc main_arg7) = m ((c : Thread nD τ).loc main_arg7) :=
  (StableHlo.after_of_not_mem_writesOnly writes3 _ main_arg7 (by decide)).trans (W7_arg7 m ρ c)
theorem W9_arg7 : Gen.W9 m ρ c (Proc.devRef .tc main_arg7) = m ((c : Thread nD τ).loc main_arg7) :=
  (Gen.W9_of_ne m ρ c main_arg7 (by decide)).trans (W8_arg7 m ρ c)

theorem W0_arg8 : Gen.W0 m ρ c (Proc.devRef .tc main_arg8) = m ((c : Thread nD τ).loc main_arg8) := rfl
theorem W1_arg8 : Gen.W1 m ρ c (Proc.devRef .tc main_arg8) = m ((c : Thread nD τ).loc main_arg8) :=
  (StableHlo.after_of_not_mem_writesOnly writes0 _ main_arg8 (by decide)).trans (W0_arg8 m ρ c)
theorem W2_arg8 : Gen.W2 m ρ c (Proc.devRef .tc main_arg8) = m ((c : Thread nD τ).loc main_arg8) :=
  (StableHlo.after_of_not_mem_writesOnly writes0_1 _ main_arg8 (by decide)).trans (W1_arg8 m ρ c)
theorem W3_arg8 : Gen.W3 m ρ c (Proc.devRef .tc main_arg8) = m ((c : Thread nD τ).loc main_arg8) :=
  (StableHlo.after_of_not_mem_writesOnly writes0_2 _ main_arg8 (by decide)).trans (W2_arg8 m ρ c)
theorem W4_arg8 : Gen.W4 m ρ c (Proc.devRef .tc main_arg8) = m ((c : Thread nD τ).loc main_arg8) :=
  (Gen.W4_of_ne m ρ c main_arg8 (by decide)).trans (W3_arg8 m ρ c)
theorem W5_arg8 : Gen.W5 m ρ c (Proc.devRef .tc main_arg8) = m ((c : Thread nD τ).loc main_arg8) :=
  (StableHlo.after_of_not_mem_writesOnly writes1 _ main_arg8 (by decide)).trans (W4_arg8 m ρ c)
theorem W6_arg8 : Gen.W6 m ρ c (Proc.devRef .tc main_arg8) = m ((c : Thread nD τ).loc main_arg8) :=
  (Gen.W6_of_ne m ρ c main_arg8 (by decide)).trans (W5_arg8 m ρ c)
theorem W7_arg8 : Gen.W7 m ρ c (Proc.devRef .tc main_arg8) = m ((c : Thread nD τ).loc main_arg8) :=
  (Gen.W7_of_ne m ρ c main_arg8 (by decide)).trans (W6_arg8 m ρ c)
theorem W8_arg8 : Gen.W8 m ρ c (Proc.devRef .tc main_arg8) = m ((c : Thread nD τ).loc main_arg8) :=
  (StableHlo.after_of_not_mem_writesOnly writes3 _ main_arg8 (by decide)).trans (W7_arg8 m ρ c)
theorem W9_arg8 : Gen.W9 m ρ c (Proc.devRef .tc main_arg8) = m ((c : Thread nD τ).loc main_arg8) :=
  (Gen.W9_of_ne m ρ c main_arg8 (by decide)).trans (W8_arg8 m ρ c)
theorem W10_arg8 : Gen.W10 m ρ c (Proc.devRef .tc main_arg8) = m ((c : Thread nD τ).loc main_arg8) :=
  (Gen.W10_of_ne m ρ c main_arg8 (by decide)).trans (W9_arg8 m ρ c)

/-! ## The mathematical values: the layers of the network on the launch arguments -/

/-- The inverse in-degree of every node. -/
def inv : FVec Ideal S50000 .f32 := Cert.Gcn.invDegree (F := Ideal) (m ((c : Thread nD τ).loc main_arg2))
/-- Layer 1's projected features. -/
def t1 : FVec Ideal S50000x128 .f32 := Cert.Gcn.project300 (F := Ideal) (m ((c : Thread nD τ).loc main_arg0)) (m ((c : Thread nD τ).loc main_arg3))
/-- Layer 1's output. -/
def h1 : FVec Ideal S50000x128 .f32 :=
  Cert.Gcn.leaky (F := Ideal) (Cert.Gcn.affine (F := Ideal) (Cert.Gcn.aggregate (F := Ideal) (t1 m c) (m ((c : Thread nD τ).loc main_arg1)) (m ((c : Thread nD τ).loc main_arg2))) (inv m c) (m ((c : Thread nD τ).loc main_arg4)))
/-- Layer 2's projected features. -/
def t2 : FVec Ideal S50000x128 .f32 := Cert.Gcn.project128 (F := Ideal) (h1 m c) (m ((c : Thread nD τ).loc main_arg5))
/-- Layer 2's output. -/
def h2 : FVec Ideal S50000x128 .f32 :=
  Cert.Gcn.leaky (F := Ideal) (Cert.Gcn.affine (F := Ideal) (Cert.Gcn.aggregate (F := Ideal) (t2 m c) (m ((c : Thread nD τ).loc main_arg1)) (m ((c : Thread nD τ).loc main_arg2))) (inv m c) (m ((c : Thread nD τ).loc main_arg6)))
/-- Layer 3's projected features. -/
def t3 : FVec Ideal S50000x128 .f32 := Cert.Gcn.project128 (F := Ideal) (h2 m c) (m ((c : Thread nD τ).loc main_arg7))
/-- Layer 3's output, before the normalisation. -/
def h3 : FVec Ideal S50000x128 .f32 :=
  Cert.Gcn.affine (F := Ideal) (Cert.Gcn.aggregate (F := Ideal) (t3 m c) (m ((c : Thread nD τ).loc main_arg1)) (m ((c : Thread nD τ).loc main_arg2))) (inv m c) (m ((c : Thread nD τ).loc main_arg8))

/-! ## The inverse degrees: formed by the first three stretches, then carried as a column

The first stretch counts each node's incoming edges (ones scatter-added at the edges' targets), compares the count
with zero and divides one by it; the second selects between the quotient and zero; the third lays the vector out as
a column. The column is an input of the three combining regions and is written by nothing afterwards. -/

/-- The selecting stretch, from any contents: the mask picks the quotient, and zero elsewhere. -/
theorem where_v8 (V : Valuation τ sig (Elt Ideal)) :
    StableHlo.after hostOps0_1 V (Proc.devRef .tc main_v8)
      = select (V (Proc.devRef .tc main_v5)) (V (Proc.devRef .tc main_v7)) (broadcastInDim S50000 ![] Facts₀.bcast_S_S50000 (V (Proc.devRef .tc main_cst_3))) := by
  read_fold_casts [StableHlo.TRef.ofBuf_toBuf, StableHlo.TRef.toBuf_ofBuf]
  rfl

/-- The first stretch leaves the mask "the in-degree is positive". -/
theorem W1_v5 : Gen.W1 m ρ c (Proc.devRef .tc main_v5)
    = cmpf .ogt (Cert.Gcn.degree (F := Ideal) (m ((c : Thread nD τ).loc main_arg2))) (broadcastInDim S50000 ![] Facts₀.bcast_S_S50000 (constant S_ .f32 0x00000000#32)) := by
  show StableHlo.after hostOps0 _ (Proc.devRef .tc main_v5) = _
  after_results_simp
  rfl

/-- The first stretch leaves the quotient of one by the in-degree. -/
theorem W1_v7 : Gen.W1 m ρ c (Proc.devRef .tc main_v7)
    = Host.divf (broadcastInDim S50000 ![] Facts₀.bcast_S_S50000 (constant S_ .f32 0x3F800000#32)) (Cert.Gcn.degree (F := Ideal) (m ((c : Thread nD τ).loc main_arg2))) := by
  show StableHlo.after hostOps0 _ (Proc.devRef .tc main_v7) = _
  after_results_simp
  rfl

/-- The first stretch leaves the scalar zero the selection falls back on. -/
theorem W1_cst_3 : Gen.W1 m ρ c (Proc.devRef .tc main_cst_3) = constant (F := Ideal) S_ .f32 0x00000000#32 := by
  show StableHlo.after hostOps0 _ (Proc.devRef .tc main_cst_3) = _
  after_results_simp

theorem W2_v8 : Gen.W2 m ρ c (Proc.devRef .tc main_v8) = inv m c := by
  have h := where_v8 (Gen.W1 m ρ c)
  rw [W1_v5 m ρ c, W1_v7 m ρ c, W1_cst_3 m ρ c] at h
  exact h

theorem W3_v9 : Gen.W3 m ρ c (Proc.devRef .tc main_v9) = shapeCast S50000x1 (inv m c) Facts₀.shapeCasts_S50000_S50000x1 := by
  have h : Gen.W3 m ρ c (Proc.devRef .tc main_v9) = shapeCast S50000x1 (Gen.W2 m ρ c (Proc.devRef .tc main_v8)) Facts₀.shapeCasts_S50000_S50000x1 := by
    show StableHlo.after hostOps0_2 _ (Proc.devRef .tc main_v9) = _
    after_results_simp
    rfl
  exact h.trans (congrArg (fun a => shapeCast S50000x1 a Facts₀.shapeCasts_S50000_S50000x1) (W2_v8 m ρ c))

theorem W4_v9 : Gen.W4 m ρ c (Proc.devRef .tc main_v9) = shapeCast S50000x1 (inv m c) Facts₀.shapeCasts_S50000_S50000x1 :=
  (Gen.W4_of_ne m ρ c main_v9 (by decide)).trans (W3_v9 m ρ c)
theorem W5_v9 : Gen.W5 m ρ c (Proc.devRef .tc main_v9) = shapeCast S50000x1 (inv m c) Facts₀.shapeCasts_S50000_S50000x1 :=
  (StableHlo.after_of_not_mem_writesOnly writes1 _ main_v9 (by decide)).trans (W4_v9 m ρ c)
theorem W6_v9 : Gen.W6 m ρ c (Proc.devRef .tc main_v9) = shapeCast S50000x1 (inv m c) Facts₀.shapeCasts_S50000_S50000x1 :=
  ((Gen.W6_arr m ρ c 1).trans (((Gen.dat1 (Gen.V5 m ρ) c).arrAt_in 1 rfl _).trans (Gen.A_eq1 (Gen.V5 m ρ) c 1))).trans (W5_v9 m ρ c)
theorem W7_v9 : Gen.W7 m ρ c (Proc.devRef .tc main_v9) = shapeCast S50000x1 (inv m c) Facts₀.shapeCasts_S50000_S50000x1 :=
  (Gen.W7_of_ne m ρ c main_v9 (by decide)).trans (W6_v9 m ρ c)
theorem W8_v9 : Gen.W8 m ρ c (Proc.devRef .tc main_v9) = shapeCast S50000x1 (inv m c) Facts₀.shapeCasts_S50000_S50000x1 :=
  (StableHlo.after_of_not_mem_writesOnly writes3 _ main_v9 (by decide)).trans (W7_v9 m ρ c)
theorem W9_v9 : Gen.W9 m ρ c (Proc.devRef .tc main_v9) = shapeCast S50000x1 (inv m c) Facts₀.shapeCasts_S50000_S50000x1 :=
  ((Gen.W9_arr m ρ c 1).trans (((Gen.dat3 (Gen.V8 m ρ) c).arrAt_in 1 rfl _).trans (Gen.A_eq3 (Gen.V8 m ρ) c 1))).trans (W8_v9 m ρ c)
theorem W10_v9 : Gen.W10 m ρ c (Proc.devRef .tc main_v9) = shapeCast S50000x1 (inv m c) Facts₀.shapeCasts_S50000_S50000x1 :=
  (Gen.W10_of_ne m ρ c main_v9 (by decide)).trans (W9_v9 m ρ c)
theorem W11_v9 : Gen.W11 m ρ c (Proc.devRef .tc main_v9) = shapeCast S50000x1 (inv m c) Facts₀.shapeCasts_S50000_S50000x1 :=
  (StableHlo.after_of_not_mem_writesOnly writes5 _ main_v9 (by decide)).trans (W10_v9 m ρ c)

/-- The column read at `(p, 0)` is the vector at `p`. -/
theorem col_apply (p : Fin 50000) :
    shapeCast S50000x1 (inv m c) Facts₀.shapeCasts_S50000_S50000x1 (ix2 p (0 : Fin 1)) = inv m c (ix1 p) :=
  ColumnOfVector.shapeCast_a_a1_apply _ _ p 0

/-! ## The stretches before the combining regions

Each gathers the projected features' rows at the edges' sources (a negative row number counted from the end), adds
them up at the edges' targets, and lays the layer's bias out as a row. -/

theorem W5_v20_of (t : FVec Ideal S50000x128 .f32) (ht : Gen.W4 m ρ c (Proc.devRef .tc main_v10) = t) :
    Gen.W5 m ρ c (Proc.devRef .tc main_v20) = Cert.Gcn.aggregate (F := Ideal) t (m ((c : Thread nD τ).loc main_arg1)) (m ((c : Thread nD τ).loc main_arg2)) := by
  have h : Gen.W5 m ρ c (Proc.devRef .tc main_v20) = Cert.Gcn.aggregate (F := Ideal) (Gen.W4 m ρ c (Proc.devRef .tc main_v10))
      (Gen.W4 m ρ c (Proc.devRef .tc main_arg1)) (Gen.W4 m ρ c (Proc.devRef .tc main_arg2)) := by
    show StableHlo.after hostOps1 _ (Proc.devRef .tc main_v20) = _
    after_results_simp
    rfl
  rw [h, ht, W4_arg1 m ρ c, W4_arg2 m ρ c]

theorem W5_v21 : Gen.W5 m ρ c (Proc.devRef .tc main_v21) = shapeCast S1x128 (m ((c : Thread nD τ).loc main_arg4)) Facts₀.shapeCasts_S128_S1x128 := by
  have h : Gen.W5 m ρ c (Proc.devRef .tc main_v21) = shapeCast S1x128 (Gen.W4 m ρ c (Proc.devRef .tc main_arg4)) Facts₀.shapeCasts_S128_S1x128 := by
    show StableHlo.after hostOps1 _ (Proc.devRef .tc main_v21) = _
    after_results_simp
    rfl
  exact h.trans (congrArg (fun a => shapeCast S1x128 a Facts₀.shapeCasts_S128_S1x128) (W4_arg4 m ρ c))

theorem W8_v33_of (t : FVec Ideal S50000x128 .f32) (ht : Gen.W7 m ρ c (Proc.devRef .tc main_v23) = t) :
    Gen.W8 m ρ c (Proc.devRef .tc main_v33) = Cert.Gcn.aggregate (F := Ideal) t (m ((c : Thread nD τ).loc main_arg1)) (m ((c : Thread nD τ).loc main_arg2)) := by
  have h : Gen.W8 m ρ c (Proc.devRef .tc main_v33) = Cert.Gcn.aggregate (F := Ideal) (Gen.W7 m ρ c (Proc.devRef .tc main_v23))
      (Gen.W7 m ρ c (Proc.devRef .tc main_arg1)) (Gen.W7 m ρ c (Proc.devRef .tc main_arg2)) := by
    show StableHlo.after hostOps3 _ (Proc.devRef .tc main_v33) = _
    after_results_simp
    rfl
  rw [h, ht, W7_arg1 m ρ c, W7_arg2 m ρ c]

theorem W8_v34 : Gen.W8 m ρ c (Proc.devRef .tc main_v34) = shapeCast S1x128 (m ((c : Thread nD τ).loc main_arg6)) Facts₀.shapeCasts_S128_S1x128 := by
  have h : Gen.W8 m ρ c (Proc.devRef .tc main_v34) = shapeCast S1x128 (Gen.W7 m ρ c (Proc.devRef .tc main_arg6)) Facts₀.shapeCasts_S128_S1x128 := by
    show StableHlo.after hostOps3 _ (Proc.devRef .tc main_v34) = _
    after_results_simp
    rfl
  exact h.trans (congrArg (fun a => shapeCast S1x128 a Facts₀.shapeCasts_S128_S1x128) (W7_arg6 m ρ c))

theorem W11_v46_of (t : FVec Ideal S50000x128 .f32) (ht : Gen.W10 m ρ c (Proc.devRef .tc main_v36) = t) :
    Gen.W11 m ρ c (Proc.devRef .tc main_v46) = Cert.Gcn.aggregate (F := Ideal) t (m ((c : Thread nD τ).loc main_arg1)) (m ((c : Thread nD τ).loc main_arg2)) := by
  have h : Gen.W11 m ρ c (Proc.devRef .tc main_v46) = Cert.Gcn.aggregate (F := Ideal) (Gen.W10 m ρ c (Proc.devRef .tc main_v36))
      (Gen.W10 m ρ c (Proc.devRef .tc main_arg1)) (Gen.W10 m ρ c (Proc.devRef .tc main_arg2)) := by
    show StableHlo.after hostOps5 _ (Proc.devRef .tc main_v46) = _
    after_results_simp
    rfl
  rw [h, ht, W10_arg1 m ρ c, W10_arg2 m ρ c]

theorem W11_v47 : Gen.W11 m ρ c (Proc.devRef .tc main_v47) = shapeCast S1x128 (m ((c : Thread nD τ).loc main_arg8)) Facts₀.shapeCasts_S128_S1x128 := by
  have h : Gen.W11 m ρ c (Proc.devRef .tc main_v47) = shapeCast S1x128 (Gen.W10 m ρ c (Proc.devRef .tc main_arg8)) Facts₀.shapeCasts_S128_S1x128 := by
    show StableHlo.after hostOps5 _ (Proc.devRef .tc main_v47) = _
    after_results_simp
    rfl
  exact h.trans (congrArg (fun a => shapeCast S1x128 a Facts₀.shapeCasts_S128_S1x128) (W10_arg8 m ρ c))

/-- A row read at `(0, q)` is the vector at `q`. -/
theorem row_apply (b : FVec Ideal S128 .f32) (q : Fin 128) :
    shapeCast S1x128 b Facts₀.shapeCasts_S128_S1x128 (ix2 (0 : Fin 1) q) = b (ix1 q) :=
  shapeCast_a_1a_apply _ _ 0 q

/-! ## The regions' outputs, and the chain

Each region's fact is a hypothesis: what its output array holds at the region's exit, as a function of its input
arrays at the region's entry, whatever the entry contents. Instantiated at the entry contents of the run, with the
inputs read above, each output is the next layer's value. -/

section Chain

variable
  (final0 : ∀ (V : VT) c, (Gen.dat0 V c).arrAt 2 cfg0.N = Cert.Gcn.project300 (F := Ideal) (V c main_arg0) (V c main_arg3))
  (final1 : ∀ (V : VT) c (inv : FVec Ideal S50000 .f32) (b : FVec Ideal S128 .f32), (∀ p : Fin 50000, V c main_v9 (ix2 p (0 : Fin 1)) = inv (ix1 p)) →
    (∀ q : Fin 128, V c main_v21 (ix2 (0 : Fin 1) q) = b (ix1 q)) →
    (Gen.dat1 V c).arrAt 3 cfg1.N = Cert.Gcn.leaky (F := Ideal) (Cert.Gcn.affine (F := Ideal) (V c main_v20) inv b))
  (final2 : ∀ (V : VT) c, (Gen.dat2 V c).arrAt 2 cfg2.N = Cert.Gcn.project128 (F := Ideal) (V c main_v22) (V c main_arg5))
  (final3 : ∀ (V : VT) c (inv : FVec Ideal S50000 .f32) (b : FVec Ideal S128 .f32), (∀ p : Fin 50000, V c main_v9 (ix2 p (0 : Fin 1)) = inv (ix1 p)) →
    (∀ q : Fin 128, V c main_v34 (ix2 (0 : Fin 1) q) = b (ix1 q)) →
    (Gen.dat3 V c).arrAt 3 cfg3.N = Cert.Gcn.leaky (F := Ideal) (Cert.Gcn.affine (F := Ideal) (V c main_v33) inv b))
  (final4 : ∀ (V : VT) c, (Gen.dat4 V c).arrAt 2 cfg4.N = Cert.Gcn.project128 (F := Ideal) (V c main_v35) (V c main_arg7))
  (final5 : ∀ (V : VT) c (inv : FVec Ideal S50000 .f32) (b : FVec Ideal S128 .f32), (∀ p : Fin 50000, V c main_v9 (ix2 p (0 : Fin 1)) = inv (ix1 p)) →
    (∀ q : Fin 128, V c main_v47 (ix2 (0 : Fin 1) q) = b (ix1 q)) →
    (Gen.dat5 V c).arrAt 3 cfg5.N = Cert.Gcn.affine (F := Ideal) (V c main_v46) inv b)
  (final6 : ∀ (V : VT) c, (Gen.dat6 V c).arrAt 1 cfg6.N = Cert.Gcn.rowNormalize (F := Ideal) (V c main_v48))

include final0 in
/-- Region 0 leaves the first dense product. -/
theorem W4_v10 : Gen.W4 m ρ c (Proc.devRef .tc main_v10) = t1 m c :=
  ((Gen.W4_arr m ρ c 2).trans (final0 (Gen.V3 m ρ) c)).trans
    (congrArg₂ (Cert.Gcn.project300 (F := Ideal)) (W3_arg0 m ρ c) (W3_arg3 m ρ c))

include final0 final1 in
/-- Region 1 leaves layer 1's output. -/
theorem W6_v22 : Gen.W6 m ρ c (Proc.devRef .tc main_v22) = h1 m c :=
  ((Gen.W6_arr m ρ c 3).trans (final1 (Gen.V5 m ρ) c (inv m c) (m ((c : Thread nD τ).loc main_arg4))
      (fun p => (congrFun (W5_v9 m ρ c) _).trans (col_apply m c p))
      (fun q => (congrFun (W5_v21 m ρ c) _).trans (row_apply _ q)))).trans
    (congrArg (fun a => Cert.Gcn.leaky (F := Ideal) (Cert.Gcn.affine (F := Ideal) a (inv m c) (m ((c : Thread nD τ).loc main_arg4))))
      (W5_v20_of m ρ c (t1 m c) (W4_v10 m ρ c final0)))

include final0 final1 final2 in
/-- Region 2 leaves layer 2's dense product. -/
theorem W7_v23 : Gen.W7 m ρ c (Proc.devRef .tc main_v23) = t2 m c :=
  ((Gen.W7_arr m ρ c 2).trans (final2 (Gen.V6 m ρ) c)).trans
    (congrArg₂ (Cert.Gcn.project128 (F := Ideal)) (W6_v22 m ρ c final0 final1) (W6_arg5 m ρ c))

include final0 final1 final2 final3 in
/-- Region 3 leaves layer 2's output. -/
theorem W9_v35 : Gen.W9 m ρ c (Proc.devRef .tc main_v35) = h2 m c :=
  ((Gen.W9_arr m ρ c 3).trans (final3 (Gen.V8 m ρ) c (inv m c) (m ((c : Thread nD τ).loc main_arg6))
      (fun p => (congrFun (W8_v9 m ρ c) _).trans (col_apply m c p))
      (fun q => (congrFun (W8_v34 m ρ c) _).trans (row_apply _ q)))).trans
    (congrArg (fun a => Cert.Gcn.leaky (F := Ideal) (Cert.Gcn.affine (F := Ideal) a (inv m c) (m ((c : Thread nD τ).loc main_arg6))))
      (W8_v33_of m ρ c (t2 m c) (W7_v23 m ρ c final0 final1 final2)))

include final0 final1 final2 final3 final4 in
/-- Region 4 leaves layer 3's dense product. -/
theorem W10_v36 : Gen.W10 m ρ c (Proc.devRef .tc main_v36) = t3 m c :=
  ((Gen.W10_arr m ρ c 2).trans (final4 (Gen.V9 m ρ) c)).trans
    (congrArg₂ (Cert.Gcn.project128 (F := Ideal)) (W9_v35 m ρ c final0 final1 final2 final3) (W9_arg7 m ρ c))

include final0 final1 final2 final3 final4 final5 in
/-- Region 5 leaves layer 3's output. -/
theorem W12_v48 : Gen.W12 m ρ c (Proc.devRef .tc main_v48) = h3 m c :=
  ((Gen.W12_arr m ρ c 3).trans (final5 (Gen.V11 m ρ) c (inv m c) (m ((c : Thread nD τ).loc main_arg8))
      (fun p => (congrFun (W11_v9 m ρ c) _).trans (col_apply m c p))
      (fun q => (congrFun (W11_v47 m ρ c) _).trans (row_apply _ q)))).trans
    (congrArg (fun a => Cert.Gcn.affine (F := Ideal) a (inv m c) (m ((c : Thread nD τ).loc main_arg8)))
      (W11_v46_of m ρ c (t3 m c) (W10_v36 m ρ c final0 final1 final2 final3 final4)))

include final0 final1 final2 final3 final4 final5 final6 in
/-- The result array at the last boundary is the network function of the launch arguments: region 6 normalises the
    rows of layer 3's output, and the layers' values unfold to the network's composition. -/
theorem out_eq : Gen.W13 m ρ c (Proc.devRef .tc main_v49)
    = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) :=
  ((Gen.W13_arr m ρ c 1).trans (final6 (Gen.V12 m ρ) c)).trans
    (congrArg (Cert.Gcn.rowNormalize (F := Ideal)) (W12_v48 m ρ c final0 final1 final2 final3 final4 final5))

end Chain

end Cert.KernelIdeal.ChainValue

end
-- ==== Proof.RefRun.lean ====
/-
  The run of the reference program, read as the network of `Spec.lean`.

  @main of the reference is a straight line of host operations: three outlined functions (one `where`, two leaky
  rectifiers, each of which calls a second `where`) are called from it, and a call runs the callee's operations on
  the call's own buffers. `ops` lists the 102 operations in order, the callees' inline. The line is cut into seven
  stages — the inverse degrees, three layers, the two rectifiers between them, the row normalisation —; for each stage
  one lemma says what its result buffer holds afterwards as a function of what a few buffers held before
  (`Cert.Gcn.invDegree`, `affine (aggregate (project…))`, `leaky`, `rowNormalize`), and one says that every buffer the
  stage does not write is unchanged. Composed along the line they give the result buffer as `Cert.Gcn.network` of the
  nine arguments, and `run` states that of every weakly fair execution of @main.
-/
import proofs.«109127_j52484500357541_1_alg».proof.Proof.Gen.ReferenceIdeal
import proofs.«109127_j52484500357541_1_alg».proof.Proof.Spec
import proofs.«109127_j52484500357541_1_alg».proof.Proof.LibStretchRead
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]
/-- @main's 102 operations, in order, the three calls' operations inline over the calls' own buffers. -/
abbrev ops : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v6 (broadcastInDim S50000 ![] bcast_S_S50000 : (⟨S_, .f32⟩ : BufTy).Contents (Elt F) → (⟨S50000, .f32⟩ : BufTy).Contents (Elt F)),
    StableHlo.binary main_v6 main_v3 main_v7 (Host.divf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v5 : StableHlo.TRef sig ⟨S50000, .i1⟩) (.of main_v7 : StableHlo.TRef sig ⟨S50000, .f32⟩) (.of main_call0_v1 : StableHlo.TRef sig ⟨S50000, .f32⟩) (.of main_v8 : StableHlo.TRef sig ⟨S50000, .f32⟩) select,
    StableHlo.binary main_arg0 main_arg3 main_v9 ((fun l r => Host.dotGeneral dot_S50000x300_S300x128_S50000x128_1_0_0_1_n_n none l r) : (⟨S50000x300, .f32⟩ : BufTy).Contents (Elt F) → (⟨S300x128, .f32⟩ : BufTy).Contents (Elt F) → (⟨S50000x128, .f32⟩ : BufTy).Contents (Elt F)),
    StableHlo.nullary main_c (constantI S_ 32 0#32),
    StableHlo.unary main_c main_v10 (broadcastInDim S800000 ![] bcast_S_S800000 : (⟨S_, .i32⟩ : BufTy).Contents (Elt F) → (⟨S800000, .i32⟩ : BufTy).Contents (Elt F)),
    StableHlo.binary main_arg1 main_v10 main_v11 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v12 (broadcastInDim S800000 ![] bcast_S_S800000 : (⟨S_, .i32⟩ : BufTy).Contents (Elt F) → (⟨S800000, .i32⟩ : BufTy).Contents (Elt F)),
    StableHlo.binary main_arg1 main_v12 main_v13 (addi : (⟨S800000, .i32⟩ : BufTy).Contents (Elt F) → (⟨S800000, .i32⟩ : BufTy).Contents (Elt F) → (⟨S800000, .i32⟩ : BufTy).Contents (Elt F)),
    StableHlo.ternary main_v11 main_v13 main_arg1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v14 main_v15 (broadcastInDim S800000x1 ![0] bcast_S800000_S800000x1_0 : (⟨S800000, .i32⟩ : BufTy).Contents (Elt F) → (⟨S800000x1, .i32⟩ : BufTy).Contents (Elt F)),
    StableHlo.binary main_v9 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_5 (constant S_ .f32 0x00000000#32),
    StableHlo.unary main_cst_5 main_v17 (broadcastInDim S50000x128 ![] bcast_S_S50000x128 : (⟨S_, .f32⟩ : BufTy).Contents (Elt F) → (⟨S50000x128, .f32⟩ : BufTy).Contents (Elt F)),
    StableHlo.unary main_arg2 main_v18 (broadcastInDim S800000x1 ![0] bcast_S800000_S800000x1_0 : (⟨S800000, .i32⟩ : BufTy).Contents (Elt F) → (⟨S800000x1, .i32⟩ : BufTy).Contents (Elt F)),
    StableHlo.ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v8 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v19 main_v21 main_v22 (mulf : (⟨S50000x128, .f32⟩ : BufTy).Contents (Elt F) → (⟨S50000x128, .f32⟩ : BufTy).Contents (Elt F) → (⟨S50000x128, .f32⟩ : BufTy).Contents (Elt F)),
    StableHlo.unary main_arg4 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v24 main_v25 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3E4CCCCD#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v25 : StableHlo.TRef sig ⟨S50000x128, .f32⟩) (.of main_call1_v0 : StableHlo.TRef sig ⟨S50000x128, .f32⟩) (.of main_call1_v1 : StableHlo.TRef sig ⟨S50000x128, .i1⟩) (cmpf .oge),
    StableHlo.TRef.unary (.of main_cst_6 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S50000x128, .f32⟩) (broadcastInDim S50000x128 ![] bcast_S_S50000x128),
    StableHlo.TRef.binary (.of main_call1_v3 : StableHlo.TRef sig ⟨S50000x128, .f32⟩) (.of main_v25 : StableHlo.TRef sig ⟨S50000x128, .f32⟩) (.of main_call1_v4 : StableHlo.TRef sig ⟨S50000x128, .f32⟩) mulf,
    StableHlo.TRef.ternary (.of main_call1_v1 : StableHlo.TRef sig ⟨S50000x128, .i1⟩) (.of main_v25 : StableHlo.TRef sig ⟨S50000x128, .f32⟩) (.of main_call1_v4 : StableHlo.TRef sig ⟨S50000x128, .f32⟩) (.of main_v26 : StableHlo.TRef sig ⟨S50000x128, .f32⟩) select,
    StableHlo.binary main_v26 main_arg5 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v28 (broadcastInDim S800000 ![] bcast_S_S800000 : (⟨S_, .i32⟩ : BufTy).Contents (Elt F) → (⟨S800000, .i32⟩ : BufTy).Contents (Elt F)),
    StableHlo.binary main_arg1 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v30 (broadcastInDim S800000 ![] bcast_S_S800000 : (⟨S_, .i32⟩ : BufTy).Contents (Elt F) → (⟨S800000, .i32⟩ : BufTy).Contents (Elt F)),
    StableHlo.binary main_arg1 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_arg1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v27 main_v33 main_v34 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_9 (constant S_ .f32 0x00000000#32),
    StableHlo.unary main_cst_9 main_v35 (broadcastInDim S50000x128 ![] bcast_S_S50000x128 : (⟨S_, .f32⟩ : BufTy).Contents (Elt F) → (⟨S50000x128, .f32⟩ : BufTy).Contents (Elt F)),
    StableHlo.unary main_arg2 main_v36 (broadcastInDim S800000x1 ![0] bcast_S800000_S800000x1_0 : (⟨S800000, .i32⟩ : BufTy).Contents (Elt F) → (⟨S800000x1, .i32⟩ : BufTy).Contents (Elt F)),
    StableHlo.ternary main_v35 main_v36 main_v34 main_v37 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v8 main_v38 (broadcastInDim S50000x1 ![0] bcast_S50000_S50000x1_0 : (⟨S50000, .f32⟩ : BufTy).Contents (Elt F) → (⟨S50000x1, .f32⟩ : BufTy).Contents (Elt F)),
    StableHlo.unary main_v38 main_v39 (broadcastInDim S50000x128 ![0, 1] bcast_S50000x1_S50000x128_0_1 : (⟨S50000x1, .f32⟩ : BufTy).Contents (Elt F) → (⟨S50000x128, .f32⟩ : BufTy).Contents (Elt F)),
    StableHlo.binary main_v37 main_v39 main_v40 (mulf : (⟨S50000x128, .f32⟩ : BufTy).Contents (Elt F) → (⟨S50000x128, .f32⟩ : BufTy).Contents (Elt F) → (⟨S50000x128, .f32⟩ : BufTy).Contents (Elt F)),
    StableHlo.unary main_arg6 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3E4CCCCD#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v43 : StableHlo.TRef sig ⟨S50000x128, .f32⟩) (.of main_call2_v0 : StableHlo.TRef sig ⟨S50000x128, .f32⟩) (.of main_call2_v1 : StableHlo.TRef sig ⟨S50000x128, .i1⟩) (cmpf .oge),
    StableHlo.TRef.unary (.of main_cst_10 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S50000x128, .f32⟩) (broadcastInDim S50000x128 ![] bcast_S_S50000x128),
    StableHlo.TRef.binary (.of main_call2_v3 : StableHlo.TRef sig ⟨S50000x128, .f32⟩) (.of main_v43 : StableHlo.TRef sig ⟨S50000x128, .f32⟩) (.of main_call2_v4 : StableHlo.TRef sig ⟨S50000x128, .f32⟩) mulf,
    StableHlo.TRef.ternary (.of main_call2_v1 : StableHlo.TRef sig ⟨S50000x128, .i1⟩) (.of main_v43 : StableHlo.TRef sig ⟨S50000x128, .f32⟩) (.of main_call2_v4 : StableHlo.TRef sig ⟨S50000x128, .f32⟩) (.of main_v44 : StableHlo.TRef sig ⟨S50000x128, .f32⟩) select,
    StableHlo.binary main_v44 main_arg7 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v46 (broadcastInDim S800000 ![] bcast_S_S800000 : (⟨S_, .i32⟩ : BufTy).Contents (Elt F) → (⟨S800000, .i32⟩ : BufTy).Contents (Elt F)),
    StableHlo.binary main_arg1 main_v46 main_v47 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v48 (broadcastInDim S800000 ![] bcast_S_S800000 : (⟨S_, .i32⟩ : BufTy).Contents (Elt F) → (⟨S800000, .i32⟩ : BufTy).Contents (Elt F)),
    StableHlo.binary main_arg1 main_v48 main_v49 (addi : (⟨S800000, .i32⟩ : BufTy).Contents (Elt F) → (⟨S800000, .i32⟩ : BufTy).Contents (Elt F) → (⟨S800000, .i32⟩ : BufTy).Contents (Elt F)),
    StableHlo.ternary main_v47 main_v49 main_arg1 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v50 main_v51 (broadcastInDim S800000x1 ![0] bcast_S800000_S800000x1_0 : (⟨S800000, .i32⟩ : BufTy).Contents (Elt F) → (⟨S800000x1, .i32⟩ : BufTy).Contents (Elt F)),
    StableHlo.binary main_v45 main_v51 main_v52 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_13 (constant S_ .f32 0x00000000#32),
    StableHlo.unary main_cst_13 main_v53 (broadcastInDim S50000x128 ![] bcast_S_S50000x128 : (⟨S_, .f32⟩ : BufTy).Contents (Elt F) → (⟨S50000x128, .f32⟩ : BufTy).Contents (Elt F)),
    StableHlo.unary main_arg2 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v8 main_v56 (broadcastInDim S50000x1 ![0] bcast_S50000_S50000x1_0 : (⟨S50000, .f32⟩ : BufTy).Contents (Elt F) → (⟨S50000x1, .f32⟩ : BufTy).Contents (Elt F)),
    StableHlo.unary main_v56 main_v57 (broadcastInDim S50000x128 ![0, 1] bcast_S50000x1_S50000x128_0_1 : (⟨S50000x1, .f32⟩ : BufTy).Contents (Elt F) → (⟨S50000x128, .f32⟩ : BufTy).Contents (Elt F)),
    StableHlo.binary main_v55 main_v57 main_v58 (mulf : (⟨S50000x128, .f32⟩ : BufTy).Contents (Elt F) → (⟨S50000x128, .f32⟩ : BufTy).Contents (Elt F) → (⟨S50000x128, .f32⟩ : BufTy).Contents (Elt F)),
    StableHlo.unary main_arg8 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v60 main_v61 (addf : (⟨S50000x128, .f32⟩ : BufTy).Contents (Elt F) → (⟨S50000x128, .f32⟩ : BufTy).Contents (Elt F) → (⟨S50000x128, .f32⟩ : BufTy).Contents (Elt F)),
    StableHlo.binary main_v61 main_v61 main_v62 (mulf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v62 main_cst_14 main_v63 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v63 main_v64 (broadcastInDim S50000x1 ![0] bcast_S50000_S50000x1_0 : (⟨S50000, .f32⟩ : BufTy).Contents (Elt F) → (⟨S50000x1, .f32⟩ : BufTy).Contents (Elt F)),
    StableHlo.unary main_v64 main_v65 (Host.sqrt : (⟨S50000x1, .f32⟩ : BufTy).Contents (Elt F) → (⟨S50000x1, .f32⟩ : BufTy).Contents (Elt F)),
    StableHlo.nullary main_cst_15 (constant S_ .f32 0x2B8CBCCC#32),
    StableHlo.unary main_cst_15 main_v66 (broadcastInDim S50000x1 ![] bcast_S_S50000x1 : (⟨S_, .f32⟩ : BufTy).Contents (Elt F) → (⟨S50000x1, .f32⟩ : BufTy).Contents (Elt F)),
    StableHlo.binary main_v65 main_v66 main_v67 (maximumf : (⟨S50000x1, .f32⟩ : BufTy).Contents (Elt F) → (⟨S50000x1, .f32⟩ : BufTy).Contents (Elt F) → (⟨S50000x1, .f32⟩ : BufTy).Contents (Elt F)),
    StableHlo.unary main_v67 main_v68 (broadcastInDim S50000x128 ![0, 1] bcast_S50000x1_S50000x128_0_1 : (⟨S50000x1, .f32⟩ : BufTy).Contents (Elt F) → (⟨S50000x128, .f32⟩ : BufTy).Contents (Elt F)),
    StableHlo.binary main_v61 main_v68 main_v69 (Host.divf : (⟨S50000x128, .f32⟩ : BufTy).Contents (Elt F) → (⟨S50000x128, .f32⟩ : BufTy).Contents (Elt F) → (⟨S50000x128, .f32⟩ : BufTy).Contents (Elt F)) ]

/-- The inverse degrees: ones scatter-added at the edges' targets, compared with zero, inverted, selected (the selection is the outlined `where`, its three operations inline). -/
def sDeg : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v6 (broadcastInDim S50000 ![] bcast_S_S50000 : (⟨S_, .f32⟩ : BufTy).Contents (Elt F) → (⟨S50000, .f32⟩ : BufTy).Contents (Elt F)),
    StableHlo.binary main_v6 main_v3 main_v7 (Host.divf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v5 : StableHlo.TRef sig ⟨S50000, .i1⟩) (.of main_v7 : StableHlo.TRef sig ⟨S50000, .f32⟩) (.of main_call0_v1 : StableHlo.TRef sig ⟨S50000, .f32⟩) (.of main_v8 : StableHlo.TRef sig ⟨S50000, .f32⟩) select ]

/-- The buffer each operation of `sDeg` writes, in order. -/
def sDeg_wr : List (Ref sig .tc) :=
  [main_cst, main_v0, main_cst_0, main_v1, main_v2, main_v3, main_cst_1, main_v4, main_v5, main_cst_2, main_v6, main_v7, main_cst_3, main_call0_v0, main_call0_v1, main_v8]

/-- The first layer: the dense product over 300 features, the source rows, the gather, the scatter-add, the scaling by the inverse degree and the bias. -/
def sL1 : List (HloOp τ sig (Elt F)) :=
  [ StableHlo.binary main_arg0 main_arg3 main_v9 ((fun l r => Host.dotGeneral dot_S50000x300_S300x128_S50000x128_1_0_0_1_n_n none l r) : (⟨S50000x300, .f32⟩ : BufTy).Contents (Elt F) → (⟨S300x128, .f32⟩ : BufTy).Contents (Elt F) → (⟨S50000x128, .f32⟩ : BufTy).Contents (Elt F)),
    StableHlo.nullary main_c (constantI S_ 32 0#32),
    StableHlo.unary main_c main_v10 (broadcastInDim S800000 ![] bcast_S_S800000 : (⟨S_, .i32⟩ : BufTy).Contents (Elt F) → (⟨S800000, .i32⟩ : BufTy).Contents (Elt F)),
    StableHlo.binary main_arg1 main_v10 main_v11 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v12 (broadcastInDim S800000 ![] bcast_S_S800000 : (⟨S_, .i32⟩ : BufTy).Contents (Elt F) → (⟨S800000, .i32⟩ : BufTy).Contents (Elt F)),
    StableHlo.binary main_arg1 main_v12 main_v13 (addi : (⟨S800000, .i32⟩ : BufTy).Contents (Elt F) → (⟨S800000, .i32⟩ : BufTy).Contents (Elt F) → (⟨S800000, .i32⟩ : BufTy).Contents (Elt F)),
    StableHlo.ternary main_v11 main_v13 main_arg1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v14 main_v15 (broadcastInDim S800000x1 ![0] bcast_S800000_S800000x1_0 : (⟨S800000, .i32⟩ : BufTy).Contents (Elt F) → (⟨S800000x1, .i32⟩ : BufTy).Contents (Elt F)),
    StableHlo.binary main_v9 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_5 (constant S_ .f32 0x00000000#32),
    StableHlo.unary main_cst_5 main_v17 (broadcastInDim S50000x128 ![] bcast_S_S50000x128 : (⟨S_, .f32⟩ : BufTy).Contents (Elt F) → (⟨S50000x128, .f32⟩ : BufTy).Contents (Elt F)),
    StableHlo.unary main_arg2 main_v18 (broadcastInDim S800000x1 ![0] bcast_S800000_S800000x1_0 : (⟨S800000, .i32⟩ : BufTy).Contents (Elt F) → (⟨S800000x1, .i32⟩ : BufTy).Contents (Elt F)),
    StableHlo.ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v8 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v19 main_v21 main_v22 (mulf : (⟨S50000x128, .f32⟩ : BufTy).Contents (Elt F) → (⟨S50000x128, .f32⟩ : BufTy).Contents (Elt F) → (⟨S50000x128, .f32⟩ : BufTy).Contents (Elt F)),
    StableHlo.unary main_arg4 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v24 main_v25 (addf : (⟨S50000x128, .f32⟩ : BufTy).Contents (Elt F) → (⟨S50000x128, .f32⟩ : BufTy).Contents (Elt F) → (⟨S50000x128, .f32⟩ : BufTy).Contents (Elt F)) ]

/-- The buffer each operation of `sL1` writes, in order. -/
def sL1_wr : List (Ref sig .tc) :=
  [main_v9, main_c, main_v10, main_v11, main_c_4, main_v12, main_v13, main_v14, main_v15, main_v16, main_cst_5, main_v17, main_v18, main_v19, main_v20, main_v21, main_v22, main_v23, main_v24, main_v25]

/-- The first leaky rectifier: the slope constant and the outlined function's seven operations inline. -/
def sLk1 : List (HloOp τ sig (Elt F)) :=
  [ StableHlo.nullary main_cst_6 (constant S_ .f32 0x3E4CCCCD#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v25 : StableHlo.TRef sig ⟨S50000x128, .f32⟩) (.of main_call1_v0 : StableHlo.TRef sig ⟨S50000x128, .f32⟩) (.of main_call1_v1 : StableHlo.TRef sig ⟨S50000x128, .i1⟩) (cmpf .oge),
    StableHlo.TRef.unary (.of main_cst_6 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S50000x128, .f32⟩) (broadcastInDim S50000x128 ![] bcast_S_S50000x128),
    StableHlo.TRef.binary (.of main_call1_v3 : StableHlo.TRef sig ⟨S50000x128, .f32⟩) (.of main_v25 : StableHlo.TRef sig ⟨S50000x128, .f32⟩) (.of main_call1_v4 : StableHlo.TRef sig ⟨S50000x128, .f32⟩) mulf,
    StableHlo.TRef.ternary (.of main_call1_v1 : StableHlo.TRef sig ⟨S50000x128, .i1⟩) (.of main_v25 : StableHlo.TRef sig ⟨S50000x128, .f32⟩) (.of main_call1_v4 : StableHlo.TRef sig ⟨S50000x128, .f32⟩) (.of main_v26 : StableHlo.TRef sig ⟨S50000x128, .f32⟩) select ]

/-- The buffer each operation of `sLk1` writes, in order. -/
def sLk1_wr : List (Ref sig .tc) :=
  [main_cst_6, main_call1_cst, main_call1_v0, main_call1_v1, main_call1_v2, main_call1_v3, main_call1_v4, main_v26]

/-- The second layer, over 128 features. -/
def sL2 : List (HloOp τ sig (Elt F)) :=
  [ StableHlo.binary main_v26 main_arg5 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v28 (broadcastInDim S800000 ![] bcast_S_S800000 : (⟨S_, .i32⟩ : BufTy).Contents (Elt F) → (⟨S800000, .i32⟩ : BufTy).Contents (Elt F)),
    StableHlo.binary main_arg1 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v30 (broadcastInDim S800000 ![] bcast_S_S800000 : (⟨S_, .i32⟩ : BufTy).Contents (Elt F) → (⟨S800000, .i32⟩ : BufTy).Contents (Elt F)),
    StableHlo.binary main_arg1 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_arg1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v27 main_v33 main_v34 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_9 (constant S_ .f32 0x00000000#32),
    StableHlo.unary main_cst_9 main_v35 (broadcastInDim S50000x128 ![] bcast_S_S50000x128 : (⟨S_, .f32⟩ : BufTy).Contents (Elt F) → (⟨S50000x128, .f32⟩ : BufTy).Contents (Elt F)),
    StableHlo.unary main_arg2 main_v36 (broadcastInDim S800000x1 ![0] bcast_S800000_S800000x1_0 : (⟨S800000, .i32⟩ : BufTy).Contents (Elt F) → (⟨S800000x1, .i32⟩ : BufTy).Contents (Elt F)),
    StableHlo.ternary main_v35 main_v36 main_v34 main_v37 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v8 main_v38 (broadcastInDim S50000x1 ![0] bcast_S50000_S50000x1_0 : (⟨S50000, .f32⟩ : BufTy).Contents (Elt F) → (⟨S50000x1, .f32⟩ : BufTy).Contents (Elt F)),
    StableHlo.unary main_v38 main_v39 (broadcastInDim S50000x128 ![0, 1] bcast_S50000x1_S50000x128_0_1 : (⟨S50000x1, .f32⟩ : BufTy).Contents (Elt F) → (⟨S50000x128, .f32⟩ : BufTy).Contents (Elt F)),
    StableHlo.binary main_v37 main_v39 main_v40 (mulf : (⟨S50000x128, .f32⟩ : BufTy).Contents (Elt F) → (⟨S50000x128, .f32⟩ : BufTy).Contents (Elt F) → (⟨S50000x128, .f32⟩ : BufTy).Contents (Elt F)),
    StableHlo.unary main_arg6 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)) ]

/-- The buffer each operation of `sL2` writes, in order. -/
def sL2_wr : List (Ref sig .tc) :=
  [main_v27, main_c_7, main_v28, main_v29, main_c_8, main_v30, main_v31, main_v32, main_v33, main_v34, main_cst_9, main_v35, main_v36, main_v37, main_v38, main_v39, main_v40, main_v41, main_v42, main_v43]

/-- The second leaky rectifier. -/
def sLk2 : List (HloOp τ sig (Elt F)) :=
  [ StableHlo.nullary main_cst_10 (constant S_ .f32 0x3E4CCCCD#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v43 : StableHlo.TRef sig ⟨S50000x128, .f32⟩) (.of main_call2_v0 : StableHlo.TRef sig ⟨S50000x128, .f32⟩) (.of main_call2_v1 : StableHlo.TRef sig ⟨S50000x128, .i1⟩) (cmpf .oge),
    StableHlo.TRef.unary (.of main_cst_10 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S50000x128, .f32⟩) (broadcastInDim S50000x128 ![] bcast_S_S50000x128),
    StableHlo.TRef.binary (.of main_call2_v3 : StableHlo.TRef sig ⟨S50000x128, .f32⟩) (.of main_v43 : StableHlo.TRef sig ⟨S50000x128, .f32⟩) (.of main_call2_v4 : StableHlo.TRef sig ⟨S50000x128, .f32⟩) mulf,
    StableHlo.TRef.ternary (.of main_call2_v1 : StableHlo.TRef sig ⟨S50000x128, .i1⟩) (.of main_v43 : StableHlo.TRef sig ⟨S50000x128, .f32⟩) (.of main_call2_v4 : StableHlo.TRef sig ⟨S50000x128, .f32⟩) (.of main_v44 : StableHlo.TRef sig ⟨S50000x128, .f32⟩) select ]

/-- The buffer each operation of `sLk2` writes, in order. -/
def sLk2_wr : List (Ref sig .tc) :=
  [main_cst_10, main_call2_cst, main_call2_v0, main_call2_v1, main_call2_v2, main_call2_v3, main_call2_v4, main_v44]

/-- The third layer, over 128 features. -/
def sL3 : List (HloOp τ sig (Elt F)) :=
  [ StableHlo.binary main_v44 main_arg7 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v46 (broadcastInDim S800000 ![] bcast_S_S800000 : (⟨S_, .i32⟩ : BufTy).Contents (Elt F) → (⟨S800000, .i32⟩ : BufTy).Contents (Elt F)),
    StableHlo.binary main_arg1 main_v46 main_v47 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v48 (broadcastInDim S800000 ![] bcast_S_S800000 : (⟨S_, .i32⟩ : BufTy).Contents (Elt F) → (⟨S800000, .i32⟩ : BufTy).Contents (Elt F)),
    StableHlo.binary main_arg1 main_v48 main_v49 (addi : (⟨S800000, .i32⟩ : BufTy).Contents (Elt F) → (⟨S800000, .i32⟩ : BufTy).Contents (Elt F) → (⟨S800000, .i32⟩ : BufTy).Contents (Elt F)),
    StableHlo.ternary main_v47 main_v49 main_arg1 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v50 main_v51 (broadcastInDim S800000x1 ![0] bcast_S800000_S800000x1_0 : (⟨S800000, .i32⟩ : BufTy).Contents (Elt F) → (⟨S800000x1, .i32⟩ : BufTy).Contents (Elt F)),
    StableHlo.binary main_v45 main_v51 main_v52 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_13 (constant S_ .f32 0x00000000#32),
    StableHlo.unary main_cst_13 main_v53 (broadcastInDim S50000x128 ![] bcast_S_S50000x128 : (⟨S_, .f32⟩ : BufTy).Contents (Elt F) → (⟨S50000x128, .f32⟩ : BufTy).Contents (Elt F)),
    StableHlo.unary main_arg2 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v8 main_v56 (broadcastInDim S50000x1 ![0] bcast_S50000_S50000x1_0 : (⟨S50000, .f32⟩ : BufTy).Contents (Elt F) → (⟨S50000x1, .f32⟩ : BufTy).Contents (Elt F)),
    StableHlo.unary main_v56 main_v57 (broadcastInDim S50000x128 ![0, 1] bcast_S50000x1_S50000x128_0_1 : (⟨S50000x1, .f32⟩ : BufTy).Contents (Elt F) → (⟨S50000x128, .f32⟩ : BufTy).Contents (Elt F)),
    StableHlo.binary main_v55 main_v57 main_v58 (mulf : (⟨S50000x128, .f32⟩ : BufTy).Contents (Elt F) → (⟨S50000x128, .f32⟩ : BufTy).Contents (Elt F) → (⟨S50000x128, .f32⟩ : BufTy).Contents (Elt F)),
    StableHlo.unary main_arg8 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v60 main_v61 (addf : (⟨S50000x128, .f32⟩ : BufTy).Contents (Elt F) → (⟨S50000x128, .f32⟩ : BufTy).Contents (Elt F) → (⟨S50000x128, .f32⟩ : BufTy).Contents (Elt F)) ]

/-- The buffer each operation of `sL3` writes, in order. -/
def sL3_wr : List (Ref sig .tc) :=
  [main_v45, main_c_11, main_v46, main_v47, main_c_12, main_v48, main_v49, main_v50, main_v51, main_v52, main_cst_13, main_v53, main_v54, main_v55, main_v56, main_v57, main_v58, main_v59, main_v60, main_v61]

/-- The row normalisation: squares, row sums, square root, the clamp from below, the division. -/
def sNorm : List (HloOp τ sig (Elt F)) :=
  [ StableHlo.binary main_v61 main_v61 main_v62 (mulf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v62 main_cst_14 main_v63 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v63 main_v64 (broadcastInDim S50000x1 ![0] bcast_S50000_S50000x1_0 : (⟨S50000, .f32⟩ : BufTy).Contents (Elt F) → (⟨S50000x1, .f32⟩ : BufTy).Contents (Elt F)),
    StableHlo.unary main_v64 main_v65 (Host.sqrt : (⟨S50000x1, .f32⟩ : BufTy).Contents (Elt F) → (⟨S50000x1, .f32⟩ : BufTy).Contents (Elt F)),
    StableHlo.nullary main_cst_15 (constant S_ .f32 0x2B8CBCCC#32),
    StableHlo.unary main_cst_15 main_v66 (broadcastInDim S50000x1 ![] bcast_S_S50000x1 : (⟨S_, .f32⟩ : BufTy).Contents (Elt F) → (⟨S50000x1, .f32⟩ : BufTy).Contents (Elt F)),
    StableHlo.binary main_v65 main_v66 main_v67 (maximumf : (⟨S50000x1, .f32⟩ : BufTy).Contents (Elt F) → (⟨S50000x1, .f32⟩ : BufTy).Contents (Elt F) → (⟨S50000x1, .f32⟩ : BufTy).Contents (Elt F)),
    StableHlo.unary main_v67 main_v68 (broadcastInDim S50000x128 ![0, 1] bcast_S50000x1_S50000x128_0_1 : (⟨S50000x1, .f32⟩ : BufTy).Contents (Elt F) → (⟨S50000x128, .f32⟩ : BufTy).Contents (Elt F)),
    StableHlo.binary main_v61 main_v68 main_v69 (Host.divf : (⟨S50000x128, .f32⟩ : BufTy).Contents (Elt F) → (⟨S50000x128, .f32⟩ : BufTy).Contents (Elt F) → (⟨S50000x128, .f32⟩ : BufTy).Contents (Elt F)) ]

/-- The buffer each operation of `sNorm` writes, in order. -/
def sNorm_wr : List (Ref sig .tc) :=
  [main_v62, main_cst_14, main_v63, main_v64, main_v65, main_cst_15, main_v66, main_v67, main_v68, main_v69]

/-- The line is its seven stages, one after the other. -/
theorem ops_eq : (ops : List (HloOp τ sig (Elt F))) = sDeg ++ sL1 ++ sLk1 ++ sL2 ++ sLk2 ++ sL3 ++ sNorm := rfl

set_option maxRecDepth 8192 in
set_option maxHeartbeats 4000000 in
/-- @main is that line: a call is the callee's body, and sequencing after a sequence is the longer sequence. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-! ## What each stage computes -/

attribute [local irreducible] Host.scatterAdd Host.gather Host.reduceAdd in
set_option maxRecDepth 8192 in
/-- After the first stage its result buffer holds the inverse degrees of the nodes: one over the number of incoming edges, zero where there is none. -/
theorem deg_eq (W : Valuation τ sig (Elt F)) :
    after sDeg W (main_v8 : DevRef τ sig) = Cert.Gcn.invDegree (W (main_arg2 : DevRef τ sig)) := by
  unfold sDeg
  after_results_simp
  rfl

attribute [local irreducible] Host.scatterAdd Host.gather Host.reduceAdd in
set_option maxRecDepth 8192 in
/-- The first layer's output, from the features, the edges, the inverse degrees, the weights and the bias. -/
theorem l1_eq (W : Valuation τ sig (Elt F)) :
    after sL1 W (main_v25 : DevRef τ sig) = Cert.Gcn.affine (Cert.Gcn.aggregate (Cert.Gcn.project300 (W (main_arg0 : DevRef τ sig)) (W (main_arg3 : DevRef τ sig))) (W (main_arg1 : DevRef τ sig)) (W (main_arg2 : DevRef τ sig)))
        (W (main_v8 : DevRef τ sig)) (W (main_arg4 : DevRef τ sig)) := by
  unfold sL1
  after_results_simp
  rfl

attribute [local irreducible] Host.scatterAdd Host.gather Host.reduceAdd in
set_option maxRecDepth 8192 in
/-- The first rectifier's output. -/
theorem lk1_eq (W : Valuation τ sig (Elt F)) :
    after sLk1 W (main_v26 : DevRef τ sig) = Cert.Gcn.leaky (W (main_v25 : DevRef τ sig)) := by
  unfold sLk1
  after_results_simp
  rfl

attribute [local irreducible] Host.scatterAdd Host.gather Host.reduceAdd in
set_option maxRecDepth 8192 in
/-- The second layer's output. -/
theorem l2_eq (W : Valuation τ sig (Elt F)) :
    after sL2 W (main_v43 : DevRef τ sig) = Cert.Gcn.affine (Cert.Gcn.aggregate (Cert.Gcn.project128 (W (main_v26 : DevRef τ sig)) (W (main_arg5 : DevRef τ sig))) (W (main_arg1 : DevRef τ sig)) (W (main_arg2 : DevRef τ sig)))
        (W (main_v8 : DevRef τ sig)) (W (main_arg6 : DevRef τ sig)) := by
  unfold sL2
  after_results_simp
  rfl

attribute [local irreducible] Host.scatterAdd Host.gather Host.reduceAdd in
set_option maxRecDepth 8192 in
/-- The second rectifier's output. -/
theorem lk2_eq (W : Valuation τ sig (Elt F)) :
    after sLk2 W (main_v44 : DevRef τ sig) = Cert.Gcn.leaky (W (main_v43 : DevRef τ sig)) := by
  unfold sLk2
  after_results_simp
  rfl

attribute [local irreducible] Host.scatterAdd Host.gather Host.reduceAdd in
set_option maxRecDepth 8192 in
/-- The third layer's output. -/
theorem l3_eq (W : Valuation τ sig (Elt F)) :
    after sL3 W (main_v61 : DevRef τ sig) = Cert.Gcn.affine (Cert.Gcn.aggregate (Cert.Gcn.project128 (W (main_v44 : DevRef τ sig)) (W (main_arg7 : DevRef τ sig))) (W (main_arg1 : DevRef τ sig)) (W (main_arg2 : DevRef τ sig)))
        (W (main_v8 : DevRef τ sig)) (W (main_arg8 : DevRef τ sig)) := by
  unfold sL3
  after_results_simp
  rfl

attribute [local irreducible] Host.scatterAdd Host.gather Host.reduceAdd in
set_option maxRecDepth 8192 in
/-- The normalised rows. -/
theorem norm_eq (W : Valuation τ sig (Elt F)) :
    after sNorm W (main_v69 : DevRef τ sig) = Cert.Gcn.rowNormalize (W (main_v61 : DevRef τ sig)) := by
  unfold sNorm
  after_results_simp
  rfl

/-! ## What each stage leaves alone -/

theorem sDeg_writes : WritesOnly (τ := τ) (sDeg (F := F)) sDeg_wr := by
  unfold WritesOnly sDeg sDeg_wr
  repeat (first | exact List.Forall₂.nil | refine List.Forall₂.cons (Finset.Subset.refl _) ?_)

/-- A buffer the stage does not write holds afterwards what it held before. -/
theorem sDeg_frame (W : Valuation τ sig (Elt F)) (r : Ref sig .tc) (hr : r ∉ sDeg_wr) :
    after sDeg W (Proc.devRef .tc r) = W (Proc.devRef .tc r) :=
  after_of_not_mem_writesOnly sDeg_writes W r hr

theorem sL1_writes : WritesOnly (τ := τ) (sL1 (F := F)) sL1_wr := by
  unfold WritesOnly sL1 sL1_wr
  repeat (first | exact List.Forall₂.nil | refine List.Forall₂.cons (Finset.Subset.refl _) ?_)

/-- A buffer the stage does not write holds afterwards what it held before. -/
theorem sL1_frame (W : Valuation τ sig (Elt F)) (r : Ref sig .tc) (hr : r ∉ sL1_wr) :
    after sL1 W (Proc.devRef .tc r) = W (Proc.devRef .tc r) :=
  after_of_not_mem_writesOnly sL1_writes W r hr

theorem sLk1_writes : WritesOnly (τ := τ) (sLk1 (F := F)) sLk1_wr := by
  unfold WritesOnly sLk1 sLk1_wr
  repeat (first | exact List.Forall₂.nil | refine List.Forall₂.cons (Finset.Subset.refl _) ?_)

/-- A buffer the stage does not write holds afterwards what it held before. -/
theorem sLk1_frame (W : Valuation τ sig (Elt F)) (r : Ref sig .tc) (hr : r ∉ sLk1_wr) :
    after sLk1 W (Proc.devRef .tc r) = W (Proc.devRef .tc r) :=
  after_of_not_mem_writesOnly sLk1_writes W r hr

theorem sL2_writes : WritesOnly (τ := τ) (sL2 (F := F)) sL2_wr := by
  unfold WritesOnly sL2 sL2_wr
  repeat (first | exact List.Forall₂.nil | refine List.Forall₂.cons (Finset.Subset.refl _) ?_)

/-- A buffer the stage does not write holds afterwards what it held before. -/
theorem sL2_frame (W : Valuation τ sig (Elt F)) (r : Ref sig .tc) (hr : r ∉ sL2_wr) :
    after sL2 W (Proc.devRef .tc r) = W (Proc.devRef .tc r) :=
  after_of_not_mem_writesOnly sL2_writes W r hr

theorem sLk2_writes : WritesOnly (τ := τ) (sLk2 (F := F)) sLk2_wr := by
  unfold WritesOnly sLk2 sLk2_wr
  repeat (first | exact List.Forall₂.nil | refine List.Forall₂.cons (Finset.Subset.refl _) ?_)

/-- A buffer the stage does not write holds afterwards what it held before. -/
theorem sLk2_frame (W : Valuation τ sig (Elt F)) (r : Ref sig .tc) (hr : r ∉ sLk2_wr) :
    after sLk2 W (Proc.devRef .tc r) = W (Proc.devRef .tc r) :=
  after_of_not_mem_writesOnly sLk2_writes W r hr

theorem sL3_writes : WritesOnly (τ := τ) (sL3 (F := F)) sL3_wr := by
  unfold WritesOnly sL3 sL3_wr
  repeat (first | exact List.Forall₂.nil | refine List.Forall₂.cons (Finset.Subset.refl _) ?_)

/-- A buffer the stage does not write holds afterwards what it held before. -/
theorem sL3_frame (W : Valuation τ sig (Elt F)) (r : Ref sig .tc) (hr : r ∉ sL3_wr) :
    after sL3 W (Proc.devRef .tc r) = W (Proc.devRef .tc r) :=
  after_of_not_mem_writesOnly sL3_writes W r hr

theorem sNorm_writes : WritesOnly (τ := τ) (sNorm (F := F)) sNorm_wr := by
  unfold WritesOnly sNorm sNorm_wr
  repeat (first | exact List.Forall₂.nil | refine List.Forall₂.cons (Finset.Subset.refl _) ?_)

/-- A buffer the stage does not write holds afterwards what it held before. -/
theorem sNorm_frame (W : Valuation τ sig (Elt F)) (r : Ref sig .tc) (hr : r ∉ sNorm_wr) :
    after sNorm W (Proc.devRef .tc r) = W (Proc.devRef .tc r) :=
  after_of_not_mem_writesOnly sNorm_writes W r hr

/-! ## The whole line -/

/-- The result buffer after the whole line: the network of the nine arguments. Each stage's lemma is read at what the
    stages before it leave; the arguments and the inverse degrees pass through the stages that do not write them. -/
theorem value_eq (V : Valuation τ sig (Elt F)) :
    after ops V (main_v69 : DevRef τ sig)
      = Cert.Gcn.network (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [ops_eq]
  simp only [after_append]
  rw [norm_eq,
    l3_eq,
    lk2_eq,
    sLk2_frame _ main_arg7 (by decide),
    sLk2_frame _ main_arg1 (by decide),
    sLk2_frame _ main_arg2 (by decide),
    sLk2_frame _ main_v8 (by decide),
    sLk2_frame _ main_arg8 (by decide),
    l2_eq,
    sL2_frame _ main_arg7 (by decide),
    sL2_frame _ main_arg1 (by decide),
    sL2_frame _ main_arg2 (by decide),
    sL2_frame _ main_v8 (by decide),
    sL2_frame _ main_arg8 (by decide),
    lk1_eq,
    sLk1_frame _ main_arg7 (by decide),
    sLk1_frame _ main_arg1 (by decide),
    sLk1_frame _ main_arg2 (by decide),
    sLk1_frame _ main_v8 (by decide),
    sLk1_frame _ main_arg8 (by decide),
    sLk1_frame _ main_arg5 (by decide),
    sLk1_frame _ main_arg6 (by decide),
    l1_eq,
    sL1_frame _ main_arg7 (by decide),
    sL1_frame _ main_arg1 (by decide),
    sL1_frame _ main_arg2 (by decide),
    sL1_frame _ main_v8 (by decide),
    sL1_frame _ main_arg8 (by decide),
    sL1_frame _ main_arg5 (by decide),
    sL1_frame _ main_arg6 (by decide),
    deg_eq,
    sDeg_frame _ main_arg0 (by decide),
    sDeg_frame _ main_arg1 (by decide),
    sDeg_frame _ main_arg2 (by decide),
    sDeg_frame _ main_arg3 (by decide),
    sDeg_frame _ main_arg4 (by decide),
    sDeg_frame _ main_arg5 (by decide),
    sDeg_frame _ main_arg6 (by decide),
    sDeg_frame _ main_arg7 (by decide),
    sDeg_frame _ main_arg8 (by decide)]
  rfl

/-- No operation of the line writes an argument. -/
theorem arg_eq (V : Valuation τ sig (Elt F)) (r : Ref sig .tc) (hr : r ∉ sDeg_wr ++ sL1_wr ++ sLk1_wr ++ sL2_wr ++ sLk2_wr ++ sL3_wr ++ sNorm_wr) :
    after ops V (Proc.devRef .tc r) = V (Proc.devRef .tc r) := by
  simp only [List.mem_append, not_or] at hr
  obtain ⟨⟨⟨⟨⟨⟨h1, h2⟩, h3⟩, h4⟩, h5⟩, h6⟩, h7⟩ := hr
  rw [ops_eq]
  simp only [after_append]
  rw [sNorm_frame _ r h7, sL3_frame _ r h6, sLk2_frame _ r h5, sL2_frame _ r h4, sLk1_frame _ r h3, sL1_frame _ r h2, sDeg_frame _ r h1]

/-- On every device, for any float values, from any memory with zero counters: every weakly fair execution of @main
    terminates with the result buffer at the network of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v69)
          = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v69).trans (value_eq _),
      (h c main_arg0).trans (arg_eq _ main_arg0 (by decide)),
      (h c main_arg1).trans (arg_eq _ main_arg1 (by decide)),
      (h c main_arg2).trans (arg_eq _ main_arg2 (by decide)),
      (h c main_arg3).trans (arg_eq _ main_arg3 (by decide)),
      (h c main_arg4).trans (arg_eq _ main_arg4 (by decide)),
      (h c main_arg5).trans (arg_eq _ main_arg5 (by decide)),
      (h c main_arg6).trans (arg_eq _ main_arg6 (by decide)),
      (h c main_arg7).trans (arg_eq _ main_arg7 (by decide)),
      (h c main_arg8).trans (arg_eq _ main_arg8 (by decide))⟩)
    (run_seq scopedRefs_eq scopedSems_eq defs main (fun _ => ops) main_eq (fun _ => ops_sub) m ρ)

end Cert.ReferenceIdeal.RefValue

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibMatProd.lean ====
/-
  The matrix product as one function of two arrays, over the extended reals.

  `matProd a w` at `(p, q)` is the sum over `k` of `a (p, k) * w (k, q)`. Addition of extended reals is commutative
  and associative, so the sum needs no order and no blocking: a product computed row block by row block and a product
  computed at once are the same array. Both a kernel's matmul into the zero accumulator and a host `dot_general`, with
  the plain dimension numbers, are this function; and a change of float format on the way in is the identity.
-/
import Idealize.ShloMosaic.PureOps.Ideal
import Idealize.ShloMosaic.PureOps.Ideal.Laws
import Idealize.ShloMosaic.Lib.ValueIdx
import proofs.«109127_j52484500357541_1_alg».proof.Proof.LibPlainDot

noncomputable section

namespace Idealize.ShloMosaic.MatProd

open Idealize.ShloMosaic Idealize.ShloMosaic.ValueIdx

/-- The product of an `M×K` array with a `K×N` array, entry by entry. -/
def matProd {M K N : ℕ} {φ₁ φ₂ : FTy} (a : FVec Ideal ⟨2, ![M, K]⟩ φ₁) (w : FVec Ideal ⟨2, ![K, N]⟩ φ₂) :
    FVec Ideal ⟨2, ![M, N]⟩ .f32 :=
  fun i => ∑ k : Fin K, a (ix2 (i 0) k) * w (ix2 k (i 1))

/-- A kernel's matmul into the zero accumulator, read at the entry `(p, q)`. -/
theorem matmul_zero_at {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂)
    (y : (⟨2, ![M, N]⟩ : Shape).Idx) (p : Fin M) (q : Fin N) (hy : y = ix2 p q) :
    FloatOps.matmul d prec lhs rhs (constant ⟨2, ![M, N]⟩ .f32 0x00000000#32) y
      = ∑ k : Fin K, lhs (ix2 p k) * rhs (ix2 k q) := by
  subst hy
  exact PlainDot.matmul_zero_apply d hd prec lhs rhs p q

/-- A host `dot_general` with the plain dimension numbers is the matrix product. -/
theorem dotGeneral_eq_matProd {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) :
    FloatOps.dotGeneral d prec sched lhs rhs = matProd lhs rhs := by
  funext j
  obtain ⟨p, q, rfl⟩ : ∃ (p : Fin M) (q : Fin N), j = ix2 p q := ⟨j 0, j 1, eq_ix2 j⟩
  exact PlainDot.dotGeneral_apply d hd prec sched lhs rhs p q

/-- Narrowing both operands' float format first changes nothing: at the ideal values a format change is the identity. -/
theorem matProd_truncf {M K N : ℕ} {φ₁ φ₂ ψ₁ ψ₂ : FTy} (a : FVec Ideal ⟨2, ![M, K]⟩ φ₁) (w : FVec Ideal ⟨2, ![K, N]⟩ φ₂)
    (h₁ : ψ₁.bits < φ₁.bits) (h₂ : ψ₂.bits < φ₂.bits) :
    matProd (truncf ψ₁ a h₁) (truncf ψ₂ w h₂) = matProd a w := rfl

end Idealize.ShloMosaic.MatProd

end
-- ==== Proof.TileMat.lean ====
/-
  The kernel's dense products, read at one entry of a tile of 1000 rows.

  Each of the three matrix-product bodies narrows its two operands' float format (the identity on extended reals)
  and multiplies them into a zero accumulator. Read at row `r` and column `q` of the tile this is the sum over `k`
  of `x0 (r, k) * x1 (k, q)`. When the tile's rows are the rows `o + r` of a whole array `A` and the second operand
  is the whole weight matrix `W`, that sum is the entry `(o + r, q)` of the product `A · W` of the whole arrays,
  which is what the host's `dot_general` computes: the same sum over `k`, term by term.
-/
import proofs.«109127_j52484500357541_1_alg».proof.Proof.Gen.KernelIdeal.Skeleton
import proofs.«109127_j52484500357541_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«109127_j52484500357541_1_alg».proof.Proof.LibPlainDot
import proofs.«109127_j52484500357541_1_alg».proof.Proof.LibMatProd

noncomputable section

namespace Cert.Gcn.Tile

open Idealize.ShloMosaic Idealize.ShloMosaic.ValueIdx

variable [Cert.ReferenceIdeal.Facts]

/-- The first product: 1000 rows of the 300 input features against the 300×128 weights. -/
theorem mat300 (A : FVec Ideal Cert.ReferenceIdeal.S50000x300 .f32) (W : FVec Ideal Cert.ReferenceIdeal.S300x128 .f32)
    (x0 : Vec Ideal Cert.KernelIdeal.S1000x300 .f32) (x1 : Vec Ideal Cert.KernelIdeal.S300x128 .f32)
    (o : ℕ) (ho : o + 1000 ≤ 50000)
    (h0 : ∀ (r : Fin 1000) (k : Fin 300), x0 (ix2 r k) = A (ix2 (⟨o + r.val, by omega⟩ : Fin 50000) k))
    (h1 : ∀ (k : Fin 300) (q : Fin 128), x1 (ix2 k q) = W (ix2 k q)) (r : Fin 1000) (q : Fin 128) :
    Cert.KernelIdeal.Gen.k0_pay1 (F := Ideal) x0 x1 (ix2 r q)
      = Cert.Gcn.project300 (F := Ideal) A W (ix2 (⟨o + r.val, by omega⟩ : Fin 50000) q) := by
  unfold Cert.KernelIdeal.Gen.k0_pay1 Cert.Gcn.project300
  refine (PlainDot.matmul_zero_apply (M := 1000) (K := 300) (N := 128) _ rfl none _ _ r q).trans ?_
  refine ((PlainDot.dotGeneral_apply (M := 50000) (K := 300) (N := 128) _ rfl none _ A W _ q).trans ?_).symm
  exact Finset.sum_congr rfl fun k _ => by rw [← h0 r k, ← h1 k q]; rfl

/-- The second product: 1000 rows of 128 hidden features against the 128×128 weights (the identity reshape of the tile first). -/
theorem mat128_2 (A : FVec Ideal Cert.ReferenceIdeal.S50000x128 .f32) (W : FVec Ideal Cert.ReferenceIdeal.S128x128 .f32)
    (x0 : Vec Ideal Cert.KernelIdeal.S1000x128 .f32) (x1 : Vec Ideal Cert.KernelIdeal.S128x128 .f32)
    (o : ℕ) (ho : o + 1000 ≤ 50000)
    (h0 : ∀ (r : Fin 1000) (k : Fin 128), x0 (ix2 r k) = A (ix2 (⟨o + r.val, by omega⟩ : Fin 50000) k))
    (h1 : ∀ (k : Fin 128) (q : Fin 128), x1 (ix2 k q) = W (ix2 k q)) (r : Fin 1000) (q : Fin 128) :
    Cert.KernelIdeal.Gen.k2_pay1 (F := Ideal) x0 x1 (ix2 r q)
      = Cert.Gcn.project128 (F := Ideal) A W (ix2 (⟨o + r.val, by omega⟩ : Fin 50000) q) := by
  unfold Cert.KernelIdeal.Gen.k2_pay1 Cert.Gcn.project128
  rw [shapeCast_self]
  refine (PlainDot.matmul_zero_apply (M := 1000) (K := 128) (N := 128) _ rfl none _ _ r q).trans ?_
  refine ((PlainDot.dotGeneral_apply (M := 50000) (K := 128) (N := 128) _ rfl none _ A W _ q).trans ?_).symm
  exact Finset.sum_congr rfl fun k _ => by rw [← h0 r k, ← h1 k q]; rfl

/-- The third product: the same body as the second, on the third layer's operands. -/
theorem mat128_4 (A : FVec Ideal Cert.ReferenceIdeal.S50000x128 .f32) (W : FVec Ideal Cert.ReferenceIdeal.S128x128 .f32)
    (x0 : Vec Ideal Cert.KernelIdeal.S1000x128 .f32) (x1 : Vec Ideal Cert.KernelIdeal.S128x128 .f32)
    (o : ℕ) (ho : o + 1000 ≤ 50000)
    (h0 : ∀ (r : Fin 1000) (k : Fin 128), x0 (ix2 r k) = A (ix2 (⟨o + r.val, by omega⟩ : Fin 50000) k))
    (h1 : ∀ (k : Fin 128) (q : Fin 128), x1 (ix2 k q) = W (ix2 k q)) (r : Fin 1000) (q : Fin 128) :
    Cert.KernelIdeal.Gen.k4_pay1 (F := Ideal) x0 x1 (ix2 r q)
      = Cert.Gcn.project128 (F := Ideal) A W (ix2 (⟨o + r.val, by omega⟩ : Fin 50000) q) := by
  unfold Cert.KernelIdeal.Gen.k4_pay1 Cert.Gcn.project128
  rw [shapeCast_self]
  refine (PlainDot.matmul_zero_apply (M := 1000) (K := 128) (N := 128) _ rfl none _ _ r q).trans ?_
  refine ((PlainDot.dotGeneral_apply (M := 50000) (K := 128) (N := 128) _ rfl none _ A W _ q).trans ?_).symm
  exact Finset.sum_congr rfl fun k _ => by rw [← h0 r k, ← h1 k q]; rfl

end Cert.Gcn.Tile

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.TileCombine.lean ====
/-
  The kernel's combine bodies, read at one entry of a tile of 1000 rows.

  A combine body takes a tile `x0` of aggregated rows, the tile's column `x1` of inverse degrees and the bias row
  `x2`, and forms `v = x0 (r, q) * x1 (r, 0) + x2 (0, q)` at each entry; two of the three bodies then keep `v` where
  `v > 0` and take `v * 0.2` elsewhere. When the tile's rows are the rows `o + r` of the whole arrays, `v` is the entry
  `(o + r, q)` of the whole-array affine map: row scaled by its inverse degree, plus the bias. The whole-array leaky
  step keeps `v` where `v ≥ 0` and takes `0.2 * v` elsewhere. The two selections differ only at `v = 0`, where the
  kernel's branch gives `0 * 0.2 = 0 = v`; elsewhere they pick the same branch, and the product of two extended reals
  does not depend on the order of its factors.
-/
import proofs.«109127_j52484500357541_1_alg».proof.Proof.Gen.KernelIdeal.Skeleton
import proofs.«109127_j52484500357541_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«109127_j52484500357541_1_alg».proof.Proof.LibColumns
import proofs.«109127_j52484500357541_1_alg».proof.Proof.LibRegionBlockSpread

noncomputable section

namespace Cert.Gcn.Tile

open Idealize.ShloMosaic Idealize.ShloMosaic.ValueIdx

variable [Cert.ReferenceIdeal.Facts]

/-- A `[b]` array spread along dimension 1 to a `[1, b]` row reads, at `(u, q)`, the array at `q`. -/
private theorem spread_b_1b_apply {α : Type} {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) :=
  broadcastInDim_apply _ h x (ix2 u q) (ix1 q) fun ax => by
    match ax with
    | ⟨0, _⟩ =>
      show q.val = if b = 1 then 0 else q.val
      split
      · have := q.isLt; omega
      · rfl

/-- The whole-array affine map at an entry: the aggregated entry times the row's inverse degree, plus the bias. -/
private theorem affine_entry (agg : FVec Ideal Cert.ReferenceIdeal.S50000x128 .f32)
    (inv : FVec Ideal Cert.ReferenceIdeal.S50000 .f32) (b : FVec Ideal Cert.ReferenceIdeal.S128 .f32)
    (p : Fin 50000) (q : Fin 128) :
    Cert.Gcn.affine (F := Ideal) agg inv b (ix2 p q) = agg (ix2 p q) * inv (ix1 p) + b (ix1 q) := by
  unfold Cert.Gcn.affine
  rw [addf_apply, mulf_apply, KeepDims.broadcastInDim_a1_ab_apply, KeepDims.broadcastInDim_a_a1_apply,
    KeepDims.broadcastInDim_1b_ab_apply, spread_b_1b_apply]

/-- The tile's affine entry: the same expression over the three blocks. -/
private theorem k5_entry (x0 : Vec Ideal Cert.KernelIdeal.S1000x128 .f32) (x1 : Vec Ideal Cert.KernelIdeal.S1000x1 .f32)
    (x2 : Vec Ideal Cert.KernelIdeal.S1x128 .f32) (r : Fin 1000) (q : Fin 128) :
    Cert.KernelIdeal.Gen.k5_pay1 (F := Ideal) x0 x1 x2 (ix2 r q)
      = x0 (ix2 r q) * x1 (ix2 r (0 : Fin 1)) + x2 (ix2 (0 : Fin 1) q) := by
  unfold Cert.KernelIdeal.Gen.k5_pay1
  simp only [shapeCast_self]
  rw [addf_apply, mulf_apply, broadcastTo_a1_ab_apply, broadcastTo_1b_ab_apply]

/-- The whole-array leaky step at an entry: `x` where `x ≥ 0`, `0.2 * x` elsewhere. -/
private theorem leaky_entry (x : FVec Ideal Cert.ReferenceIdeal.S50000x128 .f32) (i : Cert.ReferenceIdeal.S50000x128.Idx) :
    Cert.Gcn.leaky (F := Ideal) x i
      = Scalar.select (Ideal.cmp .oge (x i) (Ideal.ofBits .f32 0x00000000#32)) (x i)
          (Ideal.ofBits .f32 0x3E4CCCCD#32 * x i) := rfl

/-- Keeping `w` above zero and scaling it elsewhere is the same as keeping it from zero up: at `w = 0` the scaled value
    is `0` again, and the product does not depend on the order of its factors. -/
private theorem leaky_scalar (w c : EReal) :
    Scalar.select (Ideal.cmp .ogt w (Ideal.ofBits .f32 0x00000000#32)) w (w * c)
      = Scalar.select (Ideal.cmp .oge w (Ideal.ofBits .f32 0x00000000#32)) w (c * w) := by
  rw [Ideal.ofBits_zero_f32]
  simp only [Scalar.select, Ideal.cmp]
  by_cases hlt : w < 0
  · simp [hlt, not_lt.mpr hlt.le, not_le.mpr hlt, mul_comm]
  · by_cases hgt : 0 < w
    · simp [hgt, hgt.le]
    · have h0 : w = 0 := le_antisymm (not_lt.mp hgt) (not_lt.mp hlt)
      simp [h0]

/-- The tile's leaky entry of region 1: `v` where `v > 0`, `v * 0.2` elsewhere, with `v` the tile's affine entry. -/
private theorem k1_entry (x0 : Vec Ideal Cert.KernelIdeal.S1000x128 .f32) (x1 : Vec Ideal Cert.KernelIdeal.S1000x1 .f32)
    (x2 : Vec Ideal Cert.KernelIdeal.S1x128 .f32) (r : Fin 1000) (q : Fin 128) :
    Cert.KernelIdeal.Gen.k1_pay1 (F := Ideal) x0 x1 x2 (ix2 r q)
      = Scalar.select (Ideal.cmp .ogt (x0 (ix2 r q) * x1 (ix2 r (0 : Fin 1)) + x2 (ix2 (0 : Fin 1) q))
            (Ideal.ofBits .f32 0x00000000#32))
          (x0 (ix2 r q) * x1 (ix2 r (0 : Fin 1)) + x2 (ix2 (0 : Fin 1) q))
          ((x0 (ix2 r q) * x1 (ix2 r (0 : Fin 1)) + x2 (ix2 (0 : Fin 1) q)) * Ideal.ofBits .f32 0x3E4CCCCD#32) := by
  unfold Cert.KernelIdeal.Gen.k1_pay1
  simp only [shapeCast_self]
  rw [select_apply, cmpf_apply, mulf_apply, addf_apply, mulf_apply, broadcastTo_a1_ab_apply, broadcastTo_1b_ab_apply]
  rfl

/-- The tile's leaky entry of region 3: `v` where `v > 0`, `v * 0.2` elsewhere, with `v` the tile's affine entry. -/
private theorem k3_entry (x0 : Vec Ideal Cert.KernelIdeal.S1000x128 .f32) (x1 : Vec Ideal Cert.KernelIdeal.S1000x1 .f32)
    (x2 : Vec Ideal Cert.KernelIdeal.S1x128 .f32) (r : Fin 1000) (q : Fin 128) :
    Cert.KernelIdeal.Gen.k3_pay1 (F := Ideal) x0 x1 x2 (ix2 r q)
      = Scalar.select (Ideal.cmp .ogt (x0 (ix2 r q) * x1 (ix2 r (0 : Fin 1)) + x2 (ix2 (0 : Fin 1) q))
            (Ideal.ofBits .f32 0x00000000#32))
          (x0 (ix2 r q) * x1 (ix2 r (0 : Fin 1)) + x2 (ix2 (0 : Fin 1) q))
          ((x0 (ix2 r q) * x1 (ix2 r (0 : Fin 1)) + x2 (ix2 (0 : Fin 1) q)) * Ideal.ofBits .f32 0x3E4CCCCD#32) := by
  unfold Cert.KernelIdeal.Gen.k3_pay1
  simp only [shapeCast_self]
  rw [select_apply, cmpf_apply, mulf_apply, addf_apply, mulf_apply, broadcastTo_a1_ab_apply, broadcastTo_1b_ab_apply]
  rfl

/-- The first layer's combine body at a tile entry is the whole-array leaky affine map at that entry. -/
theorem combineRelu_1 (agg : FVec Ideal Cert.ReferenceIdeal.S50000x128 .f32) (inv : FVec Ideal Cert.ReferenceIdeal.S50000 .f32)
    (b : FVec Ideal Cert.ReferenceIdeal.S128 .f32) (x0 : Vec Ideal Cert.KernelIdeal.S1000x128 .f32)
    (x1 : Vec Ideal Cert.KernelIdeal.S1000x1 .f32) (x2 : Vec Ideal Cert.KernelIdeal.S1x128 .f32)
    (o : ℕ) (ho : o + 1000 ≤ 50000)
    (h0 : ∀ (r : Fin 1000) (q : Fin 128), x0 (ix2 r q) = agg (ix2 (⟨o + r.val, by omega⟩ : Fin 50000) q))
    (h1 : ∀ r : Fin 1000, x1 (ix2 r (0 : Fin 1)) = inv (ix1 (⟨o + r.val, by omega⟩ : Fin 50000)))
    (h2 : ∀ q : Fin 128, x2 (ix2 (0 : Fin 1) q) = b (ix1 q)) (r : Fin 1000) (q : Fin 128) :
    Cert.KernelIdeal.Gen.k1_pay1 (F := Ideal) x0 x1 x2 (ix2 r q)
      = Cert.Gcn.leaky (Cert.Gcn.affine (F := Ideal) agg inv b) (ix2 (⟨o + r.val, by omega⟩ : Fin 50000) q) := by
  rw [k1_entry, leaky_entry, affine_entry, h0 r q, h1 r, h2 q]
  exact leaky_scalar _ _

/-- The second layer's combine body: the same body as the first layer's. -/
theorem combineRelu_3 (agg : FVec Ideal Cert.ReferenceIdeal.S50000x128 .f32) (inv : FVec Ideal Cert.ReferenceIdeal.S50000 .f32)
    (b : FVec Ideal Cert.ReferenceIdeal.S128 .f32) (x0 : Vec Ideal Cert.KernelIdeal.S1000x128 .f32)
    (x1 : Vec Ideal Cert.KernelIdeal.S1000x1 .f32) (x2 : Vec Ideal Cert.KernelIdeal.S1x128 .f32)
    (o : ℕ) (ho : o + 1000 ≤ 50000)
    (h0 : ∀ (r : Fin 1000) (q : Fin 128), x0 (ix2 r q) = agg (ix2 (⟨o + r.val, by omega⟩ : Fin 50000) q))
    (h1 : ∀ r : Fin 1000, x1 (ix2 r (0 : Fin 1)) = inv (ix1 (⟨o + r.val, by omega⟩ : Fin 50000)))
    (h2 : ∀ q : Fin 128, x2 (ix2 (0 : Fin 1) q) = b (ix1 q)) (r : Fin 1000) (q : Fin 128) :
    Cert.KernelIdeal.Gen.k3_pay1 (F := Ideal) x0 x1 x2 (ix2 r q)
      = Cert.Gcn.leaky (Cert.Gcn.affine (F := Ideal) agg inv b) (ix2 (⟨o + r.val, by omega⟩ : Fin 50000) q) := by
  rw [k3_entry, leaky_entry, affine_entry, h0 r q, h1 r, h2 q]
  exact leaky_scalar _ _

/-- The third layer's combine body has no leaky step: at a tile entry it is the whole-array affine map at that entry. -/
theorem combine_5 (agg : FVec Ideal Cert.ReferenceIdeal.S50000x128 .f32) (inv : FVec Ideal Cert.ReferenceIdeal.S50000 .f32)
    (b : FVec Ideal Cert.ReferenceIdeal.S128 .f32) (x0 : Vec Ideal Cert.KernelIdeal.S1000x128 .f32)
    (x1 : Vec Ideal Cert.KernelIdeal.S1000x1 .f32) (x2 : Vec Ideal Cert.KernelIdeal.S1x128 .f32)
    (o : ℕ) (ho : o + 1000 ≤ 50000)
    (h0 : ∀ (r : Fin 1000) (q : Fin 128), x0 (ix2 r q) = agg (ix2 (⟨o + r.val, by omega⟩ : Fin 50000) q))
    (h1 : ∀ r : Fin 1000, x1 (ix2 r (0 : Fin 1)) = inv (ix1 (⟨o + r.val, by omega⟩ : Fin 50000)))
    (h2 : ∀ q : Fin 128, x2 (ix2 (0 : Fin 1) q) = b (ix1 q)) (r : Fin 1000) (q : Fin 128) :
    Cert.KernelIdeal.Gen.k5_pay1 (F := Ideal) x0 x1 x2 (ix2 r q)
      = Cert.Gcn.affine (F := Ideal) agg inv b (ix2 (⟨o + r.val, by omega⟩ : Fin 50000) q) := by
  rw [k5_entry, affine_entry, h0 r q, h1 r, h2 q]

end Cert.Gcn.Tile

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.TileNormalize.lean ====
/-
  The kernel's normalize body, read at one entry of a tile of 1000 rows.

  The body squares the tile entry by entry, sums each row, keeps the row sums as a column, takes the square root,
  bounds it below by `1e-12`, spreads the column back over the 128 columns and divides the tile by it. At row `r` and
  column `q` this is `x0 (r, q)` divided by `max (√(∑ₖ x0 (r, k) * x0 (r, k))) 1e-12`: only row `r` of the tile enters.
  The whole-array function does the same on every row of the whole array, its row sum starting from a zero initial
  value. When the tile's rows are the rows `o + r` of the whole array, the two row sums have equal terms, so the two
  quotients are the same extended real.
-/
import proofs.«109127_j52484500357541_1_alg».proof.Proof.Gen.KernelIdeal.Skeleton
import proofs.«109127_j52484500357541_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«109127_j52484500357541_1_alg».proof.Proof.LibColumns
import proofs.«109127_j52484500357541_1_alg».proof.Proof.LibRegionBlockSpread
import proofs.«109127_j52484500357541_1_alg».proof.Proof.LibRowReduce

noncomputable section

namespace Cert.Gcn.Tile

open Idealize.ShloMosaic Idealize.ShloMosaic.ValueIdx

variable [Cert.ReferenceIdeal.Facts]

/-- A kernel's row sum of a 1000×128 tile from the zero word, at row `r`: the sum of the row's 128 entries. -/
private theorem rowSum_apply (x : FVec Ideal (⟨2, ![1000, 128]⟩ : Shape) .f32)
    (h : (⟨2, ![1000, 128]⟩ : Shape).Reduces [1] ⟨1, ![1000]⟩) (hφ : FKind.Formats .f32)
    (hacc : (0x00000000#32 : BitVec 32) = 0x00000000#32) (r : Fin 1000) :
    multiReduction .add [1] ⟨1, ![1000]⟩ x 0x00000000#32 h hφ hacc (ix1 r) = ∑ k : Fin 128, x (ix2 r k) :=
  RowReduce.multiReduction_add_row x 0x00000000#32 h hφ hacc r

/-- The host's quotient at an index is the quotient of the entries. -/
private theorem hostDivf_apply {s : Shape} {φ : FTy} (a b : FVec Ideal s φ) (i : s.Idx) :
    Host.divf a b i = Ideal.div (a i) (b i) := rfl

/-- The tile's normalized entry: the entry over the larger of its row's Euclidean norm and `1e-12`. -/
private theorem k6_entry (x0 : Vec Ideal Cert.KernelIdeal.S1000x128 .f32) (r : Fin 1000) (q : Fin 128) :
    Cert.KernelIdeal.Gen.k6_pay1 (F := Ideal) x0 (ix2 r q)
      = Ideal.div (x0 (ix2 r q))
          (max (Ideal.sqrt (∑ k : Fin 128, x0 (ix2 r k) * x0 (ix2 r k))) (Ideal.ofBits .f32 0x2B8CBCCC#32)) := by
  unfold Cert.KernelIdeal.Gen.k6_pay1
  simp only [shapeCast_self]
  rw [divf_apply, broadcastTo_a1_ab_apply, maximumf_apply, KeepDims.sqrt_apply, RowReduce.shapeCast_a_a1_apply,
    rowSum_apply]
  rfl

/-- The whole-array normalization at an entry. -/
private theorem rowNormalize_entry (h : FVec Ideal Cert.ReferenceIdeal.S50000x128 .f32) (p : Fin 50000) (q : Fin 128) :
    Cert.Gcn.rowNormalize (F := Ideal) h (ix2 p q)
      = Ideal.div (h (ix2 p q))
          (max (Ideal.sqrt (∑ k : Fin 128, h (ix2 p k) * h (ix2 p k))) (Ideal.ofBits .f32 0x2B8CBCCC#32)) := by
  have hR : (⟨2, ![50000, 128]⟩ : Shape).Reduces [1] ⟨1, ![50000]⟩ := by
    obtain ⟨e, hb⟩ := Cert.ReferenceIdeal.Facts₀.reducesTo_S50000x128_S50000_d1
    exact ⟨e, Nat.one_pos, hb⟩
  unfold Cert.Gcn.rowNormalize
  rw [hostDivf_apply, KeepDims.broadcastInDim_a1_ab_apply, maximumf_apply, KeepDims.hostSqrt_apply,
    KeepDims.broadcastInDim_a_a1_apply, RowReduce.hostReduceAdd_row _ _ _ hR, constant_apply, Ideal.ofBits_zero_f32, zero_add]
  rfl

/-- The normalize body at a tile entry is the whole-array row normalization at that entry. -/
theorem normalize_6 (h : FVec Ideal Cert.ReferenceIdeal.S50000x128 .f32) (x0 : Vec Ideal Cert.KernelIdeal.S1000x128 .f32)
    (o : ℕ) (ho : o + 1000 ≤ 50000)
    (h0 : ∀ (r : Fin 1000) (q : Fin 128), x0 (ix2 r q) = h (ix2 (⟨o + r.val, by omega⟩ : Fin 50000) q))
    (r : Fin 1000) (q : Fin 128) :
    Cert.KernelIdeal.Gen.k6_pay1 (F := Ideal) x0 (ix2 r q)
      = Cert.Gcn.rowNormalize (F := Ideal) h (ix2 (⟨o + r.val, by omega⟩ : Fin 50000) q) := by
  rw [k6_entry, rowNormalize_entry, h0 r q]
  exact congrArg (fun s => Ideal.div _ (max (Ideal.sqrt s) _)) (Finset.sum_congr rfl fun k _ => by rw [h0 r k])

end Cert.Gcn.Tile

end
-- ==== Proof.Region0.lean ====
/-
  Region 0: a dense product computed tile by tile.

  Grid point `t` reads rows `1000 t … 1000 t + 999` of the left array and the whole right array, and writes rows
  `1000 t … 1000 t + 999` of the product. An entry of a product depends only on its own row of the left array, so what
  point `t` writes is the restriction to those rows of the product of the whole arrays; the fifty blocks tile the
  output, so after the region the output array is that product.
-/
import proofs.«109127_j52484500357541_1_alg».proof.Proof.Gen.KernelIdeal.Frame
import proofs.«109127_j52484500357541_1_alg».proof.Proof.Spec
import proofs.«109127_j52484500357541_1_alg».proof.Proof.Gen.ReferenceIdeal
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

/-- The contents of a core's buffers when a region is entered. -/
abbrev VT := (c : Dev nD) → (b : Ref sig .tc) → Buf (Elt Ideal) ((c : Thread nD τ).loc b)

/-- Every access of a tile starts at the origin of its block. -/
theorem hz : (![0, 0] : Fin 2 → Nat) = fun _ => 0 := funext fun a => by fin_cases a <;> rfl

/-- Row `r` of the 1000-row tile whose first row is `o`, as a row of the whole 50000-row array. -/
abbrev rowOf (o : ℕ) (ho : o + 1000 ≤ 50000) (r : Fin 1000) : Fin 50000 := ⟨o + r.val, by omega⟩

/-- The printed index maps over the grid: the output and the left operand move down one tile per point, the right
    operand stays. -/
theorem idx : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point `t` writes back is block `t` of the product of the whole arrays. -/
theorem flushed
    (htile : ∀ (A : FVec Ideal S50000x300 .f32) (W : FVec Ideal S300x128 .f32) (x0 : Vec Ideal S1000x300 .f32) (x1 : Vec Ideal S300x128 .f32)
      (o : ℕ) (ho : o + 1000 ≤ 50000)
      (h0 : ∀ (r : Fin 1000) (k : Fin 300), x0 (ix2 r k) = A (ix2 (rowOf o ho r) k))
      (h1 : ∀ (k : Fin 300) (q : Fin 128), x1 (ix2 k q) = W (ix2 k q)) (r : Fin 1000) (q : Fin 128),
      k0_pay1 (F := Ideal) x0 x1 (ix2 r q) = Cert.Gcn.project300 (F := Ideal) A W (ix2 (rowOf o ho r) q))
    (V : VT) (c : Dev nD) (t : Fin cfg0.N) :
    (dat0 V c).flushed 2 t = ((cfg0.win 2).blk t).view.read (Elt Ideal) (Cert.Gcn.project300 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S1000x300) hz, View.ld_unit_zero (S := S300x128) hz]
  obtain ⟨e20, e21, e00, e01, e10, e11⟩ := idx t
  have ht : t.val * 1000 + 1000 ≤ 50000 := by have h : t.val < 50 := t.isLt; omega
  funext j
  obtain ⟨r, q, rfl⟩ : ∃ (r : Fin 1000) (q : Fin 128), j = ix2 r q := ⟨j 0, j 1, eq_ix2 j⟩
  show k0_pay1 (iblk0 V c 0 t) (iblk0 V c 1 t) (ix2 r q)
    = Cert.Gcn.project300 (F := Ideal) (V c main_arg0) (V c main_arg3) (((cfg0.win 2).blk t).view.emb (ix2 r q))
  have hemb : ((cfg0.win 2).blk t).view.emb (ix2 r q) = ix2 (rowOf (t.val * 1000) ht r) q := by
    funext a; apply Fin.ext
    match a with
    | ⟨0, _⟩ => show win0_2.index t (0 : Fin 2) * 1000 + 1 * r.val = t.val * 1000 + r.val; rw [e20]; omega
    | ⟨1, _⟩ => show win0_2.index t (1 : Fin 2) * 128 + 1 * q.val = q.val; rw [e21]; omega
  rw [hemb]
  refine htile (V c main_arg0) (V c main_arg3) (iblk0 V c 0 t) (iblk0 V c 1 t) (t.val * 1000) ht ?_ ?_ r q
  · intro r k
    show V c main_arg0 (((cfg0.win 0).blk t).view.emb (ix2 r k)) = V c main_arg0 (ix2 (rowOf (t.val * 1000) ht r) k)
    refine congrArg (V c main_arg0) ?_
    funext a; apply Fin.ext
    match a with
    | ⟨0, _⟩ => show win0_0.index t (0 : Fin 2) * 1000 + 1 * r.val = t.val * 1000 + r.val; rw [e00]; omega
    | ⟨1, _⟩ => show win0_0.index t (1 : Fin 2) * 300 + 1 * k.val = k.val; rw [e01]; omega
  · intro k q
    show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 300 + 1 * k.val = k.val; rw [e10]; omega
    | ⟨1, _⟩ => show win0_1.index t (1 : Fin 2) * 128 + 1 * q.val = q.val; rw [e11]; omega

/-- An index of the output array lies in point `t`'s block iff each coordinate lies in the block's range on its axis. -/
theorem mem_blk (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v10).slice (win0_2.rect t)).set ↔ _
  rw [View.set_slice_whole, Rect.mem_set_unit]
  exact Iff.rfl

/-- The blocks tile the output: row `p` lies in the block of grid point `p / 1000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 1000 < 50 := by omega
  refine ⟨⟨(i 0).val / 1000, hlt⟩, flush0_2 _, ?_⟩
  rw [mem_blk]
  have eo0 := (idx ⟨(i 0).val / 1000, hlt⟩).1
  have eo1 := (idx ⟨(i 0).val / 1000, hlt⟩).2.1
  intro a
  match a with
  | ⟨0, _⟩ => show win0_2.index ⟨(i 0).val / 1000, hlt⟩ (0 : Fin 2) * 1000 ≤ (i 0).val ∧ (i 0).val < win0_2.index ⟨(i 0).val / 1000, hlt⟩ (0 : Fin 2) * 1000 + 1000
              rw [eo0]; show (i 0).val / 1000 * 1000 ≤ (i 0).val ∧ (i 0).val < (i 0).val / 1000 * 1000 + 1000; omega
  | ⟨1, _⟩ => show win0_2.index ⟨(i 0).val / 1000, hlt⟩ (1 : Fin 2) * 128 ≤ (i 1).val ∧ (i 1).val < win0_2.index ⟨(i 0).val / 1000, hlt⟩ (1 : Fin 2) * 128 + 128
              rw [eo1]; omega

/-- After the region the output array is the product of the two arrays as the region found them. -/
theorem final
    (htile : ∀ (A : FVec Ideal S50000x300 .f32) (W : FVec Ideal S300x128 .f32) (x0 : Vec Ideal S1000x300 .f32) (x1 : Vec Ideal S300x128 .f32)
      (o : ℕ) (ho : o + 1000 ≤ 50000)
      (h0 : ∀ (r : Fin 1000) (k : Fin 300), x0 (ix2 r k) = A (ix2 (rowOf o ho r) k))
      (h1 : ∀ (k : Fin 300) (q : Fin 128), x1 (ix2 k q) = W (ix2 k q)) (r : Fin 1000) (q : Fin 128),
      k0_pay1 (F := Ideal) x0 x1 (ix2 r q) = Cert.Gcn.project300 (F := Ideal) A W (ix2 (rowOf o ho r) q))
    (V : VT) (c : Dev nD) :
    (dat0 V c).arrAt 2 cfg0.N = Cert.Gcn.project300 (F := Ideal) (V c main_arg0) (V c main_arg3) :=
  (dat0 V c).arrAt_eq_of_cover 2 _ (fun t _ => flushed htile V c t) cover

end Cert.KernelIdeal.Region0

end
-- ==== Proof.Region1.lean ====
/-
  Region 1: the aggregated rows scaled by the inverse degree, plus the bias, then the leaky rectifier, tile by tile.

  Grid point `t` reads rows `1000 t … 1000 t + 999` of the aggregate and of the inverse-degree column, and the whole
  bias row, and writes the same rows of the result. Every entry of the result depends only on the entry of the
  aggregate at the same place, the inverse degree of its row and the bias of its column, so what point `t` writes is
  the restriction to its rows of the whole-array function; the fifty blocks tile the output.
-/
import proofs.«109127_j52484500357541_1_alg».proof.Proof.Gen.KernelIdeal.Frame
import proofs.«109127_j52484500357541_1_alg».proof.Proof.Spec
import proofs.«109127_j52484500357541_1_alg».proof.Proof.Gen.ReferenceIdeal
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

/-- The contents of a core's buffers when a region is entered. -/
abbrev VT := (c : Dev nD) → (b : Ref sig .tc) → Buf (Elt Ideal) ((c : Thread nD τ).loc b)

/-- Every access of a tile starts at the origin of its block. -/
theorem hz : (![0, 0] : Fin 2 → Nat) = fun _ => 0 := funext fun a => by fin_cases a <;> rfl

/-- Row `r` of the 1000-row tile whose first row is `o`, as a row of the whole 50000-row array. -/
abbrev rowOf (o : ℕ) (ho : o + 1000 ≤ 50000) (r : Fin 1000) : Fin 50000 := ⟨o + r.val, by omega⟩

/-- The printed index maps over the grid: the output, the aggregate and the column move down one tile per point, the
    bias row stays. -/
theorem idx : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- What point `t` writes back is block `t` of the whole-array function. -/
theorem flushed
    (htile : ∀ (agg : FVec Ideal S50000x128 .f32) (inv : FVec Ideal S50000 .f32) (b : FVec Ideal S128 .f32)
      (x0 : Vec Ideal S1000x128 .f32) (x1 : Vec Ideal S1000x1 .f32) (x2 : Vec Ideal S1x128 .f32) (o : ℕ) (ho : o + 1000 ≤ 50000)
      (h0 : ∀ (r : Fin 1000) (q : Fin 128), x0 (ix2 r q) = agg (ix2 (rowOf o ho r) q))
      (h1 : ∀ r : Fin 1000, x1 (ix2 r (0 : Fin 1)) = inv (ix1 (rowOf o ho r)))
      (h2 : ∀ q : Fin 128, x2 (ix2 (0 : Fin 1) q) = b (ix1 q)) (r : Fin 1000) (q : Fin 128),
      k1_pay1 (F := Ideal) x0 x1 x2 (ix2 r q) = Cert.Gcn.leaky (Cert.Gcn.affine (F := Ideal) agg inv b) (ix2 (rowOf o ho r) q))
    (V : VT) (c : Dev nD) (inv : FVec Ideal S50000 .f32) (b : FVec Ideal S128 .f32)
    (hinv : ∀ p : Fin 50000, V c main_v9 (ix2 p (0 : Fin 1)) = inv (ix1 p))
    (hb : ∀ q : Fin 128, V c main_v21 (ix2 (0 : Fin 1) q) = b (ix1 q)) (t : Fin cfg1.N) :
    (dat1 V c).flushed 3 t = ((cfg1.win 3).blk t).view.read (Elt Ideal) (Cert.Gcn.leaky (Cert.Gcn.affine (F := Ideal) (V c main_v20) inv b)) := by
  show (cfg1.win 3).cut (grid1.coords t) ((dat1 V c).after 3 t) = _
  rw [after1_3]
  unfold out1_3
  rw [View.canon_unit_zero hz]
  simp only [View.ld_unit_zero (S := S1000x128) hz, View.ld_unit_zero (S := S1000x1) hz, View.ld_unit_zero (S := S1x128) hz]
  obtain ⟨e30, e31, e00, e01, e10, e11, e20, e21⟩ := idx t
  have ht : t.val * 1000 + 1000 ≤ 50000 := by have h : t.val < 50 := t.isLt; omega
  funext j
  obtain ⟨r, q, rfl⟩ : ∃ (r : Fin 1000) (q : Fin 128), j = ix2 r q := ⟨j 0, j 1, eq_ix2 j⟩
  show k1_pay1 (iblk1 V c 0 t) (iblk1 V c 1 t) (iblk1 V c 2 t) (ix2 r q)
    = Cert.Gcn.leaky (Cert.Gcn.affine (F := Ideal) (V c main_v20) inv b) (((cfg1.win 3).blk t).view.emb (ix2 r q))
  have hemb : ((cfg1.win 3).blk t).view.emb (ix2 r q) = ix2 (rowOf (t.val * 1000) ht r) q := by
    funext a; apply Fin.ext
    match a with
    | ⟨0, _⟩ => show win1_3.index t (0 : Fin 2) * 1000 + 1 * r.val = t.val * 1000 + r.val; rw [e30]; omega
    | ⟨1, _⟩ => show win1_3.index t (1 : Fin 2) * 128 + 1 * q.val = q.val; rw [e31]; omega
  rw [hemb]
  refine htile (V c main_v20) inv b (iblk1 V c 0 t) (iblk1 V c 1 t) (iblk1 V c 2 t) (t.val * 1000) ht ?_ ?_ ?_ r q
  · intro r q
    show V c main_v20 (((cfg1.win 0).blk t).view.emb (ix2 r q)) = V c main_v20 (ix2 (rowOf (t.val * 1000) ht r) q)
    refine congrArg (V c main_v20) ?_
    funext a; apply Fin.ext
    match a with
    | ⟨0, _⟩ => show win1_0.index t (0 : Fin 2) * 1000 + 1 * r.val = t.val * 1000 + r.val; rw [e00]; omega
    | ⟨1, _⟩ => show win1_0.index t (1 : Fin 2) * 128 + 1 * q.val = q.val; rw [e01]; omega
  · intro r
    show V c main_v9 (((cfg1.win 1).blk t).view.emb (ix2 r (0 : Fin 1))) = inv (ix1 (rowOf (t.val * 1000) ht r))
    refine Eq.trans (congrArg (V c main_v9) ?_) (hinv (rowOf (t.val * 1000) ht r))
    funext a; apply Fin.ext
    match a with
    | ⟨0, _⟩ => show win1_1.index t (0 : Fin 2) * 1000 + 1 * r.val = t.val * 1000 + r.val; rw [e10]; omega
    | ⟨1, _⟩ => show win1_1.index t (1 : Fin 2) * 1 + 1 * (0 : Fin 1).val = (0 : Fin 1).val; rw [e11]; omega
  · intro q
    show V c main_v21 (((cfg1.win 2).blk t).view.emb (ix2 (0 : Fin 1) q)) = b (ix1 q)
    refine Eq.trans (congrArg (V c main_v21) ?_) (hb q)
    funext a; apply Fin.ext
    match a with
    | ⟨0, _⟩ => show win1_2.index t (0 : Fin 2) * 1 + 1 * (0 : Fin 1).val = (0 : Fin 1).val; rw [e20]; omega
    | ⟨1, _⟩ => show win1_2.index t (1 : Fin 2) * 128 + 1 * q.val = q.val; rw [e21]; omega

/-- An index of the output array lies in point `t`'s block iff each coordinate lies in the block's range on its axis. -/
theorem mem_blk (t : Fin cfg1.N) (i : S50000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v22).slice (win1_3.rect t)).set ↔ _
  rw [View.set_slice_whole, Rect.mem_set_unit]
  exact Iff.rfl

/-- The blocks tile the output: row `p` lies in the block of grid point `p / 1000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 1000 < 50 := by omega
  refine ⟨⟨(i 0).val / 1000, hlt⟩, flush1_3 _, ?_⟩
  rw [mem_blk]
  have eo0 := (idx ⟨(i 0).val / 1000, hlt⟩).1
  have eo1 := (idx ⟨(i 0).val / 1000, hlt⟩).2.1
  intro a
  match a with
  | ⟨0, _⟩ => show win1_3.index ⟨(i 0).val / 1000, hlt⟩ (0 : Fin 2) * 1000 ≤ (i 0).val ∧ (i 0).val < win1_3.index ⟨(i 0).val / 1000, hlt⟩ (0 : Fin 2) * 1000 + 1000
              rw [eo0]; show (i 0).val / 1000 * 1000 ≤ (i 0).val ∧ (i 0).val < (i 0).val / 1000 * 1000 + 1000; omega
  | ⟨1, _⟩ => show win1_3.index ⟨(i 0).val / 1000, hlt⟩ (1 : Fin 2) * 128 ≤ (i 1).val ∧ (i 1).val < win1_3.index ⟨(i 0).val / 1000, hlt⟩ (1 : Fin 2) * 128 + 128
              rw [eo1]; omega

/-- After the region the output array is the whole-array function of the aggregate as the region found it, of the
    inverse degrees its column holds and of the bias its row holds. -/
theorem final
    (htile : ∀ (agg : FVec Ideal S50000x128 .f32) (inv : FVec Ideal S50000 .f32) (b : FVec Ideal S128 .f32)
      (x0 : Vec Ideal S1000x128 .f32) (x1 : Vec Ideal S1000x1 .f32) (x2 : Vec Ideal S1x128 .f32) (o : ℕ) (ho : o + 1000 ≤ 50000)
      (h0 : ∀ (r : Fin 1000) (q : Fin 128), x0 (ix2 r q) = agg (ix2 (rowOf o ho r) q))
      (h1 : ∀ r : Fin 1000, x1 (ix2 r (0 : Fin 1)) = inv (ix1 (rowOf o ho r)))
      (h2 : ∀ q : Fin 128, x2 (ix2 (0 : Fin 1) q) = b (ix1 q)) (r : Fin 1000) (q : Fin 128),
      k1_pay1 (F := Ideal) x0 x1 x2 (ix2 r q) = Cert.Gcn.leaky (Cert.Gcn.affine (F := Ideal) agg inv b) (ix2 (rowOf o ho r) q))
    (V : VT) (c : Dev nD) (inv : FVec Ideal S50000 .f32) (b : FVec Ideal S128 .f32)
    (hinv : ∀ p : Fin 50000, V c main_v9 (ix2 p (0 : Fin 1)) = inv (ix1 p))
    (hb : ∀ q : Fin 128, V c main_v21 (ix2 (0 : Fin 1) q) = b (ix1 q)) :
    (dat1 V c).arrAt 3 cfg1.N = Cert.Gcn.leaky (Cert.Gcn.affine (F := Ideal) (V c main_v20) inv b) :=
  (dat1 V c).arrAt_eq_of_cover 3 _ (fun t _ => flushed htile V c inv b hinv hb t) cover

end Cert.KernelIdeal.Region1

end
-- ==== Proof.Region2.lean ====
/-
  Region 2: a dense product computed tile by tile.

  Grid point `t` reads rows `1000 t … 1000 t + 999` of the left array and the whole right array, and writes rows
  `1000 t … 1000 t + 999` of the product. An entry of a product depends only on its own row of the left array, so what
  point `t` writes is the restriction to those rows of the product of the whole arrays; the fifty blocks tile the
  output, so after the region the output array is that product.
-/
import proofs.«109127_j52484500357541_1_alg».proof.Proof.Gen.KernelIdeal.Frame
import proofs.«109127_j52484500357541_1_alg».proof.Proof.Spec
import proofs.«109127_j52484500357541_1_alg».proof.Proof.Gen.ReferenceIdeal
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)

/-- The contents of a core's buffers when a region is entered. -/
abbrev VT := (c : Dev nD) → (b : Ref sig .tc) → Buf (Elt Ideal) ((c : Thread nD τ).loc b)

/-- Every access of a tile starts at the origin of its block. -/
theorem hz : (![0, 0] : Fin 2 → Nat) = fun _ => 0 := funext fun a => by fin_cases a <;> rfl

/-- Row `r` of the 1000-row tile whose first row is `o`, as a row of the whole 50000-row array. -/
abbrev rowOf (o : ℕ) (ho : o + 1000 ≤ 50000) (r : Fin 1000) : Fin 50000 := ⟨o + r.val, by omega⟩

/-- The printed index maps over the grid: the output and the left operand move down one tile per point, the right
    operand stays. -/
theorem idx : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- What point `t` writes back is block `t` of the product of the whole arrays. -/
theorem flushed
    (htile : ∀ (A : FVec Ideal S50000x128 .f32) (W : FVec Ideal S128x128 .f32) (x0 : Vec Ideal S1000x128 .f32) (x1 : Vec Ideal S128x128 .f32)
      (o : ℕ) (ho : o + 1000 ≤ 50000)
      (h0 : ∀ (r : Fin 1000) (k : Fin 128), x0 (ix2 r k) = A (ix2 (rowOf o ho r) k))
      (h1 : ∀ (k : Fin 128) (q : Fin 128), x1 (ix2 k q) = W (ix2 k q)) (r : Fin 1000) (q : Fin 128),
      k2_pay1 (F := Ideal) x0 x1 (ix2 r q) = Cert.Gcn.project128 (F := Ideal) A W (ix2 (rowOf o ho r) q))
    (V : VT) (c : Dev nD) (t : Fin cfg2.N) :
    (dat2 V c).flushed 2 t = ((cfg2.win 2).blk t).view.read (Elt Ideal) (Cert.Gcn.project128 (F := Ideal) (V c main_v22) (V c main_arg5)) := by
  show (cfg2.win 2).cut (grid2.coords t) ((dat2 V c).after 2 t) = _
  rw [after2_2]
  unfold out2_2
  rw [View.canon_unit_zero hz]
  simp only [View.ld_unit_zero (S := S1000x128) hz, View.ld_unit_zero (S := S128x128) hz]
  obtain ⟨e20, e21, e00, e01, e10, e11⟩ := idx t
  have ht : t.val * 1000 + 1000 ≤ 50000 := by have h : t.val < 50 := t.isLt; omega
  funext j
  obtain ⟨r, q, rfl⟩ : ∃ (r : Fin 1000) (q : Fin 128), j = ix2 r q := ⟨j 0, j 1, eq_ix2 j⟩
  show k2_pay1 (iblk2 V c 0 t) (iblk2 V c 1 t) (ix2 r q)
    = Cert.Gcn.project128 (F := Ideal) (V c main_v22) (V c main_arg5) (((cfg2.win 2).blk t).view.emb (ix2 r q))
  have hemb : ((cfg2.win 2).blk t).view.emb (ix2 r q) = ix2 (rowOf (t.val * 1000) ht r) q := by
    funext a; apply Fin.ext
    match a with
    | ⟨0, _⟩ => show win2_2.index t (0 : Fin 2) * 1000 + 1 * r.val = t.val * 1000 + r.val; rw [e20]; omega
    | ⟨1, _⟩ => show win2_2.index t (1 : Fin 2) * 128 + 1 * q.val = q.val; rw [e21]; omega
  rw [hemb]
  refine htile (V c main_v22) (V c main_arg5) (iblk2 V c 0 t) (iblk2 V c 1 t) (t.val * 1000) ht ?_ ?_ r q
  · intro r k
    show V c main_v22 (((cfg2.win 0).blk t).view.emb (ix2 r k)) = V c main_v22 (ix2 (rowOf (t.val * 1000) ht r) k)
    refine congrArg (V c main_v22) ?_
    funext a; apply Fin.ext
    match a with
    | ⟨0, _⟩ => show win2_0.index t (0 : Fin 2) * 1000 + 1 * r.val = t.val * 1000 + r.val; rw [e00]; omega
    | ⟨1, _⟩ => show win2_0.index t (1 : Fin 2) * 128 + 1 * k.val = k.val; rw [e01]; omega
  · intro k q
    show V c main_arg5 (((cfg2.win 1).blk t).view.emb (ix2 k q)) = V c main_arg5 (ix2 k q)
    refine congrArg (V c main_arg5) ?_
    funext a; apply Fin.ext
    match a with
    | ⟨0, _⟩ => show win2_1.index t (0 : Fin 2) * 128 + 1 * k.val = k.val; rw [e10]; omega
    | ⟨1, _⟩ => show win2_1.index t (1 : Fin 2) * 128 + 1 * q.val = q.val; rw [e11]; omega

/-- An index of the output array lies in point `t`'s block iff each coordinate lies in the block's range on its axis. -/
theorem mem_blk (t : Fin cfg2.N) (i : S50000x128.Idx) :
    i ∈ ((cfg2.win 2).blk t).view.set ↔ ∀ a : Fin 2, win2_2.index t a * S1000x128.size a ≤ (i a).val ∧ (i a).val < win2_2.index t a * S1000x128.size a + S1000x128.size a := by
  show i ∈ ((View.whole main_v23).slice (win2_2.rect t)).set ↔ _
  rw [View.set_slice_whole, Rect.mem_set_unit]
  exact Iff.rfl

/-- The blocks tile the output: row `p` lies in the block of grid point `p / 1000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hlt : (i 0).val / 1000 < 50 := by omega
  refine ⟨⟨(i 0).val / 1000, hlt⟩, flush2_2 _, ?_⟩
  rw [mem_blk]
  have eo0 := (idx ⟨(i 0).val / 1000, hlt⟩).1
  have eo1 := (idx ⟨(i 0).val / 1000, hlt⟩).2.1
  intro a
  match a with
  | ⟨0, _⟩ => show win2_2.index ⟨(i 0).val / 1000, hlt⟩ (0 : Fin 2) * 1000 ≤ (i 0).val ∧ (i 0).val < win2_2.index ⟨(i 0).val / 1000, hlt⟩ (0 : Fin 2) * 1000 + 1000
              rw [eo0]; show (i 0).val / 1000 * 1000 ≤ (i 0).val ∧ (i 0).val < (i 0).val / 1000 * 1000 + 1000; omega
  | ⟨1, _⟩ => show win2_2.index ⟨(i 0).val / 1000, hlt⟩ (1 : Fin 2) * 128 ≤ (i 1).val ∧ (i 1).val < win2_2.index ⟨(i 0).val / 1000, hlt⟩ (1 : Fin 2) * 128 + 128
              rw [eo1]; omega

/-- After the region the output array is the product of the two arrays as the region found them. -/
theorem final
    (htile : ∀ (A : FVec Ideal S50000x128 .f32) (W : FVec Ideal S128x128 .f32) (x0 : Vec Ideal S1000x128 .f32) (x1 : Vec Ideal S128x128 .f32)
      (o : ℕ) (ho : o + 1000 ≤ 50000)
      (h0 : ∀ (r : Fin 1000) (k : Fin 128), x0 (ix2 r k) = A (ix2 (rowOf o ho r) k))
      (h1 : ∀ (k : Fin 128) (q : Fin 128), x1 (ix2 k q) = W (ix2 k q)) (r : Fin 1000) (q : Fin 128),
      k2_pay1 (F := Ideal) x0 x1 (ix2 r q) = Cert.Gcn.project128 (F := Ideal) A W (ix2 (rowOf o ho r) q))
    (V : VT) (c : Dev nD) :
    (dat2 V c).arrAt 2 cfg2.N = Cert.Gcn.project128 (F := Ideal) (V c main_v22) (V c main_arg5) :=
  (dat2 V c).arrAt_eq_of_cover 2 _ (fun t _ => flushed htile V c t) cover

end Cert.KernelIdeal.Region2

end
-- ==== Proof.Region3.lean ====
/-
  Region 3: the aggregated rows scaled by the inverse degree, plus the bias, then the leaky rectifier, tile by tile.

  Grid point `t` reads rows `1000 t … 1000 t + 999` of the aggregate and of the inverse-degree column, and the whole
  bias row, and writes the same rows of the result. Every entry of the result depends only on the entry of the
  aggregate at the same place, the inverse degree of its row and the bias of its column, so what point `t` writes is
  the restriction to its rows of the whole-array function; the fifty blocks tile the output.
-/
import proofs.«109127_j52484500357541_1_alg».proof.Proof.Gen.KernelIdeal.Frame
import proofs.«109127_j52484500357541_1_alg».proof.Proof.Spec
import proofs.«109127_j52484500357541_1_alg».proof.Proof.Gen.ReferenceIdeal
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat Cfg Window)

/-- The contents of a core's buffers when a region is entered. -/
abbrev VT := (c : Dev nD) → (b : Ref sig .tc) → Buf (Elt Ideal) ((c : Thread nD τ).loc b)

/-- Every access of a tile starts at the origin of its block. -/
theorem hz : (![0, 0] : Fin 2 → Nat) = fun _ => 0 := funext fun a => by fin_cases a <;> rfl

/-- Row `r` of the 1000-row tile whose first row is `o`, as a row of the whole 50000-row array. -/
abbrev rowOf (o : ℕ) (ho : o + 1000 ≤ 50000) (r : Fin 1000) : Fin 50000 := ⟨o + r.val, by omega⟩

/-- The printed index maps over the grid: the output, the aggregate and the column move down one tile per point, the
    bias row stays. -/
theorem idx : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- What point `t` writes back is block `t` of the whole-array function. -/
theorem flushed
    (htile : ∀ (agg : FVec Ideal S50000x128 .f32) (inv : FVec Ideal S50000 .f32) (b : FVec Ideal S128 .f32)
      (x0 : Vec Ideal S1000x128 .f32) (x1 : Vec Ideal S1000x1 .f32) (x2 : Vec Ideal S1x128 .f32) (o : ℕ) (ho : o + 1000 ≤ 50000)
      (h0 : ∀ (r : Fin 1000) (q : Fin 128), x0 (ix2 r q) = agg (ix2 (rowOf o ho r) q))
      (h1 : ∀ r : Fin 1000, x1 (ix2 r (0 : Fin 1)) = inv (ix1 (rowOf o ho r)))
      (h2 : ∀ q : Fin 128, x2 (ix2 (0 : Fin 1) q) = b (ix1 q)) (r : Fin 1000) (q : Fin 128),
      k3_pay1 (F := Ideal) x0 x1 x2 (ix2 r q) = Cert.Gcn.leaky (Cert.Gcn.affine (F := Ideal) agg inv b) (ix2 (rowOf o ho r) q))
    (V : VT) (c : Dev nD) (inv : FVec Ideal S50000 .f32) (b : FVec Ideal S128 .f32)
    (hinv : ∀ p : Fin 50000, V c main_v9 (ix2 p (0 : Fin 1)) = inv (ix1 p))
    (hb : ∀ q : Fin 128, V c main_v34 (ix2 (0 : Fin 1) q) = b (ix1 q)) (t : Fin cfg3.N) :
    (dat3 V c).flushed 3 t = ((cfg3.win 3).blk t).view.read (Elt Ideal) (Cert.Gcn.leaky (Cert.Gcn.affine (F := Ideal) (V c main_v33) inv b)) := by
  show (cfg3.win 3).cut (grid3.coords t) ((dat3 V c).after 3 t) = _
  rw [after3_3]
  unfold out3_3
  rw [View.canon_unit_zero hz]
  simp only [View.ld_unit_zero (S := S1000x128) hz, View.ld_unit_zero (S := S1000x1) hz, View.ld_unit_zero (S := S1x128) hz]
  obtain ⟨e30, e31, e00, e01, e10, e11, e20, e21⟩ := idx t
  have ht : t.val * 1000 + 1000 ≤ 50000 := by have h : t.val < 50 := t.isLt; omega
  funext j
  obtain ⟨r, q, rfl⟩ : ∃ (r : Fin 1000) (q : Fin 128), j = ix2 r q := ⟨j 0, j 1, eq_ix2 j⟩
  show k3_pay1 (iblk3 V c 0 t) (iblk3 V c 1 t) (iblk3 V c 2 t) (ix2 r q)
    = Cert.Gcn.leaky (Cert.Gcn.affine (F := Ideal) (V c main_v33) inv b) (((cfg3.win 3).blk t).view.emb (ix2 r q))
  have hemb : ((cfg3.win 3).blk t).view.emb (ix2 r q) = ix2 (rowOf (t.val * 1000) ht r) q := by
    funext a; apply Fin.ext
    match a with
    | ⟨0, _⟩ => show win3_3.index t (0 : Fin 2) * 1000 + 1 * r.val = t.val * 1000 + r.val; rw [e30]; omega
    | ⟨1, _⟩ => show win3_3.index t (1 : Fin 2) * 128 + 1 * q.val = q.val; rw [e31]; omega
  rw [hemb]
  refine htile (V c main_v33) inv b (iblk3 V c 0 t) (iblk3 V c 1 t) (iblk3 V c 2 t) (t.val * 1000) ht ?_ ?_ ?_ r q
  · intro r q
    show V c main_v33 (((cfg3.win 0).blk t).view.emb (ix2 r q)) = V c main_v33 (ix2 (rowOf (t.val * 1000) ht r) q)
    refine congrArg (V c main_v33) ?_
    funext a; apply Fin.ext
    match a with
    | ⟨0, _⟩ => show win3_0.index t (0 : Fin 2) * 1000 + 1 * r.val = t.val * 1000 + r.val; rw [e00]; omega
    | ⟨1, _⟩ => show win3_0.index t (1 : Fin 2) * 128 + 1 * q.val = q.val; rw [e01]; omega
  · intro r
    show V c main_v9 (((cfg3.win 1).blk t).view.emb (ix2 r (0 : Fin 1))) = inv (ix1 (rowOf (t.val * 1000) ht r))
    refine Eq.trans (congrArg (V c main_v9) ?_) (hinv (rowOf (t.val * 1000) ht r))
    funext a; apply Fin.ext
    match a with
    | ⟨0, _⟩ => show win3_1.index t (0 : Fin 2) * 1000 + 1 * r.val = t.val * 1000 + r.val; rw [e10]; omega
    | ⟨1, _⟩ => show win3_1.index t (1 : Fin 2) * 1 + 1 * (0 : Fin 1).val = (0 : Fin 1).val; rw [e11]; omega
  · intro q
    show V c main_v34 (((cfg3.win 2).blk t).view.emb (ix2 (0 : Fin 1) q)) = b (ix1 q)
    refine Eq.trans (congrArg (V c main_v34) ?_) (hb q)
    funext a; apply Fin.ext
    match a with
    | ⟨0, _⟩ => show win3_2.index t (0 : Fin 2) * 1 + 1 * (0 : Fin 1).val = (0 : Fin 1).val; rw [e20]; omega
    | ⟨1, _⟩ => show win3_2.index t (1 : Fin 2) * 128 + 1 * q.val = q.val; rw [e21]; omega

/-- An index of the output array lies in point `t`'s block iff each coordinate lies in the block's range on its axis. -/
theorem mem_blk (t : Fin cfg3.N) (i : S50000x128.Idx) :
    i ∈ ((cfg3.win 3).blk t).view.set ↔ ∀ a : Fin 2, win3_3.index t a * S1000x128.size a ≤ (i a).val ∧ (i a).val < win3_3.index t a * S1000x128.size a + S1000x128.size a := by
  show i ∈ ((View.whole main_v35).slice (win3_3.rect t)).set ↔ _
  rw [View.set_slice_whole, Rect.mem_set_unit]
  exact Iff.rfl

/-- The blocks tile the output: row `p` lies in the block of grid point `p / 1000`. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hlt : (i 0).val / 1000 < 50 := by omega
  refine ⟨⟨(i 0).val / 1000, hlt⟩, flush3_3 _, ?_⟩
  rw [mem_blk]
  have eo0 := (idx ⟨(i 0).val / 1000, hlt⟩).1
  have eo1 := (idx ⟨(i 0).val / 1000, hlt⟩).2.1
  intro a
  match a with
  | ⟨0, _⟩ => show win3_3.index ⟨(i 0).val / 1000, hlt⟩ (0 : Fin 2) * 1000 ≤ (i 0).val ∧ (i 0).val < win3_3.index ⟨(i 0).val / 1000, hlt⟩ (0 : Fin 2) * 1000 + 1000
              rw [eo0]; show (i 0).val / 1000 * 1000 ≤ (i 0).val ∧ (i 0).val < (i 0).val / 1000 * 1000 + 1000; omega
  | ⟨1, _⟩ => show win3_3.index ⟨(i 0).val / 1000, hlt⟩ (1 : Fin 2) * 128 ≤ (i 1).val ∧ (i 1).val < win3_3.index ⟨(i 0).val / 1000, hlt⟩ (1 : Fin 2) * 128 + 128
              rw [eo1]; omega

/-- After the region the output array is the whole-array function of the aggregate as the region found it, of the
    inverse degrees its column holds and of the bias its row holds. -/
theorem final
    (htile : ∀ (agg : FVec Ideal S50000x128 .f32) (inv : FVec Ideal S50000 .f32) (b : FVec Ideal S128 .f32)
      (x0 : Vec Ideal S1000x128 .f32) (x1 : Vec Ideal S1000x1 .f32) (x2 : Vec Ideal S1x128 .f32) (o : ℕ) (ho : o + 1000 ≤ 50000)
      (h0 : ∀ (r : Fin 1000) (q : Fin 128), x0 (ix2 r q) = agg (ix2 (rowOf o ho r) q))
      (h1 : ∀ r : Fin 1000, x1 (ix2 r (0 : Fin 1)) = inv (ix1 (rowOf o ho r)))
      (h2 : ∀ q : Fin 128, x2 (ix2 (0 : Fin 1) q) = b (ix1 q)) (r : Fin 1000) (q : Fin 128),
      k3_pay1 (F := Ideal) x0 x1 x2 (ix2 r q) = Cert.Gcn.leaky (Cert.Gcn.affine (F := Ideal) agg inv b) (ix2 (rowOf o ho r) q))
    (V : VT) (c : Dev nD) (inv : FVec Ideal S50000 .f32) (b : FVec Ideal S128 .f32)
    (hinv : ∀ p : Fin 50000, V c main_v9 (ix2 p (0 : Fin 1)) = inv (ix1 p))
    (hb : ∀ q : Fin 128, V c main_v34 (ix2 (0 : Fin 1) q) = b (ix1 q)) :
    (dat3 V c).arrAt 3 cfg3.N = Cert.Gcn.leaky (Cert.Gcn.affine (F := Ideal) (V c main_v33) inv b) :=
  (dat3 V c).arrAt_eq_of_cover 3 _ (fun t _ => flushed htile V c inv b hinv hb t) cover

end Cert.KernelIdeal.Region3

end
-- ==== Proof.Region4.lean ====
/-
  Region 4: a dense product computed tile by tile.

  Grid point `t` reads rows `1000 t … 1000 t + 999` of the left array and the whole right array, and writes rows
  `1000 t … 1000 t + 999` of the product. An entry of a product depends only on its own row of the left array, so what
  point `t` writes is the restriction to those rows of the product of the whole arrays; the fifty blocks tile the
  output, so after the region the output array is that product.
-/
import proofs.«109127_j52484500357541_1_alg».proof.Proof.Gen.KernelIdeal.Frame
import proofs.«109127_j52484500357541_1_alg».proof.Proof.Spec
import proofs.«109127_j52484500357541_1_alg».proof.Proof.Gen.ReferenceIdeal
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.ShloMosaic.ValueIdx
open Idealize.ShloMosaic.Pipeline (Dat Cfg Window)

/-- The contents of a core's buffers when a region is entered. -/
abbrev VT := (c : Dev nD) → (b : Ref sig .tc) → Buf (Elt Ideal) ((c : Thread nD τ).loc b)

/-- Every access of a tile starts at the origin of its block. -/
theorem hz : (![0, 0] : Fin 2 → Nat) = fun _ => 0 := funext fun a => by fin_cases a <;> rfl

/-- Row `r` of the 1000-row tile whose first row is `o`, as a row of the whole 50000-row array. -/
abbrev rowOf (o : ℕ) (ho : o + 1000 ≤ 50000) (r : Fin 1000) : Fin 50000 := ⟨o + r.val, by omega⟩

/-- The printed index maps over the grid: the output and the left operand move down one tile per point, the right
    operand stays. -/
theorem idx : ∀ t : Fin cfg4.N, win4_2.index t (0 : Fin 2) = t.val ∧ win4_2.index t (1 : Fin 2) = 0
    ∧ win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- What point `t` writes back is block `t` of the product of the whole arrays. -/
theorem flushed
    (htile : ∀ (A : FVec Ideal S50000x128 .f32) (W : FVec Ideal S128x128 .f32) (x0 : Vec Ideal S1000x128 .f32) (x1 : Vec Ideal S128x128 .f32)
      (o : ℕ) (ho : o + 1000 ≤ 50000)
      (h0 : ∀ (r : Fin 1000) (k : Fin 128), x0 (ix2 r k) = A (ix2 (rowOf o ho r) k))
      (h1 : ∀ (k : Fin 128) (q : Fin 128), x1 (ix2 k q) = W (ix2 k q)) (r : Fin 1000) (q : Fin 128),
      k4_pay1 (F := Ideal) x0 x1 (ix2 r q) = Cert.Gcn.project128 (F := Ideal) A W (ix2 (rowOf o ho r) q))
    (V : VT) (c : Dev nD) (t : Fin cfg4.N) :
    (dat4 V c).flushed 2 t = ((cfg4.win 2).blk t).view.read (Elt Ideal) (Cert.Gcn.project128 (F := Ideal) (V c main_v35) (V c main_arg7)) := by
  show (cfg4.win 2).cut (grid4.coords t) ((dat4 V c).after 2 t) = _
  rw [after4_2]
  unfold out4_2
  rw [View.canon_unit_zero hz]
  simp only [View.ld_unit_zero (S := S1000x128) hz, View.ld_unit_zero (S := S128x128) hz]
  obtain ⟨e20, e21, e00, e01, e10, e11⟩ := idx t
  have ht : t.val * 1000 + 1000 ≤ 50000 := by have h : t.val < 50 := t.isLt; omega
  funext j
  obtain ⟨r, q, rfl⟩ : ∃ (r : Fin 1000) (q : Fin 128), j = ix2 r q := ⟨j 0, j 1, eq_ix2 j⟩
  show k4_pay1 (iblk4 V c 0 t) (iblk4 V c 1 t) (ix2 r q)
    = Cert.Gcn.project128 (F := Ideal) (V c main_v35) (V c main_arg7) (((cfg4.win 2).blk t).view.emb (ix2 r q))
  have hemb : ((cfg4.win 2).blk t).view.emb (ix2 r q) = ix2 (rowOf (t.val * 1000) ht r) q := by
    funext a; apply Fin.ext
    match a with
    | ⟨0, _⟩ => show win4_2.index t (0 : Fin 2) * 1000 + 1 * r.val = t.val * 1000 + r.val; rw [e20]; omega
    | ⟨1, _⟩ => show win4_2.index t (1 : Fin 2) * 128 + 1 * q.val = q.val; rw [e21]; omega
  rw [hemb]
  refine htile (V c main_v35) (V c main_arg7) (iblk4 V c 0 t) (iblk4 V c 1 t) (t.val * 1000) ht ?_ ?_ r q
  · intro r k
    show V c main_v35 (((cfg4.win 0).blk t).view.emb (ix2 r k)) = V c main_v35 (ix2 (rowOf (t.val * 1000) ht r) k)
    refine congrArg (V c main_v35) ?_
    funext a; apply Fin.ext
    match a with
    | ⟨0, _⟩ => show win4_0.index t (0 : Fin 2) * 1000 + 1 * r.val = t.val * 1000 + r.val; rw [e00]; omega
    | ⟨1, _⟩ => show win4_0.index t (1 : Fin 2) * 128 + 1 * k.val = k.val; rw [e01]; omega
  · intro k q
    show V c main_arg7 (((cfg4.win 1).blk t).view.emb (ix2 k q)) = V c main_arg7 (ix2 k q)
    refine congrArg (V c main_arg7) ?_
    funext a; apply Fin.ext
    match a with
    | ⟨0, _⟩ => show win4_1.index t (0 : Fin 2) * 128 + 1 * k.val = k.val; rw [e10]; omega
    | ⟨1, _⟩ => show win4_1.index t (1 : Fin 2) * 128 + 1 * q.val = q.val; rw [e11]; omega

/-- An index of the output array lies in point `t`'s block iff each coordinate lies in the block's range on its axis. -/
theorem mem_blk (t : Fin cfg4.N) (i : S50000x128.Idx) :
    i ∈ ((cfg4.win 2).blk t).view.set ↔ ∀ a : Fin 2, win4_2.index t a * S1000x128.size a ≤ (i a).val ∧ (i a).val < win4_2.index t a * S1000x128.size a + S1000x128.size a := by
  show i ∈ ((View.whole main_v36).slice (win4_2.rect t)).set ↔ _
  rw [View.set_slice_whole, Rect.mem_set_unit]
  exact Iff.rfl

/-- The blocks tile the output: row `p` lies in the block of grid point `p / 1000`. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hlt : (i 0).val / 1000 < 50 := by omega
  refine ⟨⟨(i 0).val / 1000, hlt⟩, flush4_2 _, ?_⟩
  rw [mem_blk]
  have eo0 := (idx ⟨(i 0).val / 1000, hlt⟩).1
  have eo1 := (idx ⟨(i 0).val / 1000, hlt⟩).2.1
  intro a
  match a with
  | ⟨0, _⟩ => show win4_2.index ⟨(i 0).val / 1000, hlt⟩ (0 : Fin 2) * 1000 ≤ (i 0).val ∧ (i 0).val < win4_2.index ⟨(i 0).val / 1000, hlt⟩ (0 : Fin 2) * 1000 + 1000
              rw [eo0]; show (i 0).val / 1000 * 1000 ≤ (i 0).val ∧ (i 0).val < (i 0).val / 1000 * 1000 + 1000; omega
  | ⟨1, _⟩ => show win4_2.index ⟨(i 0).val / 1000, hlt⟩ (1 : Fin 2) * 128 ≤ (i 1).val ∧ (i 1).val < win4_2.index ⟨(i 0).val / 1000, hlt⟩ (1 : Fin 2) * 128 + 128
              rw [eo1]; omega

/-- After the region the output array is the product of the two arrays as the region found them. -/
theorem final
    (htile : ∀ (A : FVec Ideal S50000x128 .f32) (W : FVec Ideal S128x128 .f32) (x0 : Vec Ideal S1000x128 .f32) (x1 : Vec Ideal S128x128 .f32)
      (o : ℕ) (ho : o + 1000 ≤ 50000)
      (h0 : ∀ (r : Fin 1000) (k : Fin 128), x0 (ix2 r k) = A (ix2 (rowOf o ho r) k))
      (h1 : ∀ (k : Fin 128) (q : Fin 128), x1 (ix2 k q) = W (ix2 k q)) (r : Fin 1000) (q : Fin 128),
      k4_pay1 (F := Ideal) x0 x1 (ix2 r q) = Cert.Gcn.project128 (F := Ideal) A W (ix2 (rowOf o ho r) q))
    (V : VT) (c : Dev nD) :
    (dat4 V c).arrAt 2 cfg4.N = Cert.Gcn.project128 (F := Ideal) (V c main_v35) (V c main_arg7) :=
  (dat4 V c).arrAt_eq_of_cover 2 _ (fun t _ => flushed htile V c t) cover

end Cert.KernelIdeal.Region4

end
-- ==== Proof.Region5.lean ====
/-
  Region 5: the aggregated rows scaled by the inverse degree, plus the bias, tile by tile.

  Grid point `t` reads rows `1000 t … 1000 t + 999` of the aggregate and of the inverse-degree column, and the whole
  bias row, and writes the same rows of the result. Every entry of the result depends only on the entry of the
  aggregate at the same place, the inverse degree of its row and the bias of its column, so what point `t` writes is
  the restriction to its rows of the whole-array function; the fifty blocks tile the output.
-/
import proofs.«109127_j52484500357541_1_alg».proof.Proof.Gen.KernelIdeal.Frame
import proofs.«109127_j52484500357541_1_alg».proof.Proof.Spec
import proofs.«109127_j52484500357541_1_alg».proof.Proof.Gen.ReferenceIdeal
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.ShloMosaic.ValueIdx
open Idealize.ShloMosaic.Pipeline (Dat Cfg Window)

/-- The contents of a core's buffers when a region is entered. -/
abbrev VT := (c : Dev nD) → (b : Ref sig .tc) → Buf (Elt Ideal) ((c : Thread nD τ).loc b)

/-- Every access of a tile starts at the origin of its block. -/
theorem hz : (![0, 0] : Fin 2 → Nat) = fun _ => 0 := funext fun a => by fin_cases a <;> rfl

/-- Row `r` of the 1000-row tile whose first row is `o`, as a row of the whole 50000-row array. -/
abbrev rowOf (o : ℕ) (ho : o + 1000 ≤ 50000) (r : Fin 1000) : Fin 50000 := ⟨o + r.val, by omega⟩

/-- The printed index maps over the grid: the output, the aggregate and the column move down one tile per point, the
    bias row stays. -/
theorem idx : ∀ t : Fin cfg5.N, win5_3.index t (0 : Fin 2) = t.val ∧ win5_3.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

/-- What point `t` writes back is block `t` of the whole-array function. -/
theorem flushed
    (htile : ∀ (agg : FVec Ideal S50000x128 .f32) (inv : FVec Ideal S50000 .f32) (b : FVec Ideal S128 .f32)
      (x0 : Vec Ideal S1000x128 .f32) (x1 : Vec Ideal S1000x1 .f32) (x2 : Vec Ideal S1x128 .f32) (o : ℕ) (ho : o + 1000 ≤ 50000)
      (h0 : ∀ (r : Fin 1000) (q : Fin 128), x0 (ix2 r q) = agg (ix2 (rowOf o ho r) q))
      (h1 : ∀ r : Fin 1000, x1 (ix2 r (0 : Fin 1)) = inv (ix1 (rowOf o ho r)))
      (h2 : ∀ q : Fin 128, x2 (ix2 (0 : Fin 1) q) = b (ix1 q)) (r : Fin 1000) (q : Fin 128),
      k5_pay1 (F := Ideal) x0 x1 x2 (ix2 r q) = Cert.Gcn.affine (F := Ideal) agg inv b (ix2 (rowOf o ho r) q))
    (V : VT) (c : Dev nD) (inv : FVec Ideal S50000 .f32) (b : FVec Ideal S128 .f32)
    (hinv : ∀ p : Fin 50000, V c main_v9 (ix2 p (0 : Fin 1)) = inv (ix1 p))
    (hb : ∀ q : Fin 128, V c main_v47 (ix2 (0 : Fin 1) q) = b (ix1 q)) (t : Fin cfg5.N) :
    (dat5 V c).flushed 3 t = ((cfg5.win 3).blk t).view.read (Elt Ideal) (Cert.Gcn.affine (F := Ideal) (V c main_v46) inv b) := by
  show (cfg5.win 3).cut (grid5.coords t) ((dat5 V c).after 3 t) = _
  rw [after5_3]
  unfold out5_3
  rw [View.canon_unit_zero hz]
  simp only [View.ld_unit_zero (S := S1000x128) hz, View.ld_unit_zero (S := S1000x1) hz, View.ld_unit_zero (S := S1x128) hz]
  obtain ⟨e30, e31, e00, e01, e10, e11, e20, e21⟩ := idx t
  have ht : t.val * 1000 + 1000 ≤ 50000 := by have h : t.val < 50 := t.isLt; omega
  funext j
  obtain ⟨r, q, rfl⟩ : ∃ (r : Fin 1000) (q : Fin 128), j = ix2 r q := ⟨j 0, j 1, eq_ix2 j⟩
  show k5_pay1 (iblk5 V c 0 t) (iblk5 V c 1 t) (iblk5 V c 2 t) (ix2 r q)
    = Cert.Gcn.affine (F := Ideal) (V c main_v46) inv b (((cfg5.win 3).blk t).view.emb (ix2 r q))
  have hemb : ((cfg5.win 3).blk t).view.emb (ix2 r q) = ix2 (rowOf (t.val * 1000) ht r) q := by
    funext a; apply Fin.ext
    match a with
    | ⟨0, _⟩ => show win5_3.index t (0 : Fin 2) * 1000 + 1 * r.val = t.val * 1000 + r.val; rw [e30]; omega
    | ⟨1, _⟩ => show win5_3.index t (1 : Fin 2) * 128 + 1 * q.val = q.val; rw [e31]; omega
  rw [hemb]
  refine htile (V c main_v46) inv b (iblk5 V c 0 t) (iblk5 V c 1 t) (iblk5 V c 2 t) (t.val * 1000) ht ?_ ?_ ?_ r q
  · intro r q
    show V c main_v46 (((cfg5.win 0).blk t).view.emb (ix2 r q)) = V c main_v46 (ix2 (rowOf (t.val * 1000) ht r) q)
    refine congrArg (V c main_v46) ?_
    funext a; apply Fin.ext
    match a with
    | ⟨0, _⟩ => show win5_0.index t (0 : Fin 2) * 1000 + 1 * r.val = t.val * 1000 + r.val; rw [e00]; omega
    | ⟨1, _⟩ => show win5_0.index t (1 : Fin 2) * 128 + 1 * q.val = q.val; rw [e01]; omega
  · intro r
    show V c main_v9 (((cfg5.win 1).blk t).view.emb (ix2 r (0 : Fin 1))) = inv (ix1 (rowOf (t.val * 1000) ht r))
    refine Eq.trans (congrArg (V c main_v9) ?_) (hinv (rowOf (t.val * 1000) ht r))
    funext a; apply Fin.ext
    match a with
    | ⟨0, _⟩ => show win5_1.index t (0 : Fin 2) * 1000 + 1 * r.val = t.val * 1000 + r.val; rw [e10]; omega
    | ⟨1, _⟩ => show win5_1.index t (1 : Fin 2) * 1 + 1 * (0 : Fin 1).val = (0 : Fin 1).val; rw [e11]; omega
  · intro q
    show V c main_v47 (((cfg5.win 2).blk t).view.emb (ix2 (0 : Fin 1) q)) = b (ix1 q)
    refine Eq.trans (congrArg (V c main_v47) ?_) (hb q)
    funext a; apply Fin.ext
    match a with
    | ⟨0, _⟩ => show win5_2.index t (0 : Fin 2) * 1 + 1 * (0 : Fin 1).val = (0 : Fin 1).val; rw [e20]; omega
    | ⟨1, _⟩ => show win5_2.index t (1 : Fin 2) * 128 + 1 * q.val = q.val; rw [e21]; omega

/-- An index of the output array lies in point `t`'s block iff each coordinate lies in the block's range on its axis. -/
theorem mem_blk (t : Fin cfg5.N) (i : S50000x128.Idx) :
    i ∈ ((cfg5.win 3).blk t).view.set ↔ ∀ a : Fin 2, win5_3.index t a * S1000x128.size a ≤ (i a).val ∧ (i a).val < win5_3.index t a * S1000x128.size a + S1000x128.size a := by
  show i ∈ ((View.whole main_v48).slice (win5_3.rect t)).set ↔ _
  rw [View.set_slice_whole, Rect.mem_set_unit]
  exact Iff.rfl

/-- The blocks tile the output: row `p` lies in the block of grid point `p / 1000`. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hlt : (i 0).val / 1000 < 50 := by omega
  refine ⟨⟨(i 0).val / 1000, hlt⟩, flush5_3 _, ?_⟩
  rw [mem_blk]
  have eo0 := (idx ⟨(i 0).val / 1000, hlt⟩).1
  have eo1 := (idx ⟨(i 0).val / 1000, hlt⟩).2.1
  intro a
  match a with
  | ⟨0, _⟩ => show win5_3.index ⟨(i 0).val / 1000, hlt⟩ (0 : Fin 2) * 1000 ≤ (i 0).val ∧ (i 0).val < win5_3.index ⟨(i 0).val / 1000, hlt⟩ (0 : Fin 2) * 1000 + 1000
              rw [eo0]; show (i 0).val / 1000 * 1000 ≤ (i 0).val ∧ (i 0).val < (i 0).val / 1000 * 1000 + 1000; omega
  | ⟨1, _⟩ => show win5_3.index ⟨(i 0).val / 1000, hlt⟩ (1 : Fin 2) * 128 ≤ (i 1).val ∧ (i 1).val < win5_3.index ⟨(i 0).val / 1000, hlt⟩ (1 : Fin 2) * 128 + 128
              rw [eo1]; omega

/-- After the region the output array is the whole-array function of the aggregate as the region found it, of the
    inverse degrees its column holds and of the bias its row holds. -/
theorem final
    (htile : ∀ (agg : FVec Ideal S50000x128 .f32) (inv : FVec Ideal S50000 .f32) (b : FVec Ideal S128 .f32)
      (x0 : Vec Ideal S1000x128 .f32) (x1 : Vec Ideal S1000x1 .f32) (x2 : Vec Ideal S1x128 .f32) (o : ℕ) (ho : o + 1000 ≤ 50000)
      (h0 : ∀ (r : Fin 1000) (q : Fin 128), x0 (ix2 r q) = agg (ix2 (rowOf o ho r) q))
      (h1 : ∀ r : Fin 1000, x1 (ix2 r (0 : Fin 1)) = inv (ix1 (rowOf o ho r)))
      (h2 : ∀ q : Fin 128, x2 (ix2 (0 : Fin 1) q) = b (ix1 q)) (r : Fin 1000) (q : Fin 128),
      k5_pay1 (F := Ideal) x0 x1 x2 (ix2 r q) = Cert.Gcn.affine (F := Ideal) agg inv b (ix2 (rowOf o ho r) q))
    (V : VT) (c : Dev nD) (inv : FVec Ideal S50000 .f32) (b : FVec Ideal S128 .f32)
    (hinv : ∀ p : Fin 50000, V c main_v9 (ix2 p (0 : Fin 1)) = inv (ix1 p))
    (hb : ∀ q : Fin 128, V c main_v47 (ix2 (0 : Fin 1) q) = b (ix1 q)) :
    (dat5 V c).arrAt 3 cfg5.N = Cert.Gcn.affine (F := Ideal) (V c main_v46) inv b :=
  (dat5 V c).arrAt_eq_of_cover 3 _ (fun t _ => flushed htile V c inv b hinv hb t) cover

end Cert.KernelIdeal.Region5

end
-- ==== Proof.Region6.lean ====
/-
  Region 6: each row divided by the larger of its Euclidean norm and a small constant, tile by tile.

  Grid point `t` reads rows `1000 t … 1000 t + 999` and writes the same rows. A normalised row depends on that row
  alone, so what point `t` writes is the restriction to its rows of the whole-array normalisation; the fifty blocks
  tile the output.
-/
import proofs.«109127_j52484500357541_1_alg».proof.Proof.Gen.KernelIdeal.Frame
import proofs.«109127_j52484500357541_1_alg».proof.Proof.Spec
import proofs.«109127_j52484500357541_1_alg».proof.Proof.Gen.ReferenceIdeal
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.ShloMosaic.ValueIdx
open Idealize.ShloMosaic.Pipeline (Dat Cfg Window)

/-- The contents of a core's buffers when a region is entered. -/
abbrev VT := (c : Dev nD) → (b : Ref sig .tc) → Buf (Elt Ideal) ((c : Thread nD τ).loc b)

/-- Every access of a tile starts at the origin of its block. -/
theorem hz : (![0, 0] : Fin 2 → Nat) = fun _ => 0 := funext fun a => by fin_cases a <;> rfl

/-- Row `r` of the 1000-row tile whose first row is `o`, as a row of the whole 50000-row array. -/
abbrev rowOf (o : ℕ) (ho : o + 1000 ≤ 50000) (r : Fin 1000) : Fin 50000 := ⟨o + r.val, by omega⟩

/-- The printed index maps over the grid: input and output move down one tile per point. -/
theorem idx : ∀ t : Fin cfg6.N, win6_1.index t (0 : Fin 2) = t.val ∧ win6_1.index t (1 : Fin 2) = 0
    ∧ win6_0.index t (0 : Fin 2) = t.val ∧ win6_0.index t (1 : Fin 2) = 0 :=
  (by decide +kernel : ∀ t : Fin grid6.N, _)

/-- What point `t` writes back is block `t` of the whole-array normalisation. -/
theorem flushed
    (htile : ∀ (h : FVec Ideal S50000x128 .f32) (x0 : Vec Ideal S1000x128 .f32) (o : ℕ) (ho : o + 1000 ≤ 50000)
      (h0 : ∀ (r : Fin 1000) (q : Fin 128), x0 (ix2 r q) = h (ix2 (rowOf o ho r) q)) (r : Fin 1000) (q : Fin 128),
      k6_pay1 (F := Ideal) x0 (ix2 r q) = Cert.Gcn.rowNormalize (F := Ideal) h (ix2 (rowOf o ho r) q))
    (V : VT) (c : Dev nD) (t : Fin cfg6.N) :
    (dat6 V c).flushed 1 t = ((cfg6.win 1).blk t).view.read (Elt Ideal) (Cert.Gcn.rowNormalize (F := Ideal) (V c main_v48)) := by
  show (cfg6.win 1).cut (grid6.coords t) ((dat6 V c).after 1 t) = _
  rw [after6_1]
  unfold out6_1
  rw [View.canon_unit_zero hz]
  simp only [View.ld_unit_zero (S := S1000x128) hz]
  obtain ⟨e10, e11, e00, e01⟩ := idx t
  have ht : t.val * 1000 + 1000 ≤ 50000 := by have h : t.val < 50 := t.isLt; omega
  funext j
  obtain ⟨r, q, rfl⟩ : ∃ (r : Fin 1000) (q : Fin 128), j = ix2 r q := ⟨j 0, j 1, eq_ix2 j⟩
  show k6_pay1 (iblk6 V c 0 t) (ix2 r q)
    = Cert.Gcn.rowNormalize (F := Ideal) (V c main_v48) (((cfg6.win 1).blk t).view.emb (ix2 r q))
  have hemb : ((cfg6.win 1).blk t).view.emb (ix2 r q) = ix2 (rowOf (t.val * 1000) ht r) q := by
    funext a; apply Fin.ext
    match a with
    | ⟨0, _⟩ => show win6_1.index t (0 : Fin 2) * 1000 + 1 * r.val = t.val * 1000 + r.val; rw [e10]; omega
    | ⟨1, _⟩ => show win6_1.index t (1 : Fin 2) * 128 + 1 * q.val = q.val; rw [e11]; omega
  rw [hemb]
  refine htile (V c main_v48) (iblk6 V c 0 t) (t.val * 1000) ht ?_ r q
  intro r q
  show V c main_v48 (((cfg6.win 0).blk t).view.emb (ix2 r q)) = V c main_v48 (ix2 (rowOf (t.val * 1000) ht r) q)
  refine congrArg (V c main_v48) ?_
  funext a; apply Fin.ext
  match a with
  | ⟨0, _⟩ => show win6_0.index t (0 : Fin 2) * 1000 + 1 * r.val = t.val * 1000 + r.val; rw [e00]; omega
  | ⟨1, _⟩ => show win6_0.index t (1 : Fin 2) * 128 + 1 * q.val = q.val; rw [e01]; omega

/-- An index of the output array lies in point `t`'s block iff each coordinate lies in the block's range on its axis. -/
theorem mem_blk (t : Fin cfg6.N) (i : S50000x128.Idx) :
    i ∈ ((cfg6.win 1).blk t).view.set ↔ ∀ a : Fin 2, win6_1.index t a * S1000x128.size a ≤ (i a).val ∧ (i a).val < win6_1.index t a * S1000x128.size a + S1000x128.size a := by
  show i ∈ ((View.whole main_v49).slice (win6_1.rect t)).set ↔ _
  rw [View.set_slice_whole, Rect.mem_set_unit]
  exact Iff.rfl

/-- The blocks tile the output: row `p` lies in the block of grid point `p / 1000`. -/
theorem cover (i : S50000x128.Idx) : ∃ t : Fin cfg6.N, (cfg6.win 1).flush t = true ∧ i ∈ ((cfg6.win 1).blk t).view.set := by
  have hi0 : (i 0).val < 50000 := (i 0).isLt
  have hi1 : (i 1).val < 128 := (i 1).isLt
  have hlt : (i 0).val / 1000 < 50 := by omega
  refine ⟨⟨(i 0).val / 1000, hlt⟩, flush6_1 _, ?_⟩
  rw [mem_blk]
  have eo0 := (idx ⟨(i 0).val / 1000, hlt⟩).1
  have eo1 := (idx ⟨(i 0).val / 1000, hlt⟩).2.1
  intro a
  match a with
  | ⟨0, _⟩ => show win6_1.index ⟨(i 0).val / 1000, hlt⟩ (0 : Fin 2) * 1000 ≤ (i 0).val ∧ (i 0).val < win6_1.index ⟨(i 0).val / 1000, hlt⟩ (0 : Fin 2) * 1000 + 1000
              rw [eo0]; show (i 0).val / 1000 * 1000 ≤ (i 0).val ∧ (i 0).val < (i 0).val / 1000 * 1000 + 1000; omega
  | ⟨1, _⟩ => show win6_1.index ⟨(i 0).val / 1000, hlt⟩ (1 : Fin 2) * 128 ≤ (i 1).val ∧ (i 1).val < win6_1.index ⟨(i 0).val / 1000, hlt⟩ (1 : Fin 2) * 128 + 128
              rw [eo1]; omega

/-- After the region the output array is the normalisation of the input array as the region found it. -/
theorem final
    (htile : ∀ (h : FVec Ideal S50000x128 .f32) (x0 : Vec Ideal S1000x128 .f32) (o : ℕ) (ho : o + 1000 ≤ 50000)
      (h0 : ∀ (r : Fin 1000) (q : Fin 128), x0 (ix2 r q) = h (ix2 (rowOf o ho r) q)) (r : Fin 1000) (q : Fin 128),
      k6_pay1 (F := Ideal) x0 (ix2 r q) = Cert.Gcn.rowNormalize (F := Ideal) h (ix2 (rowOf o ho r) q))
    (V : VT) (c : Dev nD) :
    (dat6 V c).arrAt 1 cfg6.N = Cert.Gcn.rowNormalize (F := Ideal) (V c main_v48) :=
  (dat6 V c).arrAt_eq_of_cover 1 _ (fun t _ => flushed htile V c t) cover

end Cert.KernelIdeal.Region6

end
-- ==== Proof.Claims.lean ====
/-
  The five claims of the certificate.

  The kernel program runs seven tiled regions among host gathers and scatter-adds; the reference is one straight line of
  host operations. At the ideal values both end with the same array: the three-layer graph convolution `Cert.Gcn.network`
  of the nine arguments.
    * Kernel side: the run ends with the result array at the contents the last segment boundary assigns to it
      (`RunValue.run`); read back through the boundaries (`ChainValue.out_eq`) that is `network` of the arguments, each
      region's output array being the whole-array function of its input arrays (`RegionK.final`), because each tile's
      body, entry by entry, is that function on the tile's rows (`Cert.Gcn.Tile`).
    * Reference side: the run read back operation by operation is `network` of the arguments (`RefValue.run`).
  The two products agree because a sum of extended reals needs no order or blocking; the two leaky steps agree because they
  differ only at zero, where both give zero. No finiteness of the inputs is used.
-/
import proofs.«109127_j52484500357541_1_alg».proof.Defs
import proofs.«109127_j52484500357541_1_alg».proof.Proof.Gen.Kernel.Frame
import proofs.«109127_j52484500357541_1_alg».proof.Proof.Gen.KernelIdeal.Frame
import proofs.«109127_j52484500357541_1_alg».proof.Proof.Gen.ReferenceIdeal
import proofs.«109127_j52484500357541_1_alg».proof.Proof.Gen.Pre_finite_inputs
import proofs.«109127_j52484500357541_1_alg».proof.Proof.Spec
import proofs.«109127_j52484500357541_1_alg».proof.Proof.KernelRun
import proofs.«109127_j52484500357541_1_alg».proof.Proof.KernelChain
import proofs.«109127_j52484500357541_1_alg».proof.Proof.RefRun
import proofs.«109127_j52484500357541_1_alg».proof.Proof.TileMat
import proofs.«109127_j52484500357541_1_alg».proof.Proof.TileCombine
import proofs.«109127_j52484500357541_1_alg».proof.Proof.TileNormalize
import proofs.«109127_j52484500357541_1_alg».proof.Proof.Region0
import proofs.«109127_j52484500357541_1_alg».proof.Proof.Region1
import proofs.«109127_j52484500357541_1_alg».proof.Proof.Region2
import proofs.«109127_j52484500357541_1_alg».proof.Proof.Region3
import proofs.«109127_j52484500357541_1_alg».proof.Proof.Region4
import proofs.«109127_j52484500357541_1_alg».proof.Proof.Region5
import proofs.«109127_j52484500357541_1_alg».proof.Proof.Region6

noncomputable section

namespace Cert.Proof.Claims

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote nothing: the idealized kernel is the kernel's own text read at the ideal values. -/
theorem preserves : Cert.preserves_Kernel_KernelIdeal := trivial

/-- The result array of the kernel program after its run, as a function of the launch memory. -/
theorem kernel_out (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W13 m ρ c (Proc.devRef .tc Cert.KernelIdeal.main_v49)
      = Cert.Gcn.network (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) :=
  Cert.KernelIdeal.ChainValue.out_eq m ρ c
    (fun V c => Cert.KernelIdeal.Region0.final Cert.Gcn.Tile.mat300 V c)
    (fun V c inv b hinv hb => Cert.KernelIdeal.Region1.final Cert.Gcn.Tile.combineRelu_1 V c inv b hinv hb)
    (fun V c => Cert.KernelIdeal.Region2.final Cert.Gcn.Tile.mat128_2 V c)
    (fun V c inv b hinv hb => Cert.KernelIdeal.Region3.final Cert.Gcn.Tile.combineRelu_3 V c inv b hinv hb)
    (fun V c => Cert.KernelIdeal.Region4.final Cert.Gcn.Tile.mat128_4 V c)
    (fun V c inv b hinv hb => Cert.KernelIdeal.Region5.final Cert.Gcn.Tile.combine_5 V c inv b hinv hb)
    (fun V c => Cert.KernelIdeal.Region6.final Cert.Gcn.Tile.normalize_6 V c)

/-- From memories that agree on the arguments both programs run, keep their arguments and end with the same result
    array, `network` of the arguments. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (kernel_out m ρ c), (h c).2⟩)
      (Cert.KernelIdeal.RunValue.run (F := Ideal) m ρ)
  · refine (θ_run Cert.ReferenceIdeal.defs _ _).mono (fun r h c => ⟨(h c).1.trans ?_, (h c).2⟩) (Cert.ReferenceIdeal.RefValue.run (F := Ideal) m' ρ')
    obtain ⟨a0, a1, a2, a3, a4, a5, a6, a7, a8⟩ := hagree c
    rw [a0, a1, a2, a3, a4, a5, a6, a7, a8]

end Cert.Proof.Claims

end
-- ==== Proof.lean ====
/-
  The certificate: the programs' stated side conditions hold (the generated witnesses), the three programs run and keep
  their argument arrays, the idealized kernel is the kernel's own text read at the ideal values, and at the ideal values
  the kernel program and the reference end with the same array — the three-layer graph convolution of the arguments
  (Proof/Claims.lean).
-/
import proofs.«109127_j52484500357541_1_alg».proof.Defs
import proofs.«109127_j52484500357541_1_alg».proof.Proof.Gen.Kernel
import proofs.«109127_j52484500357541_1_alg».proof.Proof.Gen.KernelIdeal
import proofs.«109127_j52484500357541_1_alg».proof.Proof.Gen.ReferenceIdeal
import proofs.«109127_j52484500357541_1_alg».proof.Proof.Gen.Pre_finite_inputs
import proofs.«109127_j52484500357541_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
